-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S4 : Shape := ⟨1, ![4]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S8192x512 .f32) (main_arg1 : IVec S2x262144 32) (main_arg2 : FVec F S512x512 .f32) (main_arg3 : FVec F S512 .f32) (main_arg4 : FVec F S4 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S4 : Shape := ⟨1, ![4]⟩
abbrev S1x512 : Shape := ⟨2, ![1, 512]⟩
abbrev S2048x512 : Shape := ⟨2, ![2048, 512]⟩
abbrev S1x262144 : Shape := ⟨2, ![1, 262144]⟩
abbrev S262144 : Shape := ⟨1, ![262144]⟩
abbrev S524288 : Shape := ⟨1, ![524288]⟩
abbrev S_ : Shape := ⟨0, ![]⟩
abbrev S8192x8192 : Shape := ⟨2, ![8192, 8192]⟩
abbrev S524288x1 : Shape := ⟨2, ![524288, 1]⟩
abbrev S524288x2 : Shape := ⟨2, ![524288, 2]⟩
abbrev S8192 : Shape := ⟨1, ![8192]⟩
abbrev S8192x1 : Shape := ⟨2, ![8192, 1]⟩
abbrev S8192x2 : Shape := ⟨2, ![8192, 2]⟩
abbrev S1 : Shape := ⟨1, ![1]⟩
abbrev S2048x1024 : Shape := ⟨2, ![2048, 1024]⟩
abbrev S1024x512 : Shape := ⟨2, ![1024, 512]⟩
abbrev S2048x1 : Shape := ⟨2, ![2048, 1]⟩

abbrev nBuf : Space → Nat
  | .hbm => 96
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S4, .f32⟩
  | .hbm, ⟨5, _⟩ => ⟨S8192x512, .bf16⟩
  | .hbm, ⟨6, _⟩ => ⟨S512x512, .bf16⟩
  | .hbm, ⟨7, _⟩ => ⟨S1x512, .f32⟩
  | .hbm, ⟨8, _⟩ => ⟨S8192x512, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S524288, .i32⟩
  | .hbm, ⟨14, _⟩ => ⟨S524288, .i32⟩
  | .hbm, ⟨15, _⟩ => ⟨S_, .f32⟩
  | .hbm, ⟨16, _⟩ => ⟨S8192x8192, .f32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288x1, .i32⟩
  | .hbm, ⟨33, _⟩ => ⟨S524288x2, .i32⟩
  | .hbm, ⟨34, _⟩ => ⟨S_, .f32⟩
  | .hbm, ⟨35, _⟩ => ⟨S524288, .f32⟩
  | .hbm, ⟨36, _⟩ => ⟨S8192x8192, .f32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S8192x1, .i32⟩
  | .hbm, ⟨54, _⟩ => ⟨S8192x2, .i32⟩
  | .hbm, ⟨55, _⟩ => ⟨S_, .f32⟩
  | .hbm, ⟨56, _⟩ => ⟨S8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x8192, .bf16⟩
  | .hbm, ⟨68, _⟩ => ⟨S1, .f32⟩
  | .hbm, ⟨69, _⟩ => ⟨S_, .f32⟩
  | .hbm, ⟨70, _⟩ => ⟨S8192x512, .f32⟩
  | .hbm, ⟨71, _⟩ => ⟨S8192x512, .f32⟩
  | .hbm, ⟨72, _⟩ => ⟨S8192x512, .bf16⟩
  | .hbm, ⟨73, _⟩ => ⟨S8192x512, .f32⟩
  | .hbm, ⟨74, _⟩ => ⟨S1, .f32⟩
  | .hbm, ⟨75, _⟩ => ⟨S_, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .bf16⟩
  | .hbm, ⟨80, _⟩ => ⟨S8192x512, .f32⟩
  | .hbm, ⟨81, _⟩ => ⟨S1, .f32⟩
  | .hbm, ⟨82, _⟩ => ⟨S_, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .bf16⟩
  | .hbm, ⟨87, _⟩ => ⟨S8192x512, .f32⟩
  | .hbm, ⟨88, _⟩ => ⟨S1, .f32⟩
  | .hbm, ⟨89, _⟩ => ⟨S_, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8192x512, .f32⟩
  | .hbm, ⟨95, _⟩ => ⟨S8192x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x1024, .bf16⟩
  | .local _ .vmem, ⟨7, _⟩ => ⟨S2048x1024, .bf16⟩
  | .local _ .vmem, ⟨8, _⟩ => ⟨S1024x512, .bf16⟩
  | .local _ .vmem, ⟨9, _⟩ => ⟨S1024x512, .bf16⟩
  | .local _ .vmem, ⟨10, _⟩ => ⟨S2048x1, .f32⟩
  | .local _ .vmem, ⟨11, _⟩ => ⟨S2048x1, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x1024, .bf16⟩
  | .local _ .vmem, ⟨16, _⟩ => ⟨S2048x1024, .bf16⟩
  | .local _ .vmem, ⟨17, _⟩ => ⟨S1024x512, .bf16⟩
  | .local _ .vmem, ⟨18, _⟩ => ⟨S1024x512, .bf16⟩
  | .local _ .vmem, ⟨19, _⟩ => ⟨S2048x1, .f32⟩
  | .local _ .vmem, ⟨20, _⟩ => ⟨S2048x1, .f32⟩
  | .local _ .vmem, ⟨21, _⟩ => ⟨S2048x512, .f32⟩
  | .local _ .vmem, ⟨22, _⟩ => ⟨S2048x512, .f32⟩
  | .local _ .vmem, ⟨23, _⟩ => ⟨S2048x512, .f32⟩
  | .local _ .vmem, ⟨24, _⟩ => ⟨S2048x1024, .bf16⟩
  | .local _ .vmem, ⟨25, _⟩ => ⟨S2048x1024, .bf16⟩
  | .local _ .vmem, ⟨26, _⟩ => ⟨S1024x512, .bf16⟩
  | .local _ .vmem, ⟨27, _⟩ => ⟨S1024x512, .bf16⟩
  | .local _ .vmem, ⟨28, _⟩ => ⟨S2048x1, .f32⟩
  | .local _ .vmem, ⟨29, _⟩ => ⟨S2048x1, .f32⟩
  | .local _ .vmem, ⟨30, _⟩ => ⟨S2048x512, .f32⟩
  | .local _ .vmem, ⟨31, _⟩ => ⟨S2048x512, .f32⟩
  | .local _ .vmem, ⟨32, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_c_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_call0_cst : Ref sig .tc := ⟨.hbm, 93, rfl⟩
abbrev main_call0_v0 : Ref sig .tc := ⟨.hbm, 94, rfl⟩
abbrev main_v74 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S262144_S524288_d0 : Shape.Concatenates [S262144, S262144] S524288 0
  bcast_S_S8192x8192 : S_.BroadcastsInDim S8192x8192 (![] : Fin 0 → Fin S8192x8192.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S_S8192x1 : S_.BroadcastsInDim S8192x1 (![] : Fin 0 → Fin S8192x1.rank)
  slices_S4_S1_0 : S4.Slices ![0] S1
  shapeCasts_S1_S_ : S1.ShapeCasts S_
  bcast_S_S8192x512 : S_.BroadcastsInDim S8192x512 (![] : Fin 0 → Fin S8192x512.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  slices_S4_S1_1 : S4.Slices ![1] S1
  slices_S4_S1_2 : S4.Slices ![2] S1
  slices_S4_S1_3 : S4.Slices ![3] S1
  dot_S2048x512_S512x512_S2048x512_1_0_0_1_n_n_wf : DotDims.WF S2048x512 S512x512 S2048x512 [1] [0] [0] [1] [] []
  scatter_S8192x8192_S524288x2_S524288_n_01_01_1_wf : ScatterDims.WF S8192x8192 S524288x2 S524288 [] [0, 1] [0, 1] 1
  scatter_S8192x8192_S8192x2_S8192_n_01_01_1_wf : ScatterDims.WF S8192x8192 S8192x2 S8192 [] [0, 1] [0, 1] 1
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .bf16 = 32 ∨ (Rect.block (s := S8192x8192) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S8192x512.size a
  hwx1_3 : ∀ i : grid1.Coords, EltTy.bits .f32 = 32 ∨ (Rect.block (s := S8192x512) S2048x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .bf16 = 32 ∨ (Rect.block (s := S8192x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S8192x512.size a
  hwx2_1 : ∀ i : grid2.Coords, EltTy.bits .bf16 = 32 ∨ (Rect.block (s := S8192x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S8192x512.size a
  hwx2_3 : ∀ i : grid2.Coords, EltTy.bits .f32 = 32 ∨ (Rect.block (s := S8192x512) S2048x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S8192x8192.size a
  hwx3_0 : ∀ i : grid3.Coords, EltTy.bits .bf16 = 32 ∨ (Rect.block (s := S8192x8192) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .bf16 = 32 ∨ (Rect.block (s := S8192x512) S1024x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S8192x1.size a
  hwx3_2 : ∀ i : grid3.Coords, EltTy.bits .f32 = 32 ∨ (Rect.block (s := S8192x1) S2048x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S8192x512.size a
  hwx3_3 : ∀ i : grid3.Coords, EltTy.bits .f32 = 32 ∨ (Rect.block (s := S8192x512) S2048x512.size (cc3_transform_3 i) (hinb3_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def scatter_S8192x8192_S524288x2_S524288_n_01_01_1 : ScatterDims S8192x8192 S524288x2 S524288 where
  updateWindowDims := []
  insertedWindowDims := [0, 1]
  scatterDimsToOperandDims := [0, 1]
  indexVectorDim := 1
  wf := scatter_S8192x8192_S524288x2_S524288_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v48) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v48) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v48) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v68) S2048x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S4 : Shape := ⟨1, ![4]⟩
abbrev S1x512 : Shape := ⟨2, ![1, 512]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1 : Shape := ⟨1, ![1]⟩

abbrev nBuf : Space → Nat
  | .hbm => 96
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S4, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .f32⟩
  | .hbm, ⟨14, _⟩ => ⟨S8192x8192, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S262144x1, .i32⟩
  | .hbm, ⟨31, _⟩ => ⟨S262144x2, .i32⟩
  | .hbm, ⟨32, _⟩ => ⟨S_, .f32⟩
  | .hbm, ⟨33, _⟩ => ⟨S262144, .f32⟩
  | .hbm, ⟨34, _⟩ => ⟨S8192x8192, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x1, .i32⟩
  | .hbm, ⟨51, _⟩ => ⟨S262144x2, .i32⟩
  | .hbm, ⟨52, _⟩ => ⟨S_, .f32⟩
  | .hbm, ⟨53, _⟩ => ⟨S262144, .f32⟩
  | .hbm, ⟨54, _⟩ => ⟨S8192x8192, .f32⟩
  | .hbm, ⟨55, _⟩ => ⟨S8192x8192, .i32⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S1, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S1, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S1, .f32⟩
  | .hbm, ⟨83, _⟩ => ⟨S_, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S1, .f32⟩
  | .hbm, ⟨89, _⟩ => ⟨S_, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8192x512, .f32⟩
  | .hbm, ⟨95, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_call0_cst : Ref sig .tc := ⟨.hbm, 93, rfl⟩
abbrev main_call0_v0 : Ref sig .tc := ⟨.hbm, 94, rfl⟩
abbrev main_v74 : Ref sig .tc := ⟨.hbm, 95, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  slices_S4_S1_0 : S4.Slices ![0] S1
  shapeCasts_S1_S_ : S1.ShapeCasts S_
  bcast_S_S8192x512 : S_.BroadcastsInDim S8192x512 (![] : Fin 0 → Fin S8192x512.rank)
  slices_S4_S1_1 : S4.Slices ![1] S1
  slices_S4_S1_2 : S4.Slices ![2] S1
  slices_S4_S1_3 : S4.Slices ![3] S1
  dot_S8192x512_S512x512_S8192x512_1_0_0_1_n_n_wf : DotDims.WF S8192x512 S512x512 S8192x512 [1] [0] [0] [1] [] []
  scatter_S8192x8192_S262144x2_S262144_n_01_01_1_wf : ScatterDims.WF S8192x8192 S262144x2 S262144 [] [0, 1] [0, 1] 1
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.K.Linear.lean ====
/-
  The linear kernel's region (the first pallas_call): one grid axis of 4 points, point t computing rows
  2048·t … 2048·t+2047 of x·W + b from the t-th row block of x, the whole of W and the bias row.  The body loads its
  three input blocks whole and stores the output block whole, so what the output's staging buffer holds after a point
  is one function of the three input blocks there; the invariant between points is the untouched scoped rest.
-/
import proofs.«108811_j10385230921953_2_alg».proof.Proof.Gen.Kernel.Launch
import proofs.«108811_j10385230921953_2_alg».proof.Proof.Gen.Kernel.Skeleton
import proofs.«108811_j10385230921953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX0 : Rect S2048x512 := Rect.unit (s := S2048x512) ![0, 0] S2048x512.size inb_S2048x512_S2048x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- The output window's staging buffer after the body: its one whole store, of the payload of the three loads. -/
def out0_3 (x0 : Vec F S2048x512 .bf16) (x1 : Vec F S512x512 .bf16) (x2 : Vec F S1x512 .f32) : Vec F S2048x512 .f32 :=
  View.canon [⟨rX0, k0_pay1 (View.ld x0 rX0) (View.ld x1 rW0) (View.ld x2 rB0)⟩]

/-- The one store is of the whole block. -/
theorem cover0_3 (p0 : Vec F S2048x512 .f32) (y : S2048x512.Idx) :
    ∃ pc ∈ ([⟨rX0, p0⟩] : List (View.Piece (Elt F) S2048x512 .f32)), y ∈ pc.1.set :=
  View.cover_of_tiled [⟨rX0, p0⟩] S2048x512.size (by rfl) y

/-! ## The body's triple -/

set_option maxHeartbeats 1000000 in
/-- On whole staging memrefs, the inputs' at contents x0 x1 x2 and the output's at anything, the body runs to the
    continuation with the inputs' as they were and the output's at out0_3 of them. -/
theorem sound_kernel0 (c : Dev nD) (E : Set ℕ) (i : grid0.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .f32) (harg4 : arg4.IsWhole)
    (x0 : Vec F S2048x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point t each input's buffer at its block and the output's at
    out0_3 of the input blocks; the invariant the untouched scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Diff1Runs.lean ====
/-
  The diffusion kernel's region (the second pallas_call), first half: what is shared by the body's three cases and
  the body's run in each.  The grid is 4 × 8; point t has coordinates (t / 8, t % 8) = (i, k).  The body keeps an
  accumulator in a scratch buffer between points: at k = 0 it is zeroed, at every k the product of the adjacency
  block (i, k) and the current block (k) is added to it, and at k = 7 the accumulator, each row scaled by that
  row's reciprocal row sum, is stored into the output block i.  So there are three cases of the two conditionals:
  A (k = 0: zero, add), B (0 < k < 7: add), C (k = 7: add, scale and store).
-/
import proofs.«108811_j10385230921953_2_alg».proof.Proof.Gen.Kernel.Launch
import proofs.«108811_j10385230921953_2_alg».proof.Proof.Gen.Kernel.Skeleton
import proofs.«108811_j10385230921953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's condition (k = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7), from the grid coordinates. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where k < 7 nothing is stored into the output block: the window is idle there and its block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the output block is stored: the window is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S2048x512 .f32 := (Memref.whole cc1_stg3_0 : Memref sig .tc .vmem S2048x512 .f32).view
/-- Each window's current staging memref at point t, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2048x512 .f32 := Memref.whole cc1_scratch0
/-- The accumulator as a view: what it holds is stated through it. -/
abbrev VS1_0 : View sig .tc .vmem S2048x512 .f32 := scM1_0.view

/-- The region's invariant with the accumulator as a memref owned at some contents, beside the other scoped buffers
    (left unopened) and the generator register. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

/-! ## The body's run in each case

On whole memrefs — the inputs' at their contents x0 x1 x2 — the body runs to the continuation holding the inputs' as they
were, the accumulator with its pieces written, and the output's memref untouched (cases A, B: handed at xi3, handed
back at xi3) or with its pieces written (case C).  The pieces are the witness the run finds. -/

set_option maxHeartbeats 1000000 in
/-- Case A (k = 0): the accumulator, handed at anything, is zeroed and the product added. -/
noncomputable def kernelRun1_A (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__diff_kernel i arg2 harg2 arg3 harg3 arg4 harg4 arg5 harg5 arg6 harg6) K } := by
  refine ⟨[], ?_, fun xi3 E K => ?run⟩
  case run =>
    simp only [cc1__diff_kernel_eq_skeleton]; unfold cc1__diff_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (0 < k < 7): the product is added to the accumulator, handed at what the point before left (xs0). -/
noncomputable def kernelRun1_B (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__diff_kernel i arg2 harg2 arg3 harg3 arg4 harg4 arg5 harg5 arg6 harg6) K } := by
  refine ⟨[], ?_, fun xi3 E K => ?run⟩
  case run =>
    simp only [cc1__diff_kernel_eq_skeleton]; unfold cc1__diff_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (k = 7): the product is added to the accumulator, handed at what the point before left (xs0), and the
    accumulator scaled row by row is stored into the output's memref, handed at anything. -/
noncomputable def kernelRun1_C (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__diff_kernel i arg2 harg2 arg3 harg3 arg4 harg4 arg5 harg5 arg6 harg6) K } := by
  refine ⟨?_, ?_, fun E K => ?run⟩
  case run =>
    simp only [cc1__diff_kernel_eq_skeleton]; unfold cc1__diff_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Diff1.lean ====
/-
  The diffusion kernel's region (the second pallas_call), second half: what the accumulator and the output block
  hold after each point, the pipeline's proof data, and the body obligation.  After point t = 8·i + k the accumulator
  holds 0 + A(i,0)·X(0) + … + A(i,k)·X(k), the products of the adjacency blocks of block row i with the current
  blocks, added in that order in f32; after a point with k = 7 the output block i holds that sum with each row
  scaled by the row's reciprocal row sum.  Stated recursively: the contents after a point are the case's run on the
  point's input blocks over what the point before left in the accumulator.
-/
import proofs.«108811_j10385230921953_2_alg».proof.Proof.K.Diff1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the window
    is neither written back nor read at the next point). -/
def out1_A_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) : Vec F S2048x512 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it (each is of the whole buffer). -/
theorem scover1_A_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) (y : S2048x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x512.size (by sl_kernel_rfl) y

/-- What case A leaves in the accumulator: its pieces read back. -/
def sout1_A_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) : Vec F S2048x512 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output block: no pieces, a placeholder nothing consults (at these points the window
    is neither written back nor read at the next point). -/
def out1_B_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) : Vec F S2048x512 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it (each is of the whole buffer). -/
theorem scover1_B_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) (y : S2048x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x512.size (by sl_kernel_rfl) y

/-- What case B leaves in the accumulator: its pieces read back. -/
def sout1_B_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) : Vec F S2048x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output block is of the whole block. -/
theorem cover1_C_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) (y : S2048x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x512.size (by sl_kernel_rfl) y

/-- What case C leaves in the output's staging buffer: its pieces read back. -/
def out1_C_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) : Vec F S2048x512 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it (each is of the whole buffer). -/
theorem scover1_C_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) (y : S2048x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x512.size (by sl_kernel_rfl) y

/-- What case C leaves in the accumulator: its pieces read back. -/
def sout1_C_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) : Vec F S2048x512 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's staging buffer and the accumulator hold after each point -/

/-- The output window's staging buffer and the accumulator after the body at position n: the case the closed forms
    select there, run on the point's memrefs and input blocks, over what the point before left in the accumulator
    (cases B, C; case A zeroes it first).  No point is in both k = 0 and k = 7. -/
def outsAt1 (c : Dev nD) : (n : ℕ) → n < cfg1.N → Vec F S2048x512 .f32 × Vec F S2048x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0: case A's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: case B's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: case C's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the launch hands over (every scoped buffer at anything); afterwards
    the accumulator at what the point before left in it, the other scoped buffers unopened, the generator register at
    some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body at point t each input's buffer at its block and the output's at
    the first component of outsAt1; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the first point) and takes it
    back at this point's contents; where k < 7 the output's buffer is handed back as found, where k = 7 at the scaled
    accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Fr

end
-- ==== Proof.K.Diff2Runs.lean ====
/-
  The diffusion kernel's region (the third pallas_call), first half: what is shared by the body's three cases and
  the body's run in each.  The grid is 4 × 8; point t has coordinates (t / 8, t % 8) = (i, k).  The body keeps an
  accumulator in a scratch buffer between points: at k = 0 it is zeroed, at every k the product of the adjacency
  block (i, k) and the current block (k) is added to it, and at k = 7 the accumulator, each row scaled by that
  row's reciprocal row sum, is stored into the output block i.  So there are three cases of the two conditionals:
  A (k = 0: zero, add), B (0 < k < 7: add), C (k = 7: add, scale and store).
-/
import proofs.«108811_j10385230921953_2_alg».proof.Proof.Gen.Kernel.Launch
import proofs.«108811_j10385230921953_2_alg».proof.Proof.Gen.Kernel.Skeleton
import proofs.«108811_j10385230921953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is
    not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- The first conditional's condition (k = 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (k = 7), from the grid coordinates. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where k < 7 nothing is stored into the output block: the window is idle there and its block is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- Where k = 7 the output block is stored: the window is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated (the choice does not matter). -/
abbrev VO2_3 : View sig .tc .vmem S2048x512 .f32 := (Memref.whole cc2_stg3_0 : Memref sig .tc .vmem S2048x512 .f32).view
/-- Each window's current staging memref at point t, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x512 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S2048x512 .f32 := Memref.whole cc2_scratch0
/-- The accumulator as a view: what it holds is stated through it. -/
abbrev VS2_0 : View sig .tc .vmem S2048x512 .f32 := scM2_0.view

/-- The region's invariant with the accumulator as a memref owned at some contents, beside the other scoped buffers
    (left unopened) and the generator register. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

/-! ## The body's run in each case

On whole memrefs — the inputs' at their contents x0 x1 x2 — the body runs to the continuation holding the inputs' as they
were, the accumulator with its pieces written, and the output's memref untouched (cases A, B: handed at xi3, handed
back at xi3) or with its pieces written (case C).  The pieces are the witness the run finds. -/

set_option maxHeartbeats 1000000 in
/-- Case A (k = 0): the accumulator, handed at anything, is zeroed and the product added. -/
noncomputable def kernelRun2_A (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__diff_kernel i arg2 harg2 arg3 harg3 arg4 harg4 arg5 harg5 arg6 harg6) K } := by
  refine ⟨[], ?_, fun xi3 E K => ?run⟩
  case run =>
    simp only [cc2__diff_kernel_eq_skeleton]; unfold cc2__diff_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (0 < k < 7): the product is added to the accumulator, handed at what the point before left (xs0). -/
noncomputable def kernelRun2_B (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__diff_kernel i arg2 harg2 arg3 harg3 arg4 harg4 arg5 harg5 arg6 harg6) K } := by
  refine ⟨[], ?_, fun xi3 E K => ?run⟩
  case run =>
    simp only [cc2__diff_kernel_eq_skeleton]; unfold cc2__diff_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (k = 7): the product is added to the accumulator, handed at what the point before left (xs0), and the
    accumulator scaled row by row is stored into the output's memref, handed at anything. -/
noncomputable def kernelRun2_C (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__diff_kernel i arg2 harg2 arg3 harg3 arg4 harg4 arg5 harg5 arg6 harg6) K } := by
  refine ⟨?_, ?_, fun E K => ?run⟩
  case run =>
    simp only [cc2__diff_kernel_eq_skeleton]; unfold cc2__diff_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Diff2.lean ====
/-
  The diffusion kernel's region (the third pallas_call), second half: what the accumulator and the output block
  hold after each point, the pipeline's proof data, and the body obligation.  After point t = 8·i + k the accumulator
  holds 0 + A(i,0)·X(0) + … + A(i,k)·X(k), the products of the adjacency blocks of block row i with the current
  blocks, added in that order in f32; after a point with k = 7 the output block i holds that sum with each row
  scaled by the row's reciprocal row sum.  Stated recursively: the contents after a point are the case's run on the
  point's input blocks over what the point before left in the accumulator.
-/
import proofs.«108811_j10385230921953_2_alg».proof.Proof.K.Diff2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the window
    is neither written back nor read at the next point). -/
def out2_A_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) : Vec F S2048x512 .f32 :=
  VO2_3.read (Elt F) (VO2_3.writes (Elt F) VO2_3.junk (kernelRun2_A c i arg2 harg2 arg3 harg3 arg4 harg4 arg5 harg5 arg6 harg6 hc0 hc1 x0 x1 x2).1)

/-- Case A's stores into the accumulator cover it (each is of the whole buffer). -/
theorem scover2_A_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) (y : S2048x512.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x512.size (by sl_kernel_rfl) y

/-- What case A leaves in the accumulator: its pieces read back. -/
def sout2_A_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) : Vec F S2048x512 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output block: no pieces, a placeholder nothing consults (at these points the window
    is neither written back nor read at the next point). -/
def out2_B_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) : Vec F S2048x512 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's stores into the accumulator cover it (each is of the whole buffer). -/
theorem scover2_B_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) (y : S2048x512.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x512.size (by sl_kernel_rfl) y

/-- What case B leaves in the accumulator: its pieces read back. -/
def sout2_B_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) : Vec F S2048x512 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's one store into the output block is of the whole block. -/
theorem cover2_C_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) (y : S2048x512.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x512.size (by sl_kernel_rfl) y

/-- What case C leaves in the output's staging buffer: its pieces read back. -/
def out2_C_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) : Vec F S2048x512 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's stores into the accumulator cover it (each is of the whole buffer). -/
theorem scover2_C_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) (y : S2048x512.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x512.size (by sl_kernel_rfl) y

/-- What case C leaves in the accumulator: its pieces read back. -/
def sout2_C_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) : Vec F S2048x512 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's staging buffer and the accumulator hold after each point -/

/-- The output window's staging buffer and the accumulator after the body at position n: the case the closed forms
    select there, run on the point's memrefs and input blocks, over what the point before left in the accumulator
    (cases B, C; case A zeroes it first).  No point is in both k = 0 and k = 7. -/
def outsAt2 (c : Dev nD) : (n : ℕ) → n < cfg2.N → Vec F S2048x512 .f32 × Vec F S2048x512 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a point with k = 0: case A's contents. -/
theorem outsAt2_A (c : Dev nD) (t : Fin cfg2.N) (h0 : t.val % 8 = 0) (h1 : ¬t.val % 8 = 7) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a point with 0 < k < 7: case B's contents, over what the point before left. -/
theorem outsAt2_B (c : Dev nD) (t : Fin cfg2.N) (h0 : ¬t.val % 8 = 0) (h1 : ¬t.val % 8 = 7) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: case C's contents, over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the launch hands over (every scoped buffer at anything); afterwards
    the accumulator at what the point before left in it, the other scoped buffers unopened, the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body at point t each input's buffer at its block and the output's at
    the first component of outsAt2; the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at the first point) and takes it
    back at this point's contents; where k < 7 the output's buffer is handed back as found, where k = 7 at the scaled
    accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives that back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Fr

end
-- ==== Proof.K.Diff3Runs.lean ====
/-
  The diffusion kernel's region (the fourth pallas_call), first half: what is shared by the body's three cases and
  the body's run in each.  The grid is 4 × 8; point t has coordinates (t / 8, t % 8) = (i, k).  The body keeps an
  accumulator in a scratch buffer between points: at k = 0 it is zeroed, at every k the product of the adjacency
  block (i, k) and the current block (k) is added to it, and at k = 7 the accumulator, each row scaled by that
  row's reciprocal row sum, is stored into the output block i.  So there are three cases of the two conditionals:
  A (k = 0: zero, add), B (0 < k < 7: add), C (k = 7: add, scale and store).
-/
import proofs.«108811_j10385230921953_2_alg».proof.Proof.Gen.Kernel.Launch
import proofs.«108811_j10385230921953_2_alg».proof.Proof.Gen.Kernel.Skeleton
import proofs.«108811_j10385230921953_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is
    not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- The first conditional's condition (k = 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional's condition (k = 7), from the grid coordinates. -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Where k < 7 nothing is stored into the output block: the window is idle there and its block is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- Where k = 7 the output block is stored: the window is live. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the output window, through which its contents are stated (the choice does not matter). -/
abbrev VO3_3 : View sig .tc .vmem S2048x512 .f32 := (Memref.whole cc3_stg3_0 : Memref sig .tc .vmem S2048x512 .f32).view
/-- Each window's current staging memref at point t, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x512 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S2048x512 .f32 := Memref.whole cc3_scratch0
/-- The accumulator as a view: what it holds is stated through it. -/
abbrev VS3_0 : View sig .tc .vmem S2048x512 .f32 := scM3_0.view

/-- The region's invariant with the accumulator as a memref owned at some contents, beside the other scoped buffers
    (left unopened) and the generator register. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

/-! ## The body's run in each case

On whole memrefs — the inputs' at their contents x0 x1 x2 — the body runs to the continuation holding the inputs' as they
were, the accumulator with its pieces written, and the output's memref untouched (cases A, B: handed at xi3, handed
back at xi3) or with its pieces written (case C).  The pieces are the witness the run finds. -/

set_option maxHeartbeats 1000000 in
/-- Case A (k = 0): the accumulator, handed at anything, is zeroed and the product added. -/
noncomputable def kernelRun3_A (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__diff_kernel i arg2 harg2 arg3 harg3 arg4 harg4 arg5 harg5 arg6 harg6) K } := by
  refine ⟨[], ?_, fun xi3 E K => ?run⟩
  case run =>
    simp only [cc3__diff_kernel_eq_skeleton]; unfold cc3__diff_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (0 < k < 7): the product is added to the accumulator, handed at what the point before left (xs0). -/
noncomputable def kernelRun3_B (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__diff_kernel i arg2 harg2 arg3 harg3 arg4 harg4 arg5 harg5 arg6 harg6) K } := by
  refine ⟨[], ?_, fun xi3 E K => ?run⟩
  case run =>
    simp only [cc3__diff_kernel_eq_skeleton]; unfold cc3__diff_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (k = 7): the product is added to the accumulator, handed at what the point before left (xs0), and the
    accumulator scaled row by row is stored into the output's memref, handed at anything. -/
noncomputable def kernelRun3_C (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__diff_kernel i arg2 harg2 arg3 harg3 arg4 harg4 arg5 harg5 arg6 harg6) K } := by
  refine ⟨?_, ?_, fun E K => ?run⟩
  case run =>
    simp only [cc3__diff_kernel_eq_skeleton]; unfold cc3__diff_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Diff3.lean ====
/-
  The diffusion kernel's region (the fourth pallas_call), second half: what the accumulator and the output block
  hold after each point, the pipeline's proof data, and the body obligation.  After point t = 8·i + k the accumulator
  holds 0 + A(i,0)·X(0) + … + A(i,k)·X(k), the products of the adjacency blocks of block row i with the current
  blocks, added in that order in f32; after a point with k = 7 the output block i holds that sum with each row
  scaled by the row's reciprocal row sum.  Stated recursively: the contents after a point are the case's run on the
  point's input blocks over what the point before left in the accumulator.
-/
import proofs.«108811_j10385230921953_2_alg».proof.Proof.K.Diff3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the window
    is neither written back nor read at the next point). -/
def out3_A_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) : Vec F S2048x512 .f32 :=
  VO3_3.read (Elt F) (VO3_3.writes (Elt F) VO3_3.junk (kernelRun3_A c i arg2 harg2 arg3 harg3 arg4 harg4 arg5 harg5 arg6 harg6 hc0 hc1 x0 x1 x2).1)

/-- Case A's stores into the accumulator cover it (each is of the whole buffer). -/
theorem scover3_A_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) (y : S2048x512.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x512.size (by sl_kernel_rfl) y

/-- What case A leaves in the accumulator: its pieces read back. -/
def sout3_A_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) : Vec F S2048x512 .f32 :=
  VS3_0.read (Elt F) (VS3_0.writes (Elt F) VS3_0.junk (kernelRun3_A c i arg2 harg2 arg3 harg3 arg4 harg4 arg5 harg5 arg6 harg6 hc0 hc1 x0 x1 x2).2.1)

/-- Case B stores nothing into the output block: no pieces, a placeholder nothing consults (at these points the window
    is neither written back nor read at the next point). -/
def out3_B_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) : Vec F S2048x512 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case B's stores into the accumulator cover it (each is of the whole buffer). -/
theorem scover3_B_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) (y : S2048x512.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2048x512.size (by sl_kernel_rfl) y

/-- What case B leaves in the accumulator: its pieces read back. -/
def sout3_B_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) : Vec F S2048x512 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case C's one store into the output block is of the whole block. -/
theorem cover3_C_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) (y : S2048x512.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2048x512.size (by sl_kernel_rfl) y

/-- What case C leaves in the output's staging buffer: its pieces read back. -/
def out3_C_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) : Vec F S2048x512 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's stores into the accumulator cover it (each is of the whole buffer). -/
theorem scover3_C_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) (y : S2048x512.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2048x512.size (by sl_kernel_rfl) y

/-- What case C leaves in the accumulator: its pieces read back. -/
def sout3_C_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) : Vec F S2048x512 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's staging buffer and the accumulator hold after each point -/

/-- The output window's staging buffer and the accumulator after the body at position n: the case the closed forms
    select there, run on the point's memrefs and input blocks, over what the point before left in the accumulator
    (cases B, C; case A zeroes it first).  No point is in both k = 0 and k = 7. -/
def outsAt3 (c : Dev nD) : (n : ℕ) → n < cfg3.N → Vec F S2048x512 .f32 × Vec F S2048x512 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- At a point with k = 0: case A's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- At a point with 0 < k < 7: case B's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: case C's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the launch hands over (every scoped buffer at anything); afterwards
    the accumulator at what the point before left in it, the other scoped buffers unopened, the generator register at
    some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The arrays as the region finds them; after the body at point t each input's buffer at its block and the output's at
    the first component of outsAt3; the invariant PhiS3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the accumulator at what the point before left (at anything at the first point) and takes it
    back at this point's contents; where k < 7 the output's buffer is handed back as found, where k = 7 at the scaled
    accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 8 = 0
  · by_cases h1 : t.val % 8 = 7
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives that back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.Kernel.Fr

end
-- ==== Proof.K.Run.lean ====
/-
  The whole run of the program: ten segments — a stretch of host operations, the linear kernel's region, a stretch,
  the first diffusion region, a stretch, the second, a stretch, the third, and two closing stretches (the last the relu).
  The contents of every unscoped buffer are followed from the launch memory through each boundary: a host stretch
  applies its operations, a region leaves its windows' arrays at what its write-backs fold to and every other buffer
  as entered.  The run's post says that at the end every unscoped buffer holds the last boundary's contents; the frame
  claim and the value claim are both read off it.
-/
import proofs.«108811_j10385230921953_2_alg».proof.Proof.K.Linear
import proofs.«108811_j10385230921953_2_alg».proof.Proof.K.Diff1
import proofs.«108811_j10385230921953_2_alg».proof.Proof.K.Diff2
import proofs.«108811_j10385230921953_2_alg».proof.Proof.K.Diff3
import proofs.«108811_j10385230921953_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the linear region's entry). -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vx2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Vx2 m ρ c (Pipeline.arrRef spec0 w) :=
  (W2_arr m ρ c w).symm
theorem hrest0 (c : Dev nD) : ∀ b, b ∉ Finset.univ.image (Pipeline.arrRef spec0) → Vx2 m ρ c b = Ve1 m ρ c b :=
  fun b hb => W2_of_ne m ρ c b fun w e => hb (Finset.mem_image.mpr ⟨w, Finset.mem_univ _, e⟩)
/-- After the next host stretch. -/
abbrev W3 : Dev nD → Valuation τ sig (Elt F) := fun c => StableHlo.after hostOps1 (W2 m ρ c)
abbrev Ve3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Ve3 m ρ) c).arrAt w cfg1.N
theorem W4_arr (c : Dev nD) (w : Fin cfg1.W) :
    W4 m ρ c (Proc.devRef .tc (Pipeline.arrRef spec1 w)) = (dat1 (Ve3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vx4 : (c : Dev nD) → (b : Ref sig .tc) → Buf (Elt F) ((c : Thread nD τ).loc b) := fun c b => W4 m ρ c b
theorem hF1 (c : Dev nD) (w : Fin cfg1.W) : (dat1 (Ve3 m ρ) c).arrAt w cfg1.N = Vx4 m ρ c (Pipeline.arrRef spec1 w) :=
  (W4_arr m ρ c w).symm
theorem hrest1 (c : Dev nD) : ∀ b, b ∉ Finset.univ.image (Pipeline.arrRef spec1) → Vx4 m ρ c b = Ve3 m ρ c b :=
  fun b hb => W4_of_ne m ρ c b fun w e => hb (Finset.mem_image.mpr ⟨w, Finset.mem_univ _, e⟩)
/-- After the next host stretch. -/
abbrev W5 : Dev nD → Valuation τ sig (Elt F) := fun c => StableHlo.after hostOps2 (W4 m ρ c)
abbrev Ve5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Ve5 m ρ) c).arrAt w cfg2.N
theorem W6_arr (c : Dev nD) (w : Fin cfg2.W) :
    W6 m ρ c (Proc.devRef .tc (Pipeline.arrRef spec2 w)) = (dat2 (Ve5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vx6 : (c : Dev nD) → (b : Ref sig .tc) → Buf (Elt F) ((c : Thread nD τ).loc b) := fun c b => W6 m ρ c b
theorem hF2 (c : Dev nD) (w : Fin cfg2.W) : (dat2 (Ve5 m ρ) c).arrAt w cfg2.N = Vx6 m ρ c (Pipeline.arrRef spec2 w) :=
  (W6_arr m ρ c w).symm
theorem hrest2 (c : Dev nD) : ∀ b, b ∉ Finset.univ.image (Pipeline.arrRef spec2) → Vx6 m ρ c b = Ve5 m ρ c b :=
  fun b hb => W6_of_ne m ρ c b fun w e => hb (Finset.mem_image.mpr ⟨w, Finset.mem_univ _, e⟩)
/-- After the next host stretch. -/
abbrev W7 : Dev nD → Valuation τ sig (Elt F) := fun c => StableHlo.after hostOps3 (W6 m ρ c)
abbrev Ve7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (Ve7 m ρ) c).arrAt w cfg3.N
theorem W8_arr (c : Dev nD) (w : Fin cfg3.W) :
    W8 m ρ c (Proc.devRef .tc (Pipeline.arrRef spec3 w)) = (dat3 (Ve7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Vx8 : (c : Dev nD) → (b : Ref sig .tc) → Buf (Elt F) ((c : Thread nD τ).loc b) := fun c b => W8 m ρ c b
theorem hF3 (c : Dev nD) (w : Fin cfg3.W) : (dat3 (Ve7 m ρ) c).arrAt w cfg3.N = Vx8 m ρ c (Pipeline.arrRef spec3 w) :=
  (W8_arr m ρ c w).symm
theorem hrest3 (c : Dev nD) : ∀ b, b ∉ Finset.univ.image (Pipeline.arrRef spec3) → Vx8 m ρ c b = Ve7 m ρ c b :=
  fun b hb => W8_of_ne m ρ c b fun w e => hb (Finset.mem_image.mpr ⟨w, Finset.mem_univ _, e⟩)
/-- After the next host stretch. -/
abbrev W9 : Dev nD → Valuation τ sig (Elt F) := fun c => StableHlo.after hostOps4 (W8 m ρ c)
/-- After the last host stretch (the relu): the end. -/
abbrev W10 : Dev nD → Valuation τ sig (Elt F) := fun c => StableHlo.after hostOps4_1 (W9 m ρ c)

/-! ## An argument array is written by nothing -/

/-- A buffer that no host stretch writes and no region stages as an array ends as launched. -/
theorem W10_of_untouched (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps4_1_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W10 m ρ c (Proc.devRef .tc r) = m ((c : Thread nD τ).loc r) :=
  calc W10 m ρ c (Proc.devRef .tc r)
    _ = W9 m ρ c (Proc.devRef .tc r) := StableHlo.after_of_writes_sub hostOps4_1 _ hostOps4_1_writes h5
    _ = W8 m ρ c (Proc.devRef .tc r) := StableHlo.after_of_writes_sub hostOps4 _ hostOps4_writes h4
    _ = W7 m ρ c (Proc.devRef .tc r) := W8_of_ne m ρ c r a3
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

theorem W10_main_arg0 (c : Dev nD) : W10 m ρ c (Proc.devRef .tc main_arg0) = m ((c : Thread nD τ).loc main_arg0) :=
  W10_of_untouched m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_of_untouched m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_of_untouched m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_of_untouched m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_of_untouched m ρ c main_arg4 (by decide) (by decide) (by decide) (by decide) (by decide) (by decide) (by decide) (by decide) (by decide) (by decide)

/-! ## The proof data family and the thread state -/

/-- No pipeline has a prefetched table. -/
abbrev adm4 : (p : Fin 4) → (pcfgs (F := F) p).Adm := fun p => (cfgs p).toPCfg_adm
/-- Every pipeline's proof data, each at its region's entry contents. -/
def pdat : (p : Fin 4) → (c : Dev nD) → Dat τ (Elt F) Unit ℕ (UR sig nD τ) ℕ (Pipeline.pin (pcfgs (F := F)) adm4 p) c
  | ⟨0, _⟩ => fun c => dat0 (Ve1 m ρ) c
  | ⟨1, _⟩ => fun c => dat1 (Ve3 m ρ) c
  | ⟨2, _⟩ => fun c => dat2 (Ve5 m ρ) c
  | ⟨3, _⟩ => fun c => dat3 (Ve7 m ρ) c
abbrev 𝒱n : Variants := Variants.none
/-- No core owes another anything. -/
abbrev Ln : GSem nD τ sig → Finset Unit := fun _ => ∅
abbrev lvn : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- A host stretch as a segment, from the contents W. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the register at some state. -/
abbrev Tend (c : Dev nD) : sProp 𝕄 := iprop(StableHlo.held (c : Thread nD τ) (Pipeline.ucRefs τ sig) (W10 m ρ c) ∗ ∃ r, prngReg c r)

/-! ## The class invariant, repackaged for a region's entry and exit -/

theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp
theorem ofPhiA1 (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

theorem toPhiA2 (c : Dev nD) (P : sProp 𝕄) :
    iprop((∃ r, prngReg c r) ∗ P ∗ Pipeline.scopedRest (Ix := Unit) (Name := ℕ) (U := UR sig nD τ) (Lvl := ℕ) (Val := Elt F) spec2 c) ⊢ (Pipeline.ΦA spec2 c : sProp 𝕄) := by
  unfold Pipeline.ΦA
  iintro ⟨Hp, -, Hr⟩
  isplitl [Hr]; · iexact Hr
  iexact Hp
theorem ofPhiA2 (c : Dev nD) :
    (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

theorem toPhiA3 (c : Dev nD) (P : sProp 𝕄) :
    iprop((∃ r, prngReg c r) ∗ P ∗ Pipeline.scopedRest (Ix := Unit) (Name := ℕ) (U := UR sig nD τ) (Lvl := ℕ) (Val := Elt F) spec3 c) ⊢ (Pipeline.ΦA spec3 c : sProp 𝕄) := by
  unfold Pipeline.ΦA
  iintro ⟨Hp, -, Hr⟩
  isplitl [Hr]; · iexact Hr
  iexact Hp
theorem ofPhiA3 (c : Dev nD) :
    (Pipeline.ΦA spec3 c : sProp 𝕄) ⊢ iprop((∃ r, prngReg c r) ∗ BI.emp ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr

/-! ## The regions as segments -/

set_option backward.isDefEq.respectTransparency.types false in
/-- Region 0: entered from every unscoped buffer at W1, left at W2.  Its arrays are split out of the unscoped
    buffers and put back at the exit contents; the generator register and the scoped rest go into the region invariant and
    come back; nothing is owed; the kernel has no semaphore of its own. -/
def reg0 : Pipeline.RegionSeg (pcfgs (F := F)) adm4 (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Ln lvn 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm4 (pdat m ρ) launch0.win launch0.arr_whole c
      ((pdat m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdat m ρ) ((pdat m ρ 0 c).share_full fun _ => rfl)
      (Ve1 m ρ c) (Vx2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4.  Its arrays are split out of the unscoped
    buffers and put back at the exit contents; the generator register and the scoped rest go into the region invariant and
    come back; nothing is owed; the kernel has no semaphore of its own. -/
def reg1 : Pipeline.RegionSeg (pcfgs (F := F)) adm4 (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Ve3 m ρ) c).loose
  hwaits := Pipeline.hwaits_of_owed_zero _ _ _ _ Ln lvn 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Ve3 m ρ c)
  hentry c := by
    rw [Pipeline.ownSems0_none]
    have hsplit := Pipeline.arrays_of_unscopedBufs (p := 1) (pcfgs (F := F)) adm4 (pdat m ρ) launch1.win launch1.arr_whole c
      ((pdat m ρ 1 c).share_full fun _ => rfl) (Ve3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toPhiA1 c _).trans (hin1 (Ve3 m ρ) c)
  hout c := by
    rw [Pipeline.ownSems0_none]
    exact (hout1 (Ve3 m ρ) c).trans (ofPhiA1 c)
  hexit c := by
    have hjoin := Pipeline.unscopedBufs_of_arrays (p := 1) (pcfgs (F := F)) adm4 (Ix := Unit) (Name := ℕ) (U := UR sig nD τ) (Lvl := ℕ)
      launch1.win launch1.arr_whole c (pdat m ρ) ((pdat m ρ 1 c).share_full fun _ => rfl)
      (Ve3 m ρ c) (Vx4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W5, left at W6.  Its arrays are split out of the unscoped
    buffers and put back at the exit contents; the generator register and the scoped rest go into the region invariant and
    come back; nothing is owed; the kernel has no semaphore of its own. -/
def reg2 : Pipeline.RegionSeg (pcfgs (F := F)) adm4 (pdat m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (Ve5 m ρ) c).loose
  hwaits := Pipeline.hwaits_of_owed_zero _ _ _ _ Ln lvn 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Ve5 m ρ c)
  hentry c := by
    rw [Pipeline.ownSems0_none]
    have hsplit := Pipeline.arrays_of_unscopedBufs (p := 2) (pcfgs (F := F)) adm4 (pdat m ρ) launch2.win launch2.arr_whole c
      ((pdat m ρ 2 c).share_full fun _ => rfl) (Ve5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toPhiA2 c _).trans (hin2 (Ve5 m ρ) c)
  hout c := by
    rw [Pipeline.ownSems0_none]
    exact (hout2 (Ve5 m ρ) c).trans (ofPhiA2 c)
  hexit c := by
    have hjoin := Pipeline.unscopedBufs_of_arrays (p := 2) (pcfgs (F := F)) adm4 (Ix := Unit) (Name := ℕ) (U := UR sig nD τ) (Lvl := ℕ)
      launch2.win launch2.arr_whole c (pdat m ρ) ((pdat m ρ 2 c).share_full fun _ => rfl)
      (Ve5 m ρ c) (Vx6 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W7, left at W8.  Its arrays are split out of the unscoped
    buffers and put back at the exit contents; the generator register and the scoped rest go into the region invariant and
    come back; nothing is owed; the kernel has no semaphore of its own. -/
def reg3 : Pipeline.RegionSeg (pcfgs (F := F)) adm4 (pdat m ρ) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (Ve7 m ρ) c).loose
  hwaits := Pipeline.hwaits_of_owed_zero _ _ _ _ Ln lvn 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Ve7 m ρ c)
  hentry c := by
    rw [Pipeline.ownSems0_none]
    have hsplit := Pipeline.arrays_of_unscopedBufs (p := 3) (pcfgs (F := F)) adm4 (pdat m ρ) launch3.win launch3.arr_whole c
      ((pdat m ρ 3 c).share_full fun _ => rfl) (Ve7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toPhiA3 c _).trans (hin3 (Ve7 m ρ) c)
  hout c := by
    rw [Pipeline.ownSems0_none]
    exact (hout3 (Ve7 m ρ) c).trans (ofPhiA3 c)
  hexit c := by
    have hjoin := Pipeline.unscopedBufs_of_arrays (p := 3) (pcfgs (F := F)) adm4 (Ix := Unit) (Name := ℕ) (U := UR sig nD τ) (Lvl := ℕ)
      launch3.win launch3.arr_whole c (pdat m ρ) ((pdat m ρ 3 c).share_full fun _ => rfl)
      (Ve7 m ρ c) (Vx8 m ρ c) ((pdat m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsAll : List (Pipeline.Seg (pcfgs (F := F)) adm4 (pdat m ρ) () defs₀ 𝒱n Ln lvn) :=
  [ .host (hsegOf hostOps0 hostOps0_sub hostOps0_fresh (W0 m ρ)),
    .region (reg0 m ρ),
    .host (hsegOf hostOps1 hostOps1_sub hostOps1_fresh (W2 m ρ)),
    .region (reg1 m ρ),
    .host (hsegOf hostOps2 hostOps2_sub hostOps2_fresh (W4 m ρ)),
    .region (reg2 m ρ),
    .host (hsegOf hostOps3 hostOps3_sub hostOps3_fresh (W6 m ρ)),
    .region (reg3 m ρ),
    .host (hsegOf hostOps4 hostOps4_sub hostOps4_fresh (W8 m ρ)),
    .host (hsegOf hostOps4_1 hostOps4_1_sub hostOps4_1_fresh (W9 m ρ)) ]

/-- The program is the run of the segments. -/
theorem main_run (c : Dev nD) : main (F := F) c = Pipeline.Seg.run (segsAll m ρ) := (main_chain c).trans (by chain_rfl)

set_option backward.isDefEq.respectTransparency.types false in
/-- THE RUN.  From any memory with zero counters every weakly fair execution of the program on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm4 (pdat m ρ) () cellOf_inj emb₁ defs₀ 𝒱n Ln lvn m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl, fun _ => .rfl,
      fun _ => .rfl, fun _ => .rfl, fun c => by
        refine (show (iprop(StableHlo.held (c : Thread nD τ) (Pipeline.ucRefs τ sig) (W10 m ρ c) ∗ Rr c) : sProp 𝕄)
          ⊢ iprop(Tend m ρ c ∗ ∃ W, owes (c : Thread nD τ) (0 : CellTallies nD τ sig Unit) W) from ?_)
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c)⟩) (run_all m ρ)

end Cert.Kernel.Fr

end
-- ==== Proof.KI.Linear.lean ====
/-
  The linear kernel's region (the first pallas_call): one grid axis of 4 points, point t computing rows
  2048·t … 2048·t+2047 of x·W + b from the t-th row block of x, the whole of W and the bias row.  The body loads its
  three input blocks whole and stores the output block whole, so what the output's staging buffer holds after a point
  is one function of the three input blocks there; the invariant between points is the untouched scoped rest.
-/
import proofs.«108811_j10385230921953_2_alg».proof.Proof.Gen.KernelIdeal.Launch
import proofs.«108811_j10385230921953_2_alg».proof.Proof.Gen.KernelIdeal.Skeleton
import proofs.«108811_j10385230921953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rX0 : Rect S2048x512 := Rect.unit (s := S2048x512) ![0, 0] S2048x512.size inb_S2048x512_S2048x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- The output window's staging buffer after the body: its one whole store, of the payload of the three loads. -/
def out0_3 (x0 : Vec F S2048x512 .bf16) (x1 : Vec F S512x512 .bf16) (x2 : Vec F S1x512 .f32) : Vec F S2048x512 .f32 :=
  View.canon [⟨rX0, k0_pay1 (View.ld x0 rX0) (View.ld x1 rW0) (View.ld x2 rB0)⟩]

/-- The one store is of the whole block. -/
theorem cover0_3 (p0 : Vec F S2048x512 .f32) (y : S2048x512.Idx) :
    ∃ pc ∈ ([⟨rX0, p0⟩] : List (View.Piece (Elt F) S2048x512 .f32)), y ∈ pc.1.set :=
  View.cover_of_tiled [⟨rX0, p0⟩] S2048x512.size (by rfl) y

/-! ## The body's triple -/

set_option maxHeartbeats 1000000 in
/-- On whole staging memrefs, the inputs' at contents x0 x1 x2 and the output's at anything, the body runs to the
    continuation with the inputs' as they were and the output's at out0_3 of them. -/
theorem sound_kernel0 (c : Dev nD) (E : Set ℕ) (i : grid0.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .f32) (harg4 : arg4.IsWhole)
    (x0 : Vec F S2048x512 .bf16) (x1 : Vec F S512x512 .bf16) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point t each input's buffer at its block and the output's at
    out0_3 of the input blocks; the invariant the untouched scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Diff1Runs.lean ====
/-
  The diffusion kernel's region (the second pallas_call), first half: what is shared by the body's three cases and
  the body's run in each.  The grid is 4 × 8; point t has coordinates (t / 8, t % 8) = (i, k).  The body keeps an
  accumulator in a scratch buffer between points: at k = 0 it is zeroed, at every k the product of the adjacency
  block (i, k) and the current block (k) is added to it, and at k = 7 the accumulator, each row scaled by that
  row's reciprocal row sum, is stored into the output block i.  So there are three cases of the two conditionals:
  A (k = 0: zero, add), B (0 < k < 7: add), C (k = 7: add, scale and store).
-/
import proofs.«108811_j10385230921953_2_alg».proof.Proof.Gen.KernelIdeal.Launch
import proofs.«108811_j10385230921953_2_alg».proof.Proof.Gen.KernelIdeal.Skeleton
import proofs.«108811_j10385230921953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first conditional's condition (k = 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7), from the grid coordinates. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where k < 7 nothing is stored into the output block: the window is idle there and its block is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the output block is stored: the window is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S2048x512 .f32 := (Memref.whole cc1_stg3_0 : Memref sig .tc .vmem S2048x512 .f32).view
/-- Each window's current staging memref at point t, and its wholeness. -/
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S2048x512 .f32 := Memref.whole cc1_scratch0
/-- The accumulator as a view: what it holds is stated through it. -/
abbrev VS1_0 : View sig .tc .vmem S2048x512 .f32 := scM1_0.view

/-- The region's invariant with the accumulator as a memref owned at some contents, beside the other scoped buffers
    (left unopened) and the generator register. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1_0, owns_whole]; try rfl

/-! ## The body's run in each case

On whole memrefs — the inputs' at their contents x0 x1 x2 — the body runs to the continuation holding the inputs' as they
were, the accumulator with its pieces written, and the output's memref untouched (cases A, B: handed at xi3, handed
back at xi3) or with its pieces written (case C).  The pieces are the witness the run finds. -/

set_option maxHeartbeats 1000000 in
/-- Case A (k = 0): the accumulator, handed at anything, is zeroed and the product added. -/
noncomputable def kernelRun1_A (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__diff_kernel i arg2 harg2 arg3 harg3 arg4 harg4 arg5 harg5 arg6 harg6) K } := by
  refine ⟨[], ?_, fun xi3 E K => ?run⟩
  case run =>
    simp only [cc1__diff_kernel_eq_skeleton]; unfold cc1__diff_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (0 < k < 7): the product is added to the accumulator, handed at what the point before left (xs0). -/
noncomputable def kernelRun1_B (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__diff_kernel i arg2 harg2 arg3 harg3 arg4 harg4 arg5 harg5 arg6 harg6) K } := by
  refine ⟨[], ?_, fun xi3 E K => ?run⟩
  case run =>
    simp only [cc1__diff_kernel_eq_skeleton]; unfold cc1__diff_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (k = 7): the product is added to the accumulator, handed at what the point before left (xs0), and the
    accumulator scaled row by row is stored into the output's memref, handed at anything. -/
noncomputable def kernelRun1_C (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__diff_kernel i arg2 harg2 arg3 harg3 arg4 harg4 arg5 harg5 arg6 harg6) K } := by
  refine ⟨?_, ?_, fun E K => ?run⟩
  case run =>
    simp only [cc1__diff_kernel_eq_skeleton]; unfold cc1__diff_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Diff1.lean ====
/-
  The diffusion kernel's region (the second pallas_call), second half: what the accumulator and the output block
  hold after each point, the pipeline's proof data, and the body obligation.  After point t = 8·i + k the accumulator
  holds 0 + A(i,0)·X(0) + … + A(i,k)·X(k), the products of the adjacency blocks of block row i with the current
  blocks, added in that order in f32; after a point with k = 7 the output block i holds that sum with each row
  scaled by the row's reciprocal row sum.  Stated recursively: the contents after a point are the case's run on the
  point's input blocks over what the point before left in the accumulator.
-/
import proofs.«108811_j10385230921953_2_alg».proof.Proof.KI.Diff1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the window
    is neither written back nor read at the next point). -/
def out1_A_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) : Vec F S2048x512 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it (each is of the whole buffer). -/
theorem scover1_A_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) (y : S2048x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x512.size (by sl_kernel_rfl) y

/-- What case A leaves in the accumulator: its pieces read back. -/
def sout1_A_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) : Vec F S2048x512 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output block: no pieces, a placeholder nothing consults (at these points the window
    is neither written back nor read at the next point). -/
def out1_B_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) : Vec F S2048x512 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it (each is of the whole buffer). -/
theorem scover1_B_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) (y : S2048x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x512.size (by sl_kernel_rfl) y

/-- What case B leaves in the accumulator: its pieces read back. -/
def sout1_B_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) : Vec F S2048x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output block is of the whole block. -/
theorem cover1_C_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) (y : S2048x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x512.size (by sl_kernel_rfl) y

/-- What case C leaves in the output's staging buffer: its pieces read back. -/
def out1_C_3 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) : Vec F S2048x512 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it (each is of the whole buffer). -/
theorem scover1_C_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) (y : S2048x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x512.size (by sl_kernel_rfl) y

/-- What case C leaves in the accumulator: its pieces read back. -/
def sout1_C_0 (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) : Vec F S2048x512 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's staging buffer and the accumulator hold after each point -/

/-- The output window's staging buffer and the accumulator after the body at position n: the case the closed forms
    select there, run on the point's memrefs and input blocks, over what the point before left in the accumulator
    (cases B, C; case A zeroes it first).  No point is in both k = 0 and k = 7. -/
def outsAt1 (c : Dev nD) : (n : ℕ) → n < cfg1.N → Vec F S2048x512 .f32 × Vec F S2048x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0: case A's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: case B's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: case C's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the launch hands over (every scoped buffer at anything); afterwards
    the accumulator at what the point before left in it, the other scoped buffers unopened, the generator register at
    some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body at point t each input's buffer at its block and the output's at
    the first component of outsAt1; the invariant PhiS1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulator at what the point before left (at anything at the first point) and takes it
    back at this point's contents; where k < 7 the output's buffer is handed back as found, where k = 7 at the scaled
    accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Fr

end
-- ==== Proof.KI.Diff2Runs.lean ====
/-
  The diffusion kernel's region (the third pallas_call), first half: what is shared by the body's three cases and
  the body's run in each.  The grid is 4 × 8; point t has coordinates (t / 8, t % 8) = (i, k).  The body keeps an
  accumulator in a scratch buffer between points: at k = 0 it is zeroed, at every k the product of the adjacency
  block (i, k) and the current block (k) is added to it, and at k = 7 the accumulator, each row scaled by that
  row's reciprocal row sum, is stored into the output block i.  So there are three cases of the two conditionals:
  A (k = 0: zero, add), B (0 < k < 7: add), C (k = 7: add, scale and store).
-/
import proofs.«108811_j10385230921953_2_alg».proof.Proof.Gen.KernelIdeal.Launch
import proofs.«108811_j10385230921953_2_alg».proof.Proof.Gen.KernelIdeal.Skeleton
import proofs.«108811_j10385230921953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is
    not fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- The first conditional's condition (k = 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional's condition (k = 7), from the grid coordinates. -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where k < 7 nothing is stored into the output block: the window is idle there and its block is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- Where k = 7 the output block is stored: the window is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated (the choice does not matter). -/
abbrev VO2_3 : View sig .tc .vmem S2048x512 .f32 := (Memref.whole cc2_stg3_0 : Memref sig .tc .vmem S2048x512 .f32).view
/-- Each window's current staging memref at point t, and its wholeness. -/
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x512 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S2048x512 .f32 := Memref.whole cc2_scratch0
/-- The accumulator as a view: what it holds is stated through it. -/
abbrev VS2_0 : View sig .tc .vmem S2048x512 .f32 := scM2_0.view

/-- The region's invariant with the accumulator as a memref owned at some contents, beside the other scoped buffers
    (left unopened) and the generator register. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2_0, owns_whole]; try rfl

/-! ## The body's run in each case

On whole memrefs — the inputs' at their contents x0 x1 x2 — the body runs to the continuation holding the inputs' as they
were, the accumulator with its pieces written, and the output's memref untouched (cases A, B: handed at xi3, handed
back at xi3) or with its pieces written (case C).  The pieces are the witness the run finds. -/

set_option maxHeartbeats 1000000 in
/-- Case A (k = 0): the accumulator, handed at anything, is zeroed and the product added. -/
noncomputable def kernelRun2_A (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__diff_kernel i arg2 harg2 arg3 harg3 arg4 harg4 arg5 harg5 arg6 harg6) K } := by
  refine ⟨[], ?_, fun xi3 E K => ?run⟩
  case run =>
    simp only [cc2__diff_kernel_eq_skeleton]; unfold cc2__diff_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (0 < k < 7): the product is added to the accumulator, handed at what the point before left (xs0). -/
noncomputable def kernelRun2_B (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__diff_kernel i arg2 harg2 arg3 harg3 arg4 harg4 arg5 harg5 arg6 harg6) K } := by
  refine ⟨[], ?_, fun xi3 E K => ?run⟩
  case run =>
    simp only [cc2__diff_kernel_eq_skeleton]; unfold cc2__diff_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (k = 7): the product is added to the accumulator, handed at what the point before left (xs0), and the
    accumulator scaled row by row is stored into the output's memref, handed at anything. -/
noncomputable def kernelRun2_C (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__diff_kernel i arg2 harg2 arg3 harg3 arg4 harg4 arg5 harg5 arg6 harg6) K } := by
  refine ⟨?_, ?_, fun E K => ?run⟩
  case run =>
    simp only [cc2__diff_kernel_eq_skeleton]; unfold cc2__diff_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Diff2.lean ====
/-
  The diffusion kernel's region (the third pallas_call), second half: what the accumulator and the output block
  hold after each point, the pipeline's proof data, and the body obligation.  After point t = 8·i + k the accumulator
  holds 0 + A(i,0)·X(0) + … + A(i,k)·X(k), the products of the adjacency blocks of block row i with the current
  blocks, added in that order in f32; after a point with k = 7 the output block i holds that sum with each row
  scaled by the row's reciprocal row sum.  Stated recursively: the contents after a point are the case's run on the
  point's input blocks over what the point before left in the accumulator.
-/
import proofs.«108811_j10385230921953_2_alg».proof.Proof.KI.Diff2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the window
    is neither written back nor read at the next point). -/
def out2_A_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) : Vec F S2048x512 .f32 :=
  VO2_3.read (Elt F) (VO2_3.writes (Elt F) VO2_3.junk (kernelRun2_A c i arg2 harg2 arg3 harg3 arg4 harg4 arg5 harg5 arg6 harg6 hc0 hc1 x0 x1 x2).1)

/-- Case A's stores into the accumulator cover it (each is of the whole buffer). -/
theorem scover2_A_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) (y : S2048x512.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x512.size (by sl_kernel_rfl) y

/-- What case A leaves in the accumulator: its pieces read back. -/
def sout2_A_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) : Vec F S2048x512 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output block: no pieces, a placeholder nothing consults (at these points the window
    is neither written back nor read at the next point). -/
def out2_B_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) : Vec F S2048x512 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's stores into the accumulator cover it (each is of the whole buffer). -/
theorem scover2_B_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) (y : S2048x512.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x512.size (by sl_kernel_rfl) y

/-- What case B leaves in the accumulator: its pieces read back. -/
def sout2_B_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) : Vec F S2048x512 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's one store into the output block is of the whole block. -/
theorem cover2_C_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) (y : S2048x512.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x512.size (by sl_kernel_rfl) y

/-- What case C leaves in the output's staging buffer: its pieces read back. -/
def out2_C_3 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) : Vec F S2048x512 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's stores into the accumulator cover it (each is of the whole buffer). -/
theorem scover2_C_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) (y : S2048x512.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x512.size (by sl_kernel_rfl) y

/-- What case C leaves in the accumulator: its pieces read back. -/
def sout2_C_0 (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) : Vec F S2048x512 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's staging buffer and the accumulator hold after each point -/

/-- The output window's staging buffer and the accumulator after the body at position n: the case the closed forms
    select there, run on the point's memrefs and input blocks, over what the point before left in the accumulator
    (cases B, C; case A zeroes it first).  No point is in both k = 0 and k = 7. -/
def outsAt2 (c : Dev nD) : (n : ℕ) → n < cfg2.N → Vec F S2048x512 .f32 × Vec F S2048x512 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 8 = 0 then
      if h1 : (n + 1) % 8 = 7 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 8 = 7 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- At a point with k = 0: case A's contents. -/
theorem outsAt2_A (c : Dev nD) (t : Fin cfg2.N) (h0 : t.val % 8 = 0) (h1 : ¬t.val % 8 = 7) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a point with 0 < k < 7: case B's contents, over what the point before left. -/
theorem outsAt2_B (c : Dev nD) (t : Fin cfg2.N) (h0 : ¬t.val % 8 = 0) (h1 : ¬t.val % 8 = 7) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: case C's contents, over what the point before left. -/
theorem outsAt2_C (c : Dev nD) (t : Fin cfg2.N) (h0 : ¬t.val % 8 = 0) (h1 : t.val % 8 = 7) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the launch hands over (every scoped buffer at anything); afterwards
    the accumulator at what the point before left in it, the other scoped buffers unopened, the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2)) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body at point t each input's buffer at its block and the output's at
    the first component of outsAt2; the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at the first point) and takes it
    back at this point's contents; where k < 7 the output's buffer is handed back as found, where k = 7 at the scaled
    accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 8 = 0
  · by_cases h1 : t.val % 8 = 7
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HS0, Hr⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives that back: what the accumulator holds is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Fr

end
-- ==== Proof.KI.Diff3Runs.lean ====
/-
  The diffusion kernel's region (the fourth pallas_call), first half: what is shared by the body's three cases and
  the body's run in each.  The grid is 4 × 8; point t has coordinates (t / 8, t % 8) = (i, k).  The body keeps an
  accumulator in a scratch buffer between points: at k = 0 it is zeroed, at every k the product of the adjacency
  block (i, k) and the current block (k) is added to it, and at k = 7 the accumulator, each row scaled by that
  row's reciprocal row sum, is stored into the output block i.  So there are three cases of the two conditionals:
  A (k = 0: zero, add), B (0 < k < 7: add), C (k = 7: add, scale and store).
-/
import proofs.«108811_j10385230921953_2_alg».proof.Proof.Gen.KernelIdeal.Launch
import proofs.«108811_j10385230921953_2_alg».proof.Proof.Gen.KernelIdeal.Skeleton
import proofs.«108811_j10385230921953_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is
    not fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- The first conditional's condition (k = 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8). -/
theorem hcond3_0 : ∀ t : Fin cfg3.N, cond3_0 (grid3.coords t) ↔ t.val % 8 = 0 :=
  (by decide +kernel : ∀ t : Fin grid3.N, cond3_0 (grid3.coords t) ↔ t.val % 8 = 0)

/-- The second conditional's condition (k = 7), from the grid coordinates. -/
abbrev cond3_1 (i : grid3.Coords) : Prop := k3_cond2 i = 1#1
/-- It holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Where k < 7 nothing is stored into the output block: the window is idle there and its block is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- Where k = 7 the output block is stored: the window is live. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the output window, through which its contents are stated (the choice does not matter). -/
abbrev VO3_3 : View sig .tc .vmem S2048x512 .f32 := (Memref.whole cc3_stg3_0 : Memref sig .tc .vmem S2048x512 .f32).view
/-- Each window's current staging memref at point t, and its wholeness. -/
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x512 .f32 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S2048x512 .f32 := Memref.whole cc3_scratch0
/-- The accumulator as a view: what it holds is stated through it. -/
abbrev VS3_0 : View sig .tc .vmem S2048x512 .f32 := scM3_0.view

/-- The region's invariant with the accumulator as a memref owned at some contents, beside the other scoped buffers
    (left unopened) and the generator register. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3_0, owns_whole]; try rfl

/-! ## The body's run in each case

On whole memrefs — the inputs' at their contents x0 x1 x2 — the body runs to the continuation holding the inputs' as they
were, the accumulator with its pieces written, and the output's memref untouched (cases A, B: handed at xi3, handed
back at xi3) or with its pieces written (case C).  The pieces are the witness the run finds. -/

set_option maxHeartbeats 1000000 in
/-- Case A (k = 0): the accumulator, handed at anything, is zeroed and the product added. -/
noncomputable def kernelRun3_A (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__diff_kernel i arg2 harg2 arg3 harg3 arg4 harg4 arg5 harg5 arg6 harg6) K } := by
  refine ⟨[], ?_, fun xi3 E K => ?run⟩
  case run =>
    simp only [cc3__diff_kernel_eq_skeleton]; unfold cc3__diff_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case B (0 < k < 7): the product is added to the accumulator, handed at what the point before left (xs0). -/
noncomputable def kernelRun3_B (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__diff_kernel i arg2 harg2 arg3 harg3 arg4 harg4 arg5 harg5 arg6 harg6) K } := by
  refine ⟨[], ?_, fun xi3 E K => ?run⟩
  case run =>
    simp only [cc3__diff_kernel_eq_skeleton]; unfold cc3__diff_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- Case C (k = 7): the product is added to the accumulator, handed at what the point before left (xs0), and the
    accumulator scaled row by row is stored into the output's memref, handed at anything. -/
noncomputable def kernelRun3_C (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__diff_kernel i arg2 harg2 arg3 harg3 arg4 harg4 arg5 harg5 arg6 harg6) K } := by
  refine ⟨?_, ?_, fun E K => ?run⟩
  case run =>
    simp only [cc3__diff_kernel_eq_skeleton]; unfold cc3__diff_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Diff3.lean ====
/-
  The diffusion kernel's region (the fourth pallas_call), second half: what the accumulator and the output block
  hold after each point, the pipeline's proof data, and the body obligation.  After point t = 8·i + k the accumulator
  holds 0 + A(i,0)·X(0) + … + A(i,k)·X(k), the products of the adjacency blocks of block row i with the current
  blocks, added in that order in f32; after a point with k = 7 the output block i holds that sum with each row
  scaled by the row's reciprocal row sum.  Stated recursively: the contents after a point are the case's run on the
  point's input blocks over what the point before left in the accumulator.
-/
import proofs.«108811_j10385230921953_2_alg».proof.Proof.KI.Diff3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves -/

/-- Case A stores nothing into the output block: no pieces, a placeholder nothing consults (at these points the window
    is neither written back nor read at the next point). -/
def out3_A_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) : Vec F S2048x512 .f32 :=
  VO3_3.read (Elt F) (VO3_3.writes (Elt F) VO3_3.junk (kernelRun3_A c i arg2 harg2 arg3 harg3 arg4 harg4 arg5 harg5 arg6 harg6 hc0 hc1 x0 x1 x2).1)

/-- Case A's stores into the accumulator cover it (each is of the whole buffer). -/
theorem scover3_A_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) (y : S2048x512.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x512.size (by sl_kernel_rfl) y

/-- What case A leaves in the accumulator: its pieces read back. -/
def sout3_A_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) : Vec F S2048x512 .f32 :=
  VS3_0.read (Elt F) (VS3_0.writes (Elt F) VS3_0.junk (kernelRun3_A c i arg2 harg2 arg3 harg3 arg4 harg4 arg5 harg5 arg6 harg6 hc0 hc1 x0 x1 x2).2.1)

/-- Case B stores nothing into the output block: no pieces, a placeholder nothing consults (at these points the window
    is neither written back nor read at the next point). -/
def out3_B_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) : Vec F S2048x512 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case B's stores into the accumulator cover it (each is of the whole buffer). -/
theorem scover3_B_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) (y : S2048x512.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S2048x512.size (by sl_kernel_rfl) y

/-- What case B leaves in the accumulator: its pieces read back. -/
def sout3_B_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) : Vec F S2048x512 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case C's one store into the output block is of the whole block. -/
theorem cover3_C_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) (y : S2048x512.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S2048x512.size (by sl_kernel_rfl) y

/-- What case C leaves in the output's staging buffer: its pieces read back. -/
def out3_C_3 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) : Vec F S2048x512 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's stores into the accumulator cover it (each is of the whole buffer). -/
theorem scover3_C_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) (y : S2048x512.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S2048x512.size (by sl_kernel_rfl) y

/-- What case C leaves in the accumulator: its pieces read back. -/
def sout3_C_0 (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) : Vec F S2048x512 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output's staging buffer and the accumulator hold after each point -/

/-- The output window's staging buffer and the accumulator after the body at position n: the case the closed forms
    select there, run on the point's memrefs and input blocks, over what the point before left in the accumulator
    (cases B, C; case A zeroes it first).  No point is in both k = 0 and k = 7. -/
def outsAt3 (c : Dev nD) : (n : ℕ) → n < cfg3.N → Vec F S2048x512 .f32 × Vec F S2048x512 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- At a point with k = 0: case A's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- At a point with 0 < k < 7: case B's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: case C's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the launch hands over (every scoped buffer at anything); afterwards
    the accumulator at what the point before left in it, the other scoped buffers unopened, the generator register at
    some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2)) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The arrays as the region finds them; after the body at point t each input's buffer at its block and the output's at
    the first component of outsAt3; the invariant PhiS3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; the
    invariant hands the body the accumulator at what the point before left (at anything at the first point) and takes it
    back at this point's contents; where k < 7 the output's buffer is handed back as found, where k = 7 at the scaled
    accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 8 = 0
  · by_cases h1 : t.val % 8 = 7
    · exfalso; omega
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    ·
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point the invariant gives that back: what the accumulator holds is forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Fr

end
-- ==== Proof.KI.Run.lean ====
/-
  The whole run of the program: ten segments — a stretch of host operations, the linear kernel's region, a stretch,
  the first diffusion region, a stretch, the second, a stretch, the third, and two closing stretches (the last the relu).
  The contents of every unscoped buffer are followed from the launch memory through each boundary: a host stretch
  applies its operations, a region leaves its windows' arrays at what its write-backs fold to and every other buffer
  as entered.  The run's post says that at the end every unscoped buffer holds the last boundary's contents; the frame
  claim and the value claim are both read off it.
-/
import proofs.«108811_j10385230921953_2_alg».proof.Proof.KI.Linear
import proofs.«108811_j10385230921953_2_alg».proof.Proof.KI.Diff1
import proofs.«108811_j10385230921953_2_alg».proof.Proof.KI.Diff2
import proofs.«108811_j10385230921953_2_alg».proof.Proof.KI.Diff3
import proofs.«108811_j10385230921953_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the linear region's entry). -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vx2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Vx2 m ρ c (Pipeline.arrRef spec0 w) :=
  (W2_arr m ρ c w).symm
theorem hrest0 (c : Dev nD) : ∀ b, b ∉ Finset.univ.image (Pipeline.arrRef spec0) → Vx2 m ρ c b = Ve1 m ρ c b :=
  fun b hb => W2_of_ne m ρ c b fun w e => hb (Finset.mem_image.mpr ⟨w, Finset.mem_univ _, e⟩)
/-- After the next host stretch. -/
abbrev W3 : Dev nD → Valuation τ sig (Elt F) := fun c => StableHlo.after hostOps1 (W2 m ρ c)
abbrev Ve3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Ve3 m ρ) c).arrAt w cfg1.N
theorem W4_arr (c : Dev nD) (w : Fin cfg1.W) :
    W4 m ρ c (Proc.devRef .tc (Pipeline.arrRef spec1 w)) = (dat1 (Ve3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vx4 : (c : Dev nD) → (b : Ref sig .tc) → Buf (Elt F) ((c : Thread nD τ).loc b) := fun c b => W4 m ρ c b
theorem hF1 (c : Dev nD) (w : Fin cfg1.W) : (dat1 (Ve3 m ρ) c).arrAt w cfg1.N = Vx4 m ρ c (Pipeline.arrRef spec1 w) :=
  (W4_arr m ρ c w).symm
theorem hrest1 (c : Dev nD) : ∀ b, b ∉ Finset.univ.image (Pipeline.arrRef spec1) → Vx4 m ρ c b = Ve3 m ρ c b :=
  fun b hb => W4_of_ne m ρ c b fun w e => hb (Finset.mem_image.mpr ⟨w, Finset.mem_univ _, e⟩)
/-- After the next host stretch. -/
abbrev W5 : Dev nD → Valuation τ sig (Elt F) := fun c => StableHlo.after hostOps2 (W4 m ρ c)
abbrev Ve5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Ve5 m ρ) c).arrAt w cfg2.N
theorem W6_arr (c : Dev nD) (w : Fin cfg2.W) :
    W6 m ρ c (Proc.devRef .tc (Pipeline.arrRef spec2 w)) = (dat2 (Ve5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vx6 : (c : Dev nD) → (b : Ref sig .tc) → Buf (Elt F) ((c : Thread nD τ).loc b) := fun c b => W6 m ρ c b
theorem hF2 (c : Dev nD) (w : Fin cfg2.W) : (dat2 (Ve5 m ρ) c).arrAt w cfg2.N = Vx6 m ρ c (Pipeline.arrRef spec2 w) :=
  (W6_arr m ρ c w).symm
theorem hrest2 (c : Dev nD) : ∀ b, b ∉ Finset.univ.image (Pipeline.arrRef spec2) → Vx6 m ρ c b = Ve5 m ρ c b :=
  fun b hb => W6_of_ne m ρ c b fun w e => hb (Finset.mem_image.mpr ⟨w, Finset.mem_univ _, e⟩)
/-- After the next host stretch. -/
abbrev W7 : Dev nD → Valuation τ sig (Elt F) := fun c => StableHlo.after hostOps3 (W6 m ρ c)
abbrev Ve7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (Ve7 m ρ) c).arrAt w cfg3.N
theorem W8_arr (c : Dev nD) (w : Fin cfg3.W) :
    W8 m ρ c (Proc.devRef .tc (Pipeline.arrRef spec3 w)) = (dat3 (Ve7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Vx8 : (c : Dev nD) → (b : Ref sig .tc) → Buf (Elt F) ((c : Thread nD τ).loc b) := fun c b => W8 m ρ c b
theorem hF3 (c : Dev nD) (w : Fin cfg3.W) : (dat3 (Ve7 m ρ) c).arrAt w cfg3.N = Vx8 m ρ c (Pipeline.arrRef spec3 w) :=
  (W8_arr m ρ c w).symm
theorem hrest3 (c : Dev nD) : ∀ b, b ∉ Finset.univ.image (Pipeline.arrRef spec3) → Vx8 m ρ c b = Ve7 m ρ c b :=
  fun b hb => W8_of_ne m ρ c b fun w e => hb (Finset.mem_image.mpr ⟨w, Finset.mem_univ _, e⟩)
/-- After the next host stretch. -/
abbrev W9 : Dev nD → Valuation τ sig (Elt F) := fun c => StableHlo.after hostOps4 (W8 m ρ c)
/-- After the last host stretch (the relu): the end. -/
abbrev W10 : Dev nD → Valuation τ sig (Elt F) := fun c => StableHlo.after hostOps4_1 (W9 m ρ c)

/-! ## An argument array is written by nothing -/

/-- A buffer that no host stretch writes and no region stages as an array ends as launched. -/
theorem W10_of_untouched (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps4_1_W)
    (a0 : ∀ w, Pipeline.arrRef spec0 w ≠ r) (a1 : ∀ w, Pipeline.arrRef spec1 w ≠ r) (a2 : ∀ w, Pipeline.arrRef spec2 w ≠ r) (a3 : ∀ w, Pipeline.arrRef spec3 w ≠ r) :
    W10 m ρ c (Proc.devRef .tc r) = m ((c : Thread nD τ).loc r) :=
  calc W10 m ρ c (Proc.devRef .tc r)
    _ = W9 m ρ c (Proc.devRef .tc r) := StableHlo.after_of_writes_sub hostOps4_1 _ hostOps4_1_writes h5
    _ = W8 m ρ c (Proc.devRef .tc r) := StableHlo.after_of_writes_sub hostOps4 _ hostOps4_writes h4
    _ = W7 m ρ c (Proc.devRef .tc r) := W8_of_ne m ρ c r a3
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

theorem W10_main_arg0 (c : Dev nD) : W10 m ρ c (Proc.devRef .tc main_arg0) = m ((c : Thread nD τ).loc main_arg0) :=
  W10_of_untouched m ρ c main_arg0 (by decide) (by decide) (by decide) (by decide) (by decide) (by decide) (by decide) (by decide) (by decide) (by decide)
theorem W10_main_arg1 (c : Dev nD) : W10 m ρ c (Proc.devRef .tc main_arg1) = m ((c : Thread nD τ).loc main_arg1) :=
  W10_of_untouched m ρ c main_arg1 (by decide) (by decide) (by decide) (by decide) (by decide) (by decide) (by decide) (by decide) (by decide) (by decide)
theorem W10_main_arg2 (c : Dev nD) : W10 m ρ c (Proc.devRef .tc main_arg2) = m ((c : Thread nD τ).loc main_arg2) :=
  W10_of_untouched m ρ c main_arg2 (by decide) (by decide) (by decide) (by decide) (by decide) (by decide) (by decide) (by decide) (by decide) (by decide)
theorem W10_main_arg3 (c : Dev nD) : W10 m ρ c (Proc.devRef .tc main_arg3) = m ((c : Thread nD τ).loc main_arg3) :=
  W10_of_untouched m ρ c main_arg3 (by decide) (by decide) (by decide) (by decide) (by decide) (by decide) (by decide) (by decide) (by decide) (by decide)
theorem W10_main_arg4 (c : Dev nD) : W10 m ρ c (Proc.devRef .tc main_arg4) = m ((c : Thread nD τ).loc main_arg4) :=
  W10_of_untouched m ρ c main_arg4 (by decide) (by decide) (by decide) (by decide) (by decide) (by decide) (by decide) (by decide) (by decide) (by decide)

/-! ## The proof data family and the thread state -/

/-- No pipeline has a prefetched table. -/
abbrev adm4 : (p : Fin 4) → (pcfgs (F := F) p).Adm := fun p => (cfgs p).toPCfg_adm
/-- Every pipeline's proof data, each at its region's entry contents. -/
def pdat : (p : Fin 4) → (c : Dev nD) → Dat τ (Elt F) Unit ℕ (UR sig nD τ) ℕ (Pipeline.pin (pcfgs (F := F)) adm4 p) c
  | ⟨0, _⟩ => fun c => dat0 (Ve1 m ρ) c
  | ⟨1, _⟩ => fun c => dat1 (Ve3 m ρ) c
  | ⟨2, _⟩ => fun c => dat2 (Ve5 m ρ) c
  | ⟨3, _⟩ => fun c => dat3 (Ve7 m ρ) c
abbrev 𝒱n : Variants := Variants.none
/-- No core owes another anything. -/
abbrev Ln : GSem nD τ sig → Finset Unit := fun _ => ∅
abbrev lvn : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- A host stretch as a segment, from the contents W. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the register at some state. -/
abbrev Tend (c : Dev nD) : sProp 𝕄 := iprop(StableHlo.held (c : Thread nD τ) (Pipeline.ucRefs τ sig) (W10 m ρ c) ∗ ∃ r, prngReg c r)

/-! ## The class invariant, repackaged for a region's entry and exit -/

theorem toPhiA1 (c : Dev nD) (P : sProp 𝕄) :
    iprop((∃ r, prngReg c r) ∗ P ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp
theorem ofPhiA1 (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

theorem toPhiA2 (c : Dev nD) (P : sProp 𝕄) :
    iprop((∃ r, prngReg c r) ∗ P ∗ Pipeline.scopedRest (Ix := Unit) (Name := ℕ) (U := UR sig nD τ) (Lvl := ℕ) (Val := Elt F) spec2 c) ⊢ (Pipeline.ΦA spec2 c : sProp 𝕄) := by
  unfold Pipeline.ΦA
  iintro ⟨Hp, -, Hr⟩
  isplitl [Hr]; · iexact Hr
  iexact Hp
theorem ofPhiA2 (c : Dev nD) :
    (Pipeline.ΦA spec2 c : sProp 𝕄) ⊢ iprop((∃ r, prngReg c r) ∗ BI.emp ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

theorem toPhiA3 (c : Dev nD) (P : sProp 𝕄) :
    iprop((∃ r, prngReg c r) ∗ P ∗ Pipeline.scopedRest (Ix := Unit) (Name := ℕ) (U := UR sig nD τ) (Lvl := ℕ) (Val := Elt F) spec3 c) ⊢ (Pipeline.ΦA spec3 c : sProp 𝕄) := by
  unfold Pipeline.ΦA
  iintro ⟨Hp, -, Hr⟩
  isplitl [Hr]; · iexact Hr
  iexact Hp
theorem ofPhiA3 (c : Dev nD) :
    (Pipeline.ΦA spec3 c : sProp 𝕄) ⊢ iprop((∃ r, prngReg c r) ∗ BI.emp ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr

/-! ## The regions as segments -/

set_option backward.isDefEq.respectTransparency.types false in
/-- Region 0: entered from every unscoped buffer at W1, left at W2.  Its arrays are split out of the unscoped
    buffers and put back at the exit contents; the generator register and the scoped rest go into the region invariant and
    come back; nothing is owed; the kernel has no semaphore of its own. -/
def reg0 : Pipeline.RegionSeg (pcfgs (F := F)) adm4 (pdat m ρ) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Ln lvn 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) adm4 (pdat m ρ) launch0.win launch0.arr_whole c
      ((pdat m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm4 (Ix := Unit) (Name := ℕ) (U := UR sig nD τ) (Lvl := ℕ)
      launch0.win launch0.arr_whole c (pdat m ρ) ((pdat m ρ 0 c).share_full fun _ => rfl)
      (Ve1 m ρ c) (Vx2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4.  Its arrays are split out of the unscoped
    buffers and put back at the exit contents; the generator register and the scoped rest go into the region invariant and
    come back; nothing is owed; the kernel has no semaphore of its own. -/
def reg1 : Pipeline.RegionSeg (pcfgs (F := F)) adm4 (pdat m ρ) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (Ve3 m ρ) c).loose
  hwaits := Pipeline.hwaits_of_owed_zero _ _ _ _ Ln lvn 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Ve3 m ρ c)
  hentry c := by
    rw [Pipeline.ownSems0_none]
    have hsplit := Pipeline.arrays_of_unscopedBufs (p := 1) (pcfgs (F := F)) adm4 (pdat m ρ) launch1.win launch1.arr_whole c
      ((pdat m ρ 1 c).share_full fun _ => rfl) (Ve3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toPhiA1 c _).trans (hin1 (Ve3 m ρ) c)
  hout c := by
    rw [Pipeline.ownSems0_none]
    exact (hout1 (Ve3 m ρ) c).trans (ofPhiA1 c)
  hexit c := by
    have hjoin := Pipeline.unscopedBufs_of_arrays (p := 1) (pcfgs (F := F)) adm4 (Ix := Unit) (Name := ℕ) (U := UR sig nD τ) (Lvl := ℕ)
      launch1.win launch1.arr_whole c (pdat m ρ) ((pdat m ρ 1 c).share_full fun _ => rfl)
      (Ve3 m ρ c) (Vx4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W5, left at W6.  Its arrays are split out of the unscoped
    buffers and put back at the exit contents; the generator register and the scoped rest go into the region invariant and
    come back; nothing is owed; the kernel has no semaphore of its own. -/
def reg2 : Pipeline.RegionSeg (pcfgs (F := F)) adm4 (pdat m ρ) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (Ve5 m ρ) c).loose
  hwaits := Pipeline.hwaits_of_owed_zero _ _ _ _ Ln lvn 2 fun _ _ => rfl
  pre c := iprop(StableHlo.held (c : Thread nD τ) (Pipeline.ucRefs τ sig) (W5 m ρ c) ∗ Rr c)
  post c := iprop(StableHlo.held (c : Thread nD τ) (Pipeline.ucRefs τ sig) (W6 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Ve5 m ρ c)
  hentry c := by
    rw [Pipeline.ownSems0_none]
    have hsplit := Pipeline.arrays_of_unscopedBufs (p := 2) (pcfgs (F := F)) adm4 (pdat m ρ) launch2.win launch2.arr_whole c
      ((pdat m ρ 2 c).share_full fun _ => rfl) (Ve5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toPhiA2 c _).trans (hin2 (Ve5 m ρ) c)
  hout c := by
    rw [Pipeline.ownSems0_none]
    exact (hout2 (Ve5 m ρ) c).trans (ofPhiA2 c)
  hexit c := by
    have hjoin := Pipeline.unscopedBufs_of_arrays (p := 2) (pcfgs (F := F)) adm4 (Ix := Unit) (Name := ℕ) (U := UR sig nD τ) (Lvl := ℕ)
      launch2.win launch2.arr_whole c (pdat m ρ) ((pdat m ρ 2 c).share_full fun _ => rfl)
      (Ve5 m ρ c) (Vx6 m ρ c) ((pdat m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W7, left at W8.  Its arrays are split out of the unscoped
    buffers and put back at the exit contents; the generator register and the scoped rest go into the region invariant and
    come back; nothing is owed; the kernel has no semaphore of its own. -/
def reg3 : Pipeline.RegionSeg (pcfgs (F := F)) adm4 (pdat m ρ) () defs₀ 𝒱n Ln lvn 3 where
  win := launch3.win.to₀
  block_pos := launch3.block_pos
  stage_whole := launch3.stage_whole
  K := PEmpty
  osem k := k.elim
  ho := Pipeline.OwnSemFacts.none _
  hbody c := (body_obligation3 (Ve7 m ρ) c).loose
  hwaits := Pipeline.hwaits_of_owed_zero _ _ _ _ Ln lvn 3 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec3 c (Ve7 m ρ c)
  hentry c := by
    rw [Pipeline.ownSems0_none]
    have hsplit := Pipeline.arrays_of_unscopedBufs (p := 3) (pcfgs (F := F)) adm4 (pdat m ρ) launch3.win launch3.arr_whole c
      ((pdat m ρ 3 c).share_full fun _ => rfl) (Ve7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (toPhiA3 c _).trans (hin3 (Ve7 m ρ) c)
  hout c := by
    rw [Pipeline.ownSems0_none]
    exact (hout3 (Ve7 m ρ) c).trans (ofPhiA3 c)
  hexit c := by
    have hjoin := Pipeline.unscopedBufs_of_arrays (p := 3) (pcfgs (F := F)) adm4 (Ix := Unit) (Name := ℕ) (U := UR sig nD τ) (Lvl := ℕ)
      launch3.win launch3.arr_whole c (pdat m ρ) ((pdat m ρ 3 c).share_full fun _ => rfl)
      (Ve7 m ρ c) (Vx8 m ρ c) ((pdat m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segsAll : List (Pipeline.Seg (pcfgs (F := F)) adm4 (pdat m ρ) () defs₀ 𝒱n Ln lvn) :=
  [ .host (hsegOf hostOps0 hostOps0_sub hostOps0_fresh (W0 m ρ)),
    .region (reg0 m ρ),
    .host (hsegOf hostOps1 hostOps1_sub hostOps1_fresh (W2 m ρ)),
    .region (reg1 m ρ),
    .host (hsegOf hostOps2 hostOps2_sub hostOps2_fresh (W4 m ρ)),
    .region (reg2 m ρ),
    .host (hsegOf hostOps3 hostOps3_sub hostOps3_fresh (W6 m ρ)),
    .region (reg3 m ρ),
    .host (hsegOf hostOps4 hostOps4_sub hostOps4_fresh (W8 m ρ)),
    .host (hsegOf hostOps4_1 hostOps4_1_sub hostOps4_1_fresh (W9 m ρ)) ]

/-- The program is the run of the segments. -/
theorem main_run (c : Dev nD) : main (F := F) c = Pipeline.Seg.run (segsAll m ρ) := (main_chain c).trans (by chain_rfl)

set_option backward.isDefEq.respectTransparency.types false in
/-- THE RUN.  From any memory with zero counters every weakly fair execution of the program on the TensorCores terminates,
    nothing faulting, and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm4 (pdat m ρ) () cellOf_inj emb₁ defs₀ 𝒱n Ln lvn m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tend m ρ)
    (hch := ⟨fun _ => .rfl, fun _ => .rfl, fun _ => .rfl, fun _ => .rfl, fun _ => .rfl, fun _ => .rfl, fun _ => .rfl, fun _ => .rfl,
      fun _ => .rfl, fun _ => .rfl, fun c => by
        refine (show (iprop(StableHlo.held (c : Thread nD τ) (Pipeline.ucRefs τ sig) (W10 m ρ c) ∗ Rr c) : sProp 𝕄)
          ⊢ iprop(Tend m ρ c ∗ ∃ W, owes (c : Thread nD τ) (0 : CellTallies nD τ sig Unit) W) from ?_)
        iintro ⟨Hh, Hp, HO⟩
        isplitl [Hh Hp]
        · isplitl [Hh]; · iexact Hh
          iexact Hp
        iexact HO⟩)
    (hinit := by
      refine Pipeline.initEach Ln lvn fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c)⟩) (run_all m ρ)

end Cert.KernelIdeal.Fr

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.LibColumnForms.lean ====
/-
  COLUMN AND ROW FORMS READ AT AN INDEX.

  The small layout steps between a vector and a matrix with a unit axis, for every extent and element type:
  * `broadcastTo_col_apply`: a column `[a, 1]` broadcast along the lanes to `[a, b]` reads, at `(p, q)`, the column at `(p, 0)`;
  * `broadcastTo_row_apply`: a row `[1, b]` broadcast along the rows to `[a, b]` reads, at `(p, q)`, the row at `(0, q)`;
  * `shapeCast_col_apply`: a vector `[a]` reshaped to a column `[a, 1]` reads, at `(p, 0)`, the vector at `p`;
  * `shapeCast_row_apply`: a vector `[b]` reshaped to a row `[1, b]` reads, at `(0, q)`, the vector at `q`.
-/
import Idealize.ShloMosaic.Lib.Pipeline.Value
import Idealize.ShloMosaic.Lib.ValueIdx

noncomputable section

namespace Cert.Lib.ColumnForms

open Idealize.ShloMosaic Idealize.ShloMosaic.ValueIdx

variable {α : Type} {a b : Nat}

/-- A column broadcast along the lanes. -/
theorem broadcastTo_col_apply (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A row broadcast along the rows. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A vector reshaped to a column. -/
theorem shapeCast_col_apply (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) :=
  shapeCast_apply v h (ix2 p 0) (ix1 p) (by
    rw [Shape.rowMajor_val_one, Shape.rowMajor_val_two]
    show p.val = p.val * 1 + 0
    omega)

/-- A vector reshaped to a row. -/
theorem shapeCast_row_apply (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) :=
  shapeCast_apply v h (ix2 0 q) (ix1 q) (by
    rw [Shape.rowMajor_val_one, Shape.rowMajor_val_two]
    show q.val = 0 * b + q.val
    omega)

end Cert.Lib.ColumnForms

end
-- ==== Proof.KI.LinearValue.lean ====
/-
  What the linear region leaves in its output array, at the ideal values.  Point t of its four grid points reads
  rows 2048·t … 2048·t+2047 of the first operand, the whole second operand and the bias row, and stores
  (Σ_k x[r,k]·w[k,q]) + b[0,q] at row r, column q of its output block: the matrix product from the zero accumulator is
  the plain sum over the contracted axis, and the bias row is broadcast along the rows.  Block t of the output array is
  rows 2048·t … of it, and the four blocks fill the array, so the array ends at x·w + b of the three arrays as the
  region found them, index by index.
-/
import proofs.«108811_j10385230921953_2_alg».proof.Proof.KI.Linear
import proofs.«108811_j10385230921953_2_alg».proof.Proof.LibPlainMatmul
import proofs.«108811_j10385230921953_2_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.Val
open Cert.KernelIdeal Cert.KernelIdeal.Gen Cert.KernelIdeal.Fr
open Idealize.ShloMosaic Idealize.ShloMosaic.TcCoe Idealize.SL.Sem Idealize.ShloMosaic.ValueIdx

/-- A matmul from the zero accumulator of operands stored in any two float formats, at (p, q): the sum over the contracted axis. -/
theorem matmul_any_zero_apply {A K B : ℕ} {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ φ₁) (r : FVec Ideal ⟨2, ![K, B]⟩ φ₂) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (Cert.Lib.PlainMatmul.contraction_apply d h1 h2 h3 h4 h5 h6 l r p q)

/-- The body's stored value at row r, column q of the block: the product's sum over the contracted axis plus the bias. -/
theorem pay0_apply (x0 : FVec Ideal S2048x512 .bf16) (x1 : FVec Ideal S512x512 .bf16) (x2 : FVec Ideal S1x512 .f32) (r : Fin 2048) (q : Fin 512) :
    k0_pay1 (F := Ideal) x0 x1 x2 (ix2 r q) = (∑ k : Fin 512, x0 (ix2 r k) * x1 (ix2 k q)) + x2 (ix2 (0 : Fin 1) q) := by
  unfold k0_pay1
  rw [addf_apply]
  simp only [shapeCast_self]
  refine congrArg₂ (· + ·) ?_ ?_
  · exact matmul_any_zero_apply (A := 2048) (K := 512) (B := 512) dot_S2048x512_S512x512_S2048x512_1_0_0_1_n_n rfl rfl rfl rfl rfl rfl none x0 x1 r q
  · exact Cert.Lib.ColumnForms.broadcastTo_row_apply (a := 2048) (b := 512) x2 broadcasts_S1x512_S2048x512 r q

open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row p, column q of x·w + b. -/
def linAt (x : S8192x512.Idx → EReal) (w : S512x512.Idx → EReal) (b : S1x512.Idx → EReal) (p : Fin 8192) (q : Fin 512) : EReal :=
  (∑ k : Fin 512, x (ix2 p k) * w (ix2 k q)) + b (ix2 (0 : Fin 1) q)
/-- x·w + b as one function of the index. -/
def lin (x : S8192x512.Idx → EReal) (w : S512x512.Idx → EReal) (b : S1x512.Idx → EReal) : S8192x512.Idx → EReal :=
  fun i => linAt x w b ⟨(i 0).val, idx2_lt0 i⟩ ⟨(i 1).val, idx2_lt1 i⟩

/-- The printed index maps over the grid: the first operand's and the output's row blocks move with the point, the others stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first operand's block at point t, row r, column k is the array at row 2048·t + r. -/
theorem blk0_0 (c : Dev nD) (t : Fin cfg0.N) (r : Fin 2048) (k : Fin 512) (P : Fin 8192) (hP : P.val = t.val * 2048 + r.val) :
    iblk0 V c 0 t (ix2 r k) = V c main_v0 (ix2 P k) := by
  unfold iblk0; rw [View.read_apply]
  show V c main_v0 (((cfg0.win 0).blk t).view.emb (ix2 r k)) = V c main_v0 (ix2 P k)
  refine congrArg _ (funext fun a => Fin.ext ?_)
  obtain ⟨e0, e1, -⟩ := idx_facts0 t
  match a with
  | ⟨0, _⟩ => show win0_0.index t (0 : Fin 2) * 2048 + 1 * r.val = P.val; rw [e0, hP]; omega
  | ⟨1, _⟩ => show win0_0.index t (1 : Fin 2) * 512 + 1 * k.val = k.val; rw [e1]; omega

/-- The second operand's one block is the array. -/
theorem blk0_1 (c : Dev nD) (t : Fin cfg0.N) (k : Fin 512) (q : Fin 512) :
    iblk0 V c 1 t (ix2 k q) = V c main_v1 (ix2 k q) := by
  unfold iblk0; rw [View.read_apply]
  show V c main_v1 (((cfg0.win 1).blk t).view.emb (ix2 k q)) = V c main_v1 (ix2 k q)
  refine congrArg _ (funext fun a => Fin.ext ?_)
  obtain ⟨-, -, e0, e1, -⟩ := idx_facts0 t
  match a with
  | ⟨0, _⟩ => show win0_1.index t (0 : Fin 2) * 512 + 1 * k.val = k.val; rw [e0]; omega
  | ⟨1, _⟩ => show win0_1.index t (1 : Fin 2) * 512 + 1 * q.val = q.val; rw [e1]; omega

/-- The bias row's one block is the array. -/
theorem blk0_2 (c : Dev nD) (t : Fin cfg0.N) (q : Fin 512) :
    iblk0 V c 2 t (ix2 (0 : Fin 1) q) = V c main_v2 (ix2 (0 : Fin 1) q) := by
  unfold iblk0; rw [View.read_apply]
  show V c main_v2 (((cfg0.win 2).blk t).view.emb (ix2 (0 : Fin 1) q)) = V c main_v2 (ix2 (0 : Fin 1) q)
  refine congrArg _ (funext fun a => Fin.ext ?_)
  obtain ⟨-, -, -, -, e0, e1, -⟩ := idx_facts0 t
  match a with
  | ⟨0, _⟩ => show win0_2.index t (0 : Fin 2) * 1 + 1 * 0 = 0; rw [e0]
  | ⟨1, _⟩ => show win0_2.index t (1 : Fin 2) * 512 + 1 * q.val = q.val; rw [e1]; omega

/-- What point t writes back is block t of the linear map of the three arrays as the region finds them. -/
theorem flushed0_eq (c : Dev nD) (t : Fin cfg0.N) :
    (dat0 V c).flushed 3 t = ((cfg0.win 3).blk t).view.read (Elt Ideal) (lin (V c main_v0) (V c main_v1) (V c main_v2)) := by
  show (cfg0.win 3).cut (grid0.coords t) ((dat0 V c).after 3 t) = _
  rw [after0_3]
  unfold out0_3
  rw [View.canon_unit_zero hz]
  simp only [View.ld_unit_zero (S := S2048x512) hz, View.ld_unit_zero (S := S512x512) hz, View.ld_unit_zero (S := S1x512) hz]
  funext j
  obtain ⟨r, q, rfl⟩ : ∃ (r : Fin 2048) (q : Fin 512), j = ix2 r q := ⟨j 0, j 1, eq_ix2 j⟩
  refine (pay0_apply _ _ _ r q).trans ?_
  rw [View.read_apply]
  have hN : cfg0.N = 4 := N_0
  have ht : t.val < 4 := lt_of_lt_of_eq t.isLt hN
  obtain ⟨-, -, -, -, -, -, e0, e1⟩ := idx_facts0 t
  have hP : (((cfg0.win 3).blk t).view.emb (ix2 r q) 0).val = t.val * 2048 + r.val := by
    show win0_3.index t (0 : Fin 2) * 2048 + 1 * r.val = _; rw [e0]; omega
  have hQ : (((cfg0.win 3).blk t).view.emb (ix2 r q) 1).val = q.val := by
    show win0_3.index t (1 : Fin 2) * 512 + 1 * q.val = _; rw [e1]; omega
  unfold lin linAt
  refine congrArg₂ (· + ·) (Finset.sum_congr rfl fun k _ => congrArg₂ (· * ·) ?_ ?_) ?_
  · exact blk0_0 V c t r k _ hP
  · exact (blk0_1 V c t k q).trans (congrArg _ (funext fun a => Fin.ext (by match a with | ⟨0, _⟩ => rfl | ⟨1, _⟩ => exact hQ.symm)))
  · exact (blk0_2 V c t q).trans (congrArg _ (funext fun a => Fin.ext (by match a with | ⟨0, _⟩ => rfl | ⟨1, _⟩ => exact hQ.symm)))

/-- An index of the output array is in point t's block iff each coordinate is in the block's range on its axis. -/
theorem mem_blk0 (t : Fin cfg0.N) (i : S8192x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v3).slice (win0_3.rect t)).set ↔ _
  rw [View.set_slice_whole, Rect.mem_set_unit]
  exact Iff.rfl

/-- The four row blocks fill the array, so after the region the output array is the linear map of the three input arrays. -/
theorem final0 (c : Dev nD) : (dat0 V c).arrAt 3 cfg0.N = lin (V c main_v0) (V c main_v1) (V c main_v2) :=
  (dat0 V c).arrAt_eq_of_cover 3 _ (fun t _ => flushed0_eq V c t) fun i => by
    have hi0 : (i 0).val < 8192 := idx2_lt0 i
    have hi1 : (i 1).val < 512 := idx2_lt1 i
    have hN : cfg0.N = 4 := N_0
    have hlt : (i 0).val / 2048 < cfg0.N := by rw [hN]; omega
    refine ⟨⟨(i 0).val / 2048, hlt⟩, flush0_3 _, ?_⟩
    rw [mem_blk0]
    obtain ⟨-, -, -, -, -, -, e0, e1⟩ := idx_facts0 ⟨(i 0).val / 2048, hlt⟩
    intro a
    match a with
    | ⟨0, _⟩ =>
      show win0_3.index ⟨(i 0).val / 2048, hlt⟩ (0 : Fin 2) * 2048 ≤ (i 0).val ∧ (i 0).val < win0_3.index ⟨(i 0).val / 2048, hlt⟩ (0 : Fin 2) * 2048 + 2048
      rw [e0]; dsimp only; omega
    | ⟨1, _⟩ =>
      show win0_3.index ⟨(i 0).val / 2048, hlt⟩ (1 : Fin 2) * 512 ≤ (i 1).val ∧ (i 1).val < win0_3.index ⟨(i 0).val / 2048, hlt⟩ (1 : Fin 2) * 512 + 512
      rw [e1]; omega

end Cert.KernelIdeal.Val
end
-- ==== Proof.KI.Diff1Closed.lean ====
/-
  The diffusion kernel's region (the second pallas_call), third part: what each case leaves, in closed form, and the
  accumulation point by point.  Every load and store of the body is of a whole buffer, so a case's leftovers are its
  stores' payloads of the buffers' contents: where k = 0 the accumulator ends at 0 + A·X (the zero block, then the
  product of the adjacency block and the current block added), elsewhere at acc + A·X of what the point before left,
  and where k = 7 the output block is that sum with each row scaled by the row's reciprocal row sum.
-/
import proofs.«108811_j10385230921953_2_alg».proof.Proof.KI.Diff1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

private theorem hz : (![0, 0] : Fin 2 → Nat) = fun _ => 0 := funext fun a => by fin_cases a <;> rfl

/-! ## The cases' leftovers as payloads -/

/-- Where k = 0 the accumulator is zeroed, read back, and the product added: it ends at 0 + A·X. -/
theorem sout1_A_0_eq (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond1_0 i) (hc1 : ¬cond1_1 i)
    (x0 : Vec F S2048x1024 .bf16) (x1 : Vec F S1024x512 .bf16) (x2 : Vec F S2048x1 .f32) :
    sout1_A_0 c i arg2 harg2 arg3 harg3 arg4 harg4 arg5 harg5 arg6 harg6 hc0 hc1 x0 x1 x2 = k1_pay2 k1_pay1 x0 x1 := by
  unfold sout1_A_0
  rw [View.read_writes_junk_eq_canon]
  unfold kernelRun1_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- Where 0 < k < 7 the product is added to what the accumulator held. -/
theorem sout1_B_0_eq (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : ¬cond1_1 i)
    (x0 : Vec F S2048x1024 .bf16) (x1 : Vec F S1024x512 .bf16) (x2 : Vec F S2048x1 .f32) (xs0 : Vec F S2048x512 .f32) :
    sout1_B_0 c i arg2 harg2 arg3 harg3 arg4 harg4 arg5 harg5 arg6 harg6 hc0 hc1 x0 x1 x2 xs0 = k1_pay2 xs0 x0 x1 := by
  unfold sout1_B_0
  rw [View.read_writes_junk_eq_canon]
  unfold kernelRun1_B
  dsimp only
  rw [View.canon_unit_zero hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- Where k = 7 the same, -/
theorem sout1_C_0_eq (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) :
    sout1_C_0 c i arg2 harg2 arg3 harg3 arg4 harg4 arg5 harg5 arg6 harg6 hc0 hc1 x0 x1 x2 xs0 = k1_pay2 xs0 x0 x1 := by
  unfold sout1_C_0
  rw [View.read_writes_junk_eq_canon]
  unfold kernelRun1_C
  dsimp only
  sl_unfold_words
  rw [View.canon_unit_zero hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- and the output block is the accumulator just stored, read back, each row scaled by the row's factor. -/
theorem out1_C_3_eq (c : Dev nD) (i : grid1.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond1_0 i) (hc1 : cond1_1 i)
    (x0 : Vec F S2048x1024 .bf16) (x1 : Vec F S1024x512 .bf16) (x2 : Vec F S2048x1 .f32) (xs0 : Vec F S2048x512 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_junk_eq_canon]
  unfold kernelRun1_C
  dsimp only
  sl_unfold_words
  rw [View.canon_unit_zero hz, View.readCov_unit_zero (S := S2048x512) _ hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-! ## The accumulation, point by point -/

/-- The adjacency block and the current block at position n. -/
abbrev adjAt1 (c : Dev nD) (n : ℕ) (h : n < cfg1.N) : Vec F S2048x1024 .bf16 := iblk1 V c 0 ⟨n, h⟩
abbrev curAt1 (c : Dev nD) (n : ℕ) (h : n < cfg1.N) : Vec F S1024x512 .bf16 := iblk1 V c 1 ⟨n, h⟩

/-- The accumulator after point n: restarted at 0 + A·X where k = 0, else the point before's plus A·X — the f32 sums in
    point order. -/
def acc1 (c : Dev nD) : (n : ℕ) → n < cfg1.N → Vec F S2048x512 .f32
  | 0, h => k1_pay2 k1_pay1 (adjAt1 V c 0 h) (curAt1 V c 0 h)
  | n + 1, h =>
    if (n + 1) % 8 = 0 then k1_pay2 k1_pay1 (adjAt1 V c (n + 1) h) (curAt1 V c (n + 1) h)
    else k1_pay2 (acc1 c n (Nat.lt_of_succ_lt h)) (adjAt1 V c (n + 1) h) (curAt1 V c (n + 1) h)

theorem acc1_zero (c : Dev nD) (h : 0 < cfg1.N) :
    acc1 V c 0 h = k1_pay2 k1_pay1 (adjAt1 V c 0 h) (curAt1 V c 0 h) := rfl

theorem acc1_succ_pos (c : Dev nD) (n : ℕ) (h : n + 1 < cfg1.N) (h0 : (n + 1) % 8 = 0) :
    acc1 V c (n + 1) h = k1_pay2 k1_pay1 (adjAt1 V c (n + 1) h) (curAt1 V c (n + 1) h) := if_pos h0

theorem acc1_succ_neg (c : Dev nD) (n : ℕ) (h : n + 1 < cfg1.N) (h0 : ¬(n + 1) % 8 = 0) :
    acc1 V c (n + 1) h = k1_pay2 (acc1 V c n (Nat.lt_of_succ_lt h)) (adjAt1 V c (n + 1) h) (curAt1 V c (n + 1) h) := if_neg h0

/-- What the accumulator holds after the first point. -/
theorem outsAt1_acc_zero (c : Dev nD) (h : 0 < cfg1.N) : (outsAt1 V c 0 h).2 = acc1 V c 0 h := by
  rw [outsAt1_A V c ⟨0, h⟩ rfl (by show ¬(0 % 8 = 7); omega), acc1_zero, sout1_A_0_eq]

/-- What it holds after a later point, from what it held after the point before. -/
theorem outsAt1_acc_succ (c : Dev nD) (n : ℕ) (h : n + 1 < cfg1.N)
    (ih : (outsAt1 V c n (Nat.lt_of_succ_lt h)).2 = acc1 V c n (Nat.lt_of_succ_lt h)) :
    (outsAt1 V c (n + 1) h).2 = acc1 V c (n + 1) h := by
  by_cases h0 : (n + 1) % 8 = 0
  · have h1 : ¬(n + 1) % 8 = 7 := by omega
    rw [outsAt1_A V c ⟨n + 1, h⟩ h0 h1, acc1_succ_pos V c n h h0, sout1_A_0_eq]
  · rw [acc1_succ_neg V c n h h0, ← ih]
    by_cases h1 : (n + 1) % 8 = 7
    · rw [outsAt1_C V c ⟨n + 1, h⟩ h0 h1, sout1_C_0_eq]
      try rfl
    · rw [outsAt1_B V c ⟨n + 1, h⟩ h0 h1, sout1_B_0_eq]
      try rfl

/-- What the accumulator holds after each point is that sum: by induction on the point. -/
theorem outsAt1_acc (c : Dev nD) : ∀ (n : ℕ) (h : n < cfg1.N), (outsAt1 V c n h).2 = acc1 V c n h
  | 0, h => outsAt1_acc_zero V c h
  | n + 1, h => outsAt1_acc_succ V c n h (outsAt1_acc c n (Nat.lt_of_succ_lt h))

/-- After a point with k = 7 the output block holds the accumulated sum, each row scaled by the row's factor. -/
theorem outsAt1_out (c : Dev nD) (t : Fin cfg1.N) (h7 : t.val % 8 = 7) :
    (outsAt1 V c t.val t.isLt).1 = k1_pay3 (acc1 V c t.val t.isLt) (iblk1 V c 2 t) := by
  have h0 : ¬t.val % 8 = 0 := by omega
  obtain ⟨n, hn⟩ := t
  cases n with
  | zero => exact absurd (Nat.zero_mod _) h0
  | succ n =>
    rw [outsAt1_C V c ⟨n + 1, hn⟩ h0 h7, acc1_succ_neg V c n hn h0, ← outsAt1_acc V c n (Nat.lt_of_succ_lt hn), out1_C_3_eq]
    try rfl

end Cert.KernelIdeal.Fr

end
-- ==== Proof.LibBlockSum.lean ====
/-
  A long sum cut into blocks.

  A sum of a * b consecutive terms f 0, f 1, …, f (a * b - 1) in a commutative additive monoid is the sum, over the
  a blocks i = 0, …, a - 1, of the b consecutive terms f (b * i), …, f (b * i + b - 1) of block i: the terms are the
  same and only the bracketing changes. By induction on the number of blocks: one more block appends b more terms.
-/
import Mathlib.Algebra.BigOperators.Fin
import Mathlib.Algebra.BigOperators.Group.Finset.Basic

namespace Cert.BlockSum

variable {M : Type*} [AddCommMonoid M]

/-- Over ranges: the sum of the first a * b terms is the sum over a blocks of b terms. -/
theorem sum_range_blocks (a b : ℕ) (f : ℕ → M) :
    ∑ k ∈ Finset.range (a * b), f k = ∑ i ∈ Finset.range a, ∑ j ∈ Finset.range b, f (b * i + j) := by
  induction a with
  | zero => rw [Nat.zero_mul, Finset.range_zero, Finset.sum_empty, Finset.sum_empty]
  | succ a ih =>
    rw [Nat.succ_mul, Finset.sum_range_add f (a * b) b,
      Finset.sum_range_succ (fun i => ∑ j ∈ Finset.range b, f (b * i + j)) a, ih, Nat.mul_comm a b]

/-- A sum over a * b consecutive terms is the sum over a blocks of b terms. -/
theorem sum_blocks (a b : ℕ) (f : ℕ → M) :
    ∑ k : Fin (a * b), f k.val = ∑ i ∈ Finset.range a, ∑ j : Fin b, f (b * i + j.val) := by
  rw [Fin.sum_univ_eq_sum_range (fun k => f k) (a * b), sum_range_blocks]
  refine Finset.sum_congr rfl fun i _ => ?_
  exact (Fin.sum_univ_eq_sum_range (fun j => f (b * i + j)) b).symm

/-- 4096 terms as 8 blocks of 512. -/
theorem sum_8_512 (f : ℕ → M) :
    ∑ k : Fin 4096, f k.val = ∑ i ∈ Finset.range 8, ∑ j : Fin 512, f (512 * i + j.val) :=
  sum_blocks 8 512 f

end Cert.BlockSum
-- ==== Proof.KI.DiffValue1.lean ====
/-
  What a diffusion region leaves in its output array, at the ideal values.  The grid is 4 row blocks by 8 column
  steps; at step k of row block i the body adds to the carried accumulator (zeroed at k = 0) the product of the
  2048×1024 block (i, k) of the first operand with the 1024×512 block k of the second, and at k = 7 it stores the
  accumulator, each row scaled by that row's entry of the third operand's column, into output block i.  So after step
  kk the accumulator holds, at row r and column q, the sum over the first kk+1 column blocks of the products
  A[2048·i + r, n] · X[n, q]; after the last step the eight blocks are the whole contracted axis (a sum of 8·1024
  consecutive terms is the sum over 8 blocks of 1024), and the four output blocks fill the array: it ends at
  (Σ_n A[p, n] · X[n, q]) · v[p, 0], index by index.
-/
import proofs.«108811_j10385230921953_2_alg».proof.Proof.KI.Diff1Closed
import proofs.«108811_j10385230921953_2_alg».proof.Proof.KI.LinearValue
import proofs.«108811_j10385230921953_2_alg».proof.Proof.LibBlockSum

noncomputable section
namespace Cert.KernelIdeal.Val
open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The zero block the first step of a row block stores. -/
theorem pay1_1_apply (i : S2048x512.Idx) : k1_pay1 (F := Ideal) i = 0 := by
  unfold k1_pay1
  simp only [shapeCast_self]
  show Ideal.ofBits .f32 0x00000000#32 = 0
  exact Ideal.ofBits_zero_f32

/-- One step of the accumulation at row r, column q: what was there plus the product of this step's blocks. -/
theorem pay1_2_apply (xs : FVec Ideal S2048x512 .f32) (a : FVec Ideal S2048x1024 .bf16) (cu : FVec Ideal S1024x512 .bf16) (r : Fin 2048) (q : Fin 512) :
    k1_pay2 (F := Ideal) xs a cu (ix2 r q) = xs (ix2 r q) + ∑ k : Fin 1024, a (ix2 r k) * cu (ix2 k q) := by
  unfold k1_pay2
  simp only [shapeCast_self]
  rw [addf_apply]
  refine congrArg₂ (· + ·) rfl ?_
  exact matmul_any_zero_apply (A := 2048) (K := 1024) (B := 512) dot_S2048x1024_S1024x512_S2048x512_1_0_0_1_n_n rfl rfl rfl rfl rfl rfl none a cu r q

/-- The last step's scaling at row r, column q: the accumulated sum times the row's factor. -/
theorem pay1_3_apply (acc : FVec Ideal S2048x512 .f32) (v : FVec Ideal S2048x1 .f32) (r : Fin 2048) (q : Fin 512) :
    k1_pay3 (F := Ideal) acc v (ix2 r q) = acc (ix2 r q) * v (ix2 r (0 : Fin 1)) := by
  unfold k1_pay3
  simp only [shapeCast_self]
  rw [mulf_apply]
  refine congrArg₂ (· * ·) rfl ?_
  exact Cert.Lib.ColumnForms.broadcastTo_col_apply (a := 2048) (b := 512) v broadcasts_S2048x1_S2048x512 r q

theorem idx_facts1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

variable (V : (c : Dev nD) → (b : Ref sig .tc) → Buf (Elt Ideal) ((c : Thread nD τ).loc b))

theorem blk1_0 (c : Dev nD) (t : Fin cfg1.N) (r : Fin 2048) (k : Fin 1024) (P : Fin 8192) (K : Fin 8192)
    (hP : P.val = t.val / 8 * 2048 + r.val) (hK : K.val = t.val % 8 * 1024 + k.val) :
    iblk1 V c 0 t (ix2 r k) = V c main_v48 (ix2 P K) := by
  unfold iblk1; rw [View.read_apply]
  show V c main_v48 (((cfg1.win 0).blk t).view.emb (ix2 r k)) = V c main_v48 (ix2 P K)
  refine congrArg _ (funext fun a => Fin.ext ?_)
  obtain ⟨e0, e1, -⟩ := idx_facts1 t
  match a with
  | ⟨0, _⟩ => show win1_0.index t (0 : Fin 2) * 2048 + 1 * r.val = P.val; rw [e0, hP]; omega
  | ⟨1, _⟩ => show win1_0.index t (1 : Fin 2) * 1024 + 1 * k.val = K.val; rw [e1, hK]; omega

theorem blk1_1 (c : Dev nD) (t : Fin cfg1.N) (k : Fin 1024) (q : Fin 512) (K : Fin 8192)
    (hK : K.val = t.val % 8 * 1024 + k.val) :
    iblk1 V c 1 t (ix2 k q) = V c main_v53 (ix2 K q) := by
  unfold iblk1; rw [View.read_apply]
  show V c main_v53 (((cfg1.win 1).blk t).view.emb (ix2 k q)) = V c main_v53 (ix2 K q)
  refine congrArg _ (funext fun a => Fin.ext ?_)
  obtain ⟨-, -, e0, e1, -⟩ := idx_facts1 t
  match a with
  | ⟨0, _⟩ => show win1_1.index t (0 : Fin 2) * 1024 + 1 * k.val = K.val; rw [e0, hK]; omega
  | ⟨1, _⟩ => show win1_1.index t (1 : Fin 2) * 512 + 1 * q.val = q.val; rw [e1]; omega

theorem blk1_2 (c : Dev nD) (t : Fin cfg1.N) (r : Fin 2048) (P : Fin 8192)
    (hP : P.val = t.val / 8 * 2048 + r.val) :
    iblk1 V c 2 t (ix2 r (0 : Fin 1)) = V c main_v47 (ix2 P (0 : Fin 1)) := by
  unfold iblk1; rw [View.read_apply]
  show V c main_v47 (((cfg1.win 2).blk t).view.emb (ix2 r (0 : Fin 1))) = V c main_v47 (ix2 P (0 : Fin 1))
  refine congrArg _ (funext fun a => Fin.ext ?_)
  obtain ⟨-, -, -, -, e0, e1, -⟩ := idx_facts1 t
  match a with
  | ⟨0, _⟩ => show win1_2.index t (0 : Fin 2) * 2048 + 1 * r.val = P.val; rw [e0, hP]; omega
  | ⟨1, _⟩ => show win1_2.index t (1 : Fin 2) * 1 + 1 * 0 = 0; rw [e1]

/-- The product term at position n of the contracted axis (nothing beyond its extent). -/
def term1 (A : S8192x8192.Idx → EReal) (X : S8192x512.Idx → EReal) (P : Fin 8192) (q : Fin 512) (n : ℕ) : EReal :=
  if h : n < 8192 then A (ix2 P ⟨n, h⟩) * X (ix2 ⟨n, h⟩ q) else 0

/-- One step's block product is the terms of that step's column block. -/
theorem step1_eq (c : Dev nD) (t : Fin cfg1.N) (r : Fin 2048) (q : Fin 512) (P : Fin 8192) (hP : P.val = t.val / 8 * 2048 + r.val)
    (a : FVec Ideal S2048x1024 .bf16) (cu : FVec Ideal S1024x512 .bf16) (ha : a = iblk1 V c 0 t) (hcu : cu = iblk1 V c 1 t) :
    ∑ k : Fin 1024, a (ix2 r k) * cu (ix2 k q)
      = ∑ k : Fin 1024, term1 (V c main_v48) (V c main_v53) P q (1024 * (t.val % 8) + k.val) := by
  subst ha; subst hcu
  refine Finset.sum_congr rfl fun k _ => ?_
  have hk : 1024 * (t.val % 8) + k.val < 8192 := by have := k.isLt; omega
  unfold term1
  rw [dif_pos hk]
  exact congrArg₂ (· * ·) (blk1_0 V c t r k P ⟨_, hk⟩ hP (by show 1024 * (t.val % 8) + k.val = _; omega))
    (blk1_1 V c t k q ⟨_, hk⟩ (by show 1024 * (t.val % 8) + k.val = _; omega))

/-- THE ACCUMULATION, index by index: after point n the accumulator at row r, column q is the sum of the terms of the
    column blocks 0 … n mod 8 of row 2048·(n / 8) + r — by induction on the point. -/
theorem acc1_apply (c : Dev nD) : ∀ (n : ℕ) (h : n < cfg1.N) (r : Fin 2048) (q : Fin 512) (P : Fin 8192), P.val = n / 8 * 2048 + r.val →
    acc1 V c n h (ix2 r q) = ∑ j ∈ Finset.range (n % 8 + 1), ∑ k : Fin 1024, term1 (V c main_v48) (V c main_v53) P q (1024 * j + k.val)
  | 0, h, r, q, P, hP => by
    rw [acc1_zero]
    refine (pay1_2_apply _ _ _ r q).trans ?_
    rw [pay1_1_apply, zero_add, show (0 % 8 + 1) = 1 from rfl, Finset.sum_range_one]
    exact step1_eq V c ⟨0, h⟩ r q P hP _ _ rfl rfl
  | n + 1, h, r, q, P, hP => by
    by_cases h0 : (n + 1) % 8 = 0
    · rw [acc1_succ_pos V c n h h0]
      refine (pay1_2_apply _ _ _ r q).trans ?_
      rw [pay1_1_apply, zero_add, h0, show (0 + 1) = 1 from rfl, Finset.sum_range_one]
      have := step1_eq V c ⟨n + 1, h⟩ r q P hP _ _ rfl rfl
      rw [show (⟨n + 1, h⟩ : Fin cfg1.N).val % 8 = 0 from h0] at this
      exact this
    · rw [acc1_succ_neg V c n h h0]
      refine (pay1_2_apply _ _ _ r q).trans ?_
      have hdiv : (n + 1) / 8 = n / 8 := by omega
      have hmod : (n + 1) % 8 = n % 8 + 1 := by omega
      rw [acc1_apply c n (Nat.lt_of_succ_lt h) r q P (by rw [hP, hdiv]), hmod, Finset.sum_range_succ (n := n % 8 + 1)]
      refine congrArg₂ (· + ·) rfl ?_
      have := step1_eq V c ⟨n + 1, h⟩ r q P hP _ _ rfl rfl
      rw [show (⟨n + 1, h⟩ : Fin cfg1.N).val % 8 = n % 8 + 1 from hmod] at this
      exact this

/-- Row p, column q of (A·X) with row p scaled by v[p, 0]. -/
def diffuseAt (A : S8192x8192.Idx → EReal) (X : S8192x512.Idx → EReal) (v : S8192x1.Idx → EReal) (p : Fin 8192) (q : Fin 512) : EReal :=
  (∑ n : Fin 8192, A (ix2 p n) * X (ix2 n q)) * v (ix2 p (0 : Fin 1))
/-- The same as one function of the index. -/
def diffuse (A : S8192x8192.Idx → EReal) (X : S8192x512.Idx → EReal) (v : S8192x1.Idx → EReal) : S8192x512.Idx → EReal :=
  fun i => diffuseAt A X v ⟨(i 0).val, idx2_lt0 i⟩ ⟨(i 1).val, idx2_lt1 i⟩

/-- Eight column blocks of 1024 are the whole contracted axis. -/
theorem blocks1_eq (A : S8192x8192.Idx → EReal) (X : S8192x512.Idx → EReal) (P : Fin 8192) (q : Fin 512) :
    ∑ j ∈ Finset.range 8, ∑ k : Fin 1024, term1 A X P q (1024 * j + k.val) = ∑ n : Fin 8192, A (ix2 P n) * X (ix2 n q) := by
  rw [← Cert.BlockSum.sum_blocks 8 1024 (term1 A X P q)]
  show ∑ n : Fin 8192, term1 A X P q n.val = _
  refine Finset.sum_congr rfl fun n _ => ?_
  unfold term1
  rw [dif_pos n.isLt]

/-- At a point of the last column step, row r and column q of what is stored is row P, column Q of the scaled product,
    for P the row 2048·(t / 8) + r of the array and Q = q. -/
theorem out1_at (c : Dev nD) (t : Fin cfg1.N) (h7 : t.val % 8 = 7) (r : Fin 2048) (q : Fin 512) (P : Fin 8192) (Q : Fin 512)
    (hP : P.val = t.val / 8 * 2048 + r.val) (hQ : Q.val = q.val)
    (ac : FVec Ideal S2048x512 .f32) (v : FVec Ideal S2048x1 .f32) (hac : ac = acc1 V c t.val t.isLt) (hv : v = iblk1 V c 2 t) :
    ac (ix2 r q) * v (ix2 r (0 : Fin 1))
      = diffuseAt (V c main_v48) (V c main_v53) (V c main_v47) P Q := by
  subst hac; subst hv
  obtain rfl : Q = q := Fin.ext hQ
  unfold diffuseAt
  refine congrArg₂ (· * ·) ?_ ?_
  · rw [acc1_apply V c t.val t.isLt r Q P hP, h7]
    exact blocks1_eq _ _ P Q
  · exact blk1_2 V c t r P hP

/-- What a point of the last column step writes back is its block of that function of the three arrays as the region
    finds them. -/
theorem flushed1_eq (c : Dev nD) (t : Fin cfg1.N) (hf : (cfg1.win 3).flush t = true) :
    (dat1 V c).flushed 3 t = ((cfg1.win 3).blk t).view.read (Elt Ideal) (diffuse (V c main_v48) (V c main_v53) (V c main_v47)) := by
  have h7 : t.val % 8 = 7 := (flush1_3 t).mp hf
  show (cfg1.win 3).cut (grid1.coords t) ((dat1 V c).after 3 t) = _
  rw [after1_3, outsAt1_out V c t h7]
  funext j
  obtain ⟨r, q, rfl⟩ : ∃ (r : Fin 2048) (q : Fin 512), j = ix2 r q := ⟨j 0, j 1, eq_ix2 j⟩
  refine (pay1_3_apply _ _ r q).trans ?_
  rw [View.read_apply]
  obtain ⟨-, -, -, -, -, -, e0, e1⟩ := idx_facts1 t
  have hP : (((cfg1.win 3).blk t).view.emb (ix2 r q) 0).val = t.val / 8 * 2048 + r.val := by
    show win1_3.index t (0 : Fin 2) * 2048 + 1 * r.val = _; rw [e0]; omega
  have hQ : (((cfg1.win 3).blk t).view.emb (ix2 r q) 1).val = q.val := by
    show win1_3.index t (1 : Fin 2) * 512 + 1 * q.val = _; rw [e1]; omega
  unfold diffuse
  exact out1_at V c t h7 r q _ _ hP hQ _ _ rfl rfl

/-- An index of the output array is in point t's block iff each coordinate is in the block's range on its axis. -/
theorem mem_blk1 (t : Fin cfg1.N) (i : S8192x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v54).slice (win1_3.rect t)).set ↔ _
  rw [View.set_slice_whole, Rect.mem_set_unit]
  exact Iff.rfl

/-- The four row blocks, each written back after its last column step, fill the array. -/
theorem final1 (c : Dev nD) : (dat1 V c).arrAt 3 cfg1.N = diffuse (V c main_v48) (V c main_v53) (V c main_v47) :=
  (dat1 V c).arrAt_eq_of_cover 3 _ (fun t hf => flushed1_eq V c t hf) fun i => by
    have hi0 : (i 0).val < 8192 := idx2_lt0 i
    have hi1 : (i 1).val < 512 := idx2_lt1 i
    have hN : cfg1.N = 32 := N_1
    have hlt : (i 0).val / 2048 * 8 + 7 < cfg1.N := by rw [hN]; omega
    refine ⟨⟨(i 0).val / 2048 * 8 + 7, hlt⟩, (flush1_3 _).mpr (by show ((i 0).val / 2048 * 8 + 7) % 8 = 7; omega), ?_⟩
    rw [mem_blk1]
    obtain ⟨-, -, -, -, -, -, e0, e1⟩ := idx_facts1 ⟨(i 0).val / 2048 * 8 + 7, hlt⟩
    intro a
    match a with
    | ⟨0, _⟩ =>
      show win1_3.index ⟨(i 0).val / 2048 * 8 + 7, hlt⟩ (0 : Fin 2) * 2048 ≤ (i 0).val ∧ (i 0).val < win1_3.index ⟨(i 0).val / 2048 * 8 + 7, hlt⟩ (0 : Fin 2) * 2048 + 2048
      rw [e0]; dsimp only; omega
    | ⟨1, _⟩ =>
      show win1_3.index ⟨(i 0).val / 2048 * 8 + 7, hlt⟩ (1 : Fin 2) * 512 ≤ (i 1).val ∧ (i 1).val < win1_3.index ⟨(i 0).val / 2048 * 8 + 7, hlt⟩ (1 : Fin 2) * 512 + 512
      rw [e1]; omega

end Cert.KernelIdeal.Val
end
-- ==== Proof.KI.Diff2Closed.lean ====
/-
  The diffusion kernel's region (the third pallas_call), third part: what each case leaves, in closed form, and the
  accumulation point by point.  Every load and store of the body is of a whole buffer, so a case's leftovers are its
  stores' payloads of the buffers' contents: where k = 0 the accumulator ends at 0 + A·X (the zero block, then the
  product of the adjacency block and the current block added), elsewhere at acc + A·X of what the point before left,
  and where k = 7 the output block is that sum with each row scaled by the row's reciprocal row sum.
-/
import proofs.«108811_j10385230921953_2_alg».proof.Proof.KI.Diff2
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

private theorem hz : (![0, 0] : Fin 2 → Nat) = fun _ => 0 := funext fun a => by fin_cases a <;> rfl

/-! ## The cases' leftovers as payloads -/

/-- Where k = 0 the accumulator is zeroed, read back, and the product added: it ends at 0 + A·X. -/
theorem sout2_A_0_eq (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond2_0 i) (hc1 : ¬cond2_1 i)
    (x0 : Vec F S2048x1024 .bf16) (x1 : Vec F S1024x512 .bf16) (x2 : Vec F S2048x1 .f32) :
    sout2_A_0 c i arg2 harg2 arg3 harg3 arg4 harg4 arg5 harg5 arg6 harg6 hc0 hc1 x0 x1 x2 = k2_pay2 k2_pay1 x0 x1 := by
  unfold sout2_A_0
  rw [View.read_writes_junk_eq_canon]
  unfold kernelRun2_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- Where 0 < k < 7 the product is added to what the accumulator held. -/
theorem sout2_B_0_eq (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : ¬cond2_1 i)
    (x0 : Vec F S2048x1024 .bf16) (x1 : Vec F S1024x512 .bf16) (x2 : Vec F S2048x1 .f32) (xs0 : Vec F S2048x512 .f32) :
    sout2_B_0 c i arg2 harg2 arg3 harg3 arg4 harg4 arg5 harg5 arg6 harg6 hc0 hc1 x0 x1 x2 xs0 = k2_pay2 xs0 x0 x1 := by
  unfold sout2_B_0
  rw [View.read_writes_junk_eq_canon]
  unfold kernelRun2_B
  dsimp only
  rw [View.canon_unit_zero hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- Where k = 7 the same, -/
theorem sout2_C_0_eq (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) :
    sout2_C_0 c i arg2 harg2 arg3 harg3 arg4 harg4 arg5 harg5 arg6 harg6 hc0 hc1 x0 x1 x2 xs0 = k2_pay2 xs0 x0 x1 := by
  unfold sout2_C_0
  rw [View.read_writes_junk_eq_canon]
  unfold kernelRun2_C
  dsimp only
  sl_unfold_words
  rw [View.canon_unit_zero hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- and the output block is the accumulator just stored, read back, each row scaled by the row's factor. -/
theorem out2_C_3_eq (c : Dev nD) (i : grid2.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond2_0 i) (hc1 : cond2_1 i)
    (x0 : Vec F S2048x1024 .bf16) (x1 : Vec F S1024x512 .bf16) (x2 : Vec F S2048x1 .f32) (xs0 : Vec F S2048x512 .f32) :
    out2_C_3 c i arg2 harg2 arg3 harg3 arg4 harg4 arg5 harg5 arg6 harg6 hc0 hc1 x0 x1 x2 xs0 = k2_pay3 (k2_pay2 xs0 x0 x1) x2 := by
  unfold out2_C_3
  rw [View.read_writes_junk_eq_canon]
  unfold kernelRun2_C
  dsimp only
  sl_unfold_words
  rw [View.canon_unit_zero hz, View.readCov_unit_zero (S := S2048x512) _ hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-! ## The accumulation, point by point -/

/-- The adjacency block and the current block at position n. -/
abbrev adjAt2 (c : Dev nD) (n : ℕ) (h : n < cfg2.N) : Vec F S2048x1024 .bf16 := iblk2 V c 0 ⟨n, h⟩
abbrev curAt2 (c : Dev nD) (n : ℕ) (h : n < cfg2.N) : Vec F S1024x512 .bf16 := iblk2 V c 1 ⟨n, h⟩

/-- The accumulator after point n: restarted at 0 + A·X where k = 0, else the point before's plus A·X — the f32 sums in
    point order. -/
def acc2 (c : Dev nD) : (n : ℕ) → n < cfg2.N → Vec F S2048x512 .f32
  | 0, h => k2_pay2 k2_pay1 (adjAt2 V c 0 h) (curAt2 V c 0 h)
  | n + 1, h =>
    if (n + 1) % 8 = 0 then k2_pay2 k2_pay1 (adjAt2 V c (n + 1) h) (curAt2 V c (n + 1) h)
    else k2_pay2 (acc2 c n (Nat.lt_of_succ_lt h)) (adjAt2 V c (n + 1) h) (curAt2 V c (n + 1) h)

theorem acc2_zero (c : Dev nD) (h : 0 < cfg2.N) :
    acc2 V c 0 h = k2_pay2 k2_pay1 (adjAt2 V c 0 h) (curAt2 V c 0 h) := rfl

theorem acc2_succ_pos (c : Dev nD) (n : ℕ) (h : n + 1 < cfg2.N) (h0 : (n + 1) % 8 = 0) :
    acc2 V c (n + 1) h = k2_pay2 k2_pay1 (adjAt2 V c (n + 1) h) (curAt2 V c (n + 1) h) := if_pos h0

theorem acc2_succ_neg (c : Dev nD) (n : ℕ) (h : n + 1 < cfg2.N) (h0 : ¬(n + 1) % 8 = 0) :
    acc2 V c (n + 1) h = k2_pay2 (acc2 V c n (Nat.lt_of_succ_lt h)) (adjAt2 V c (n + 1) h) (curAt2 V c (n + 1) h) := if_neg h0

/-- What the accumulator holds after the first point. -/
theorem outsAt2_acc_zero (c : Dev nD) (h : 0 < cfg2.N) : (outsAt2 V c 0 h).2 = acc2 V c 0 h := by
  rw [outsAt2_A V c ⟨0, h⟩ rfl (by show ¬(0 % 8 = 7); omega), acc2_zero, sout2_A_0_eq]

/-- What it holds after a later point, from what it held after the point before. -/
theorem outsAt2_acc_succ (c : Dev nD) (n : ℕ) (h : n + 1 < cfg2.N)
    (ih : (outsAt2 V c n (Nat.lt_of_succ_lt h)).2 = acc2 V c n (Nat.lt_of_succ_lt h)) :
    (outsAt2 V c (n + 1) h).2 = acc2 V c (n + 1) h := by
  by_cases h0 : (n + 1) % 8 = 0
  · have h1 : ¬(n + 1) % 8 = 7 := by omega
    rw [outsAt2_A V c ⟨n + 1, h⟩ h0 h1, acc2_succ_pos V c n h h0, sout2_A_0_eq]
  · rw [acc2_succ_neg V c n h h0, ← ih]
    by_cases h1 : (n + 1) % 8 = 7
    · rw [outsAt2_C V c ⟨n + 1, h⟩ h0 h1, sout2_C_0_eq]
      try rfl
    · rw [outsAt2_B V c ⟨n + 1, h⟩ h0 h1, sout2_B_0_eq]
      try rfl

/-- What the accumulator holds after each point is that sum: by induction on the point. -/
theorem outsAt2_acc (c : Dev nD) : ∀ (n : ℕ) (h : n < cfg2.N), (outsAt2 V c n h).2 = acc2 V c n h
  | 0, h => outsAt2_acc_zero V c h
  | n + 1, h => outsAt2_acc_succ V c n h (outsAt2_acc c n (Nat.lt_of_succ_lt h))

/-- After a point with k = 7 the output block holds the accumulated sum, each row scaled by the row's factor. -/
theorem outsAt2_out (c : Dev nD) (t : Fin cfg2.N) (h7 : t.val % 8 = 7) :
    (outsAt2 V c t.val t.isLt).1 = k2_pay3 (acc2 V c t.val t.isLt) (iblk2 V c 2 t) := by
  have h0 : ¬t.val % 8 = 0 := by omega
  obtain ⟨n, hn⟩ := t
  cases n with
  | zero => exact absurd (Nat.zero_mod _) h0
  | succ n =>
    rw [outsAt2_C V c ⟨n + 1, hn⟩ h0 h7, acc2_succ_neg V c n hn h0, ← outsAt2_acc V c n (Nat.lt_of_succ_lt hn), out2_C_3_eq]
    try rfl

end Cert.KernelIdeal.Fr

end
-- ==== Proof.KI.DiffValue2.lean ====
/-
  What a diffusion region leaves in its output array, at the ideal values.  The grid is 4 row blocks by 8 column
  steps; at step k of row block i the body adds to the carried accumulator (zeroed at k = 0) the product of the
  2048×1024 block (i, k) of the first operand with the 1024×512 block k of the second, and at k = 7 it stores the
  accumulator, each row scaled by that row's entry of the third operand's column, into output block i.  So after step
  kk the accumulator holds, at row r and column q, the sum over the first kk+1 column blocks of the products
  A[2048·i + r, n] · X[n, q]; after the last step the eight blocks are the whole contracted axis (a sum of 8·1024
  consecutive terms is the sum over 8 blocks of 1024), and the four output blocks fill the array: it ends at
  (Σ_n A[p, n] · X[n, q]) · v[p, 0], index by index.
-/
import proofs.«108811_j10385230921953_2_alg».proof.Proof.KI.Diff2Closed
import proofs.«108811_j10385230921953_2_alg».proof.Proof.KI.DiffValue1

noncomputable section
namespace Cert.KernelIdeal.Val
open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The zero block the first step of a row block stores. -/
theorem pay2_1_apply (i : S2048x512.Idx) : k2_pay1 (F := Ideal) i = 0 := by
  unfold k2_pay1
  simp only [shapeCast_self]
  show Ideal.ofBits .f32 0x00000000#32 = 0
  exact Ideal.ofBits_zero_f32

/-- One step of the accumulation at row r, column q: what was there plus the product of this step's blocks. -/
theorem pay2_2_apply (xs : FVec Ideal S2048x512 .f32) (a : FVec Ideal S2048x1024 .bf16) (cu : FVec Ideal S1024x512 .bf16) (r : Fin 2048) (q : Fin 512) :
    k2_pay2 (F := Ideal) xs a cu (ix2 r q) = xs (ix2 r q) + ∑ k : Fin 1024, a (ix2 r k) * cu (ix2 k q) := by
  unfold k2_pay2
  simp only [shapeCast_self]
  rw [addf_apply]
  refine congrArg₂ (· + ·) rfl ?_
  exact matmul_any_zero_apply (A := 2048) (K := 1024) (B := 512) dot_S2048x1024_S1024x512_S2048x512_1_0_0_1_n_n rfl rfl rfl rfl rfl rfl none a cu r q

/-- The last step's scaling at row r, column q: the accumulated sum times the row's factor. -/
theorem pay2_3_apply (acc : FVec Ideal S2048x512 .f32) (v : FVec Ideal S2048x1 .f32) (r : Fin 2048) (q : Fin 512) :
    k2_pay3 (F := Ideal) acc v (ix2 r q) = acc (ix2 r q) * v (ix2 r (0 : Fin 1)) := by
  unfold k2_pay3
  simp only [shapeCast_self]
  rw [mulf_apply]
  refine congrArg₂ (· * ·) rfl ?_
  exact Cert.Lib.ColumnForms.broadcastTo_col_apply (a := 2048) (b := 512) v broadcasts_S2048x1_S2048x512 r q

theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0 :=
  (by decide +kernel : ∀ t : Fin grid2.N, _)

variable (V : (c : Dev nD) → (b : Ref sig .tc) → Buf (Elt Ideal) ((c : Thread nD τ).loc b))

theorem blk2_0 (c : Dev nD) (t : Fin cfg2.N) (r : Fin 2048) (k : Fin 1024) (P : Fin 8192) (K : Fin 8192)
    (hP : P.val = t.val / 8 * 2048 + r.val) (hK : K.val = t.val % 8 * 1024 + k.val) :
    iblk2 V c 0 t (ix2 r k) = V c main_v48 (ix2 P K) := by
  unfold iblk2; rw [View.read_apply]
  show V c main_v48 (((cfg2.win 0).blk t).view.emb (ix2 r k)) = V c main_v48 (ix2 P K)
  refine congrArg _ (funext fun a => Fin.ext ?_)
  obtain ⟨e0, e1, -⟩ := idx_facts2 t
  match a with
  | ⟨0, _⟩ => show win2_0.index t (0 : Fin 2) * 2048 + 1 * r.val = P.val; rw [e0, hP]; omega
  | ⟨1, _⟩ => show win2_0.index t (1 : Fin 2) * 1024 + 1 * k.val = K.val; rw [e1, hK]; omega

theorem blk2_1 (c : Dev nD) (t : Fin cfg2.N) (k : Fin 1024) (q : Fin 512) (K : Fin 8192)
    (hK : K.val = t.val % 8 * 1024 + k.val) :
    iblk2 V c 1 t (ix2 k q) = V c main_v60 (ix2 K q) := by
  unfold iblk2; rw [View.read_apply]
  show V c main_v60 (((cfg2.win 1).blk t).view.emb (ix2 k q)) = V c main_v60 (ix2 K q)
  refine congrArg _ (funext fun a => Fin.ext ?_)
  obtain ⟨-, -, e0, e1, -⟩ := idx_facts2 t
  match a with
  | ⟨0, _⟩ => show win2_1.index t (0 : Fin 2) * 1024 + 1 * k.val = K.val; rw [e0, hK]; omega
  | ⟨1, _⟩ => show win2_1.index t (1 : Fin 2) * 512 + 1 * q.val = q.val; rw [e1]; omega

theorem blk2_2 (c : Dev nD) (t : Fin cfg2.N) (r : Fin 2048) (P : Fin 8192)
    (hP : P.val = t.val / 8 * 2048 + r.val) :
    iblk2 V c 2 t (ix2 r (0 : Fin 1)) = V c main_v47 (ix2 P (0 : Fin 1)) := by
  unfold iblk2; rw [View.read_apply]
  show V c main_v47 (((cfg2.win 2).blk t).view.emb (ix2 r (0 : Fin 1))) = V c main_v47 (ix2 P (0 : Fin 1))
  refine congrArg _ (funext fun a => Fin.ext ?_)
  obtain ⟨-, -, -, -, e0, e1, -⟩ := idx_facts2 t
  match a with
  | ⟨0, _⟩ => show win2_2.index t (0 : Fin 2) * 2048 + 1 * r.val = P.val; rw [e0, hP]; omega
  | ⟨1, _⟩ => show win2_2.index t (1 : Fin 2) * 1 + 1 * 0 = 0; rw [e1]

/-- One step's block product is the terms of that step's column block. -/
theorem step2_eq (c : Dev nD) (t : Fin cfg2.N) (r : Fin 2048) (q : Fin 512) (P : Fin 8192) (hP : P.val = t.val / 8 * 2048 + r.val)
    (a : FVec Ideal S2048x1024 .bf16) (cu : FVec Ideal S1024x512 .bf16) (ha : a = iblk2 V c 0 t) (hcu : cu = iblk2 V c 1 t) :
    ∑ k : Fin 1024, a (ix2 r k) * cu (ix2 k q)
      = ∑ k : Fin 1024, term1 (V c main_v48) (V c main_v60) P q (1024 * (t.val % 8) + k.val) := by
  subst ha; subst hcu
  refine Finset.sum_congr rfl fun k _ => ?_
  have hk : 1024 * (t.val % 8) + k.val < 8192 := by have := k.isLt; omega
  unfold term1
  rw [dif_pos hk]
  exact congrArg₂ (· * ·) (blk2_0 V c t r k P ⟨_, hk⟩ hP (by show 1024 * (t.val % 8) + k.val = _; omega))
    (blk2_1 V c t k q ⟨_, hk⟩ (by show 1024 * (t.val % 8) + k.val = _; omega))

/-- THE ACCUMULATION, index by index: after point n the accumulator at row r, column q is the sum of the terms of the
    column blocks 0 … n mod 8 of row 2048·(n / 8) + r — by induction on the point. -/
theorem acc2_apply (c : Dev nD) : ∀ (n : ℕ) (h : n < cfg2.N) (r : Fin 2048) (q : Fin 512) (P : Fin 8192), P.val = n / 8 * 2048 + r.val →
    acc2 V c n h (ix2 r q) = ∑ j ∈ Finset.range (n % 8 + 1), ∑ k : Fin 1024, term1 (V c main_v48) (V c main_v60) P q (1024 * j + k.val)
  | 0, h, r, q, P, hP => by
    rw [acc2_zero]
    refine (pay2_2_apply _ _ _ r q).trans ?_
    rw [pay2_1_apply, zero_add, show (0 % 8 + 1) = 1 from rfl, Finset.sum_range_one]
    exact step2_eq V c ⟨0, h⟩ r q P hP _ _ rfl rfl
  | n + 1, h, r, q, P, hP => by
    by_cases h0 : (n + 1) % 8 = 0
    · rw [acc2_succ_pos V c n h h0]
      refine (pay2_2_apply _ _ _ r q).trans ?_
      rw [pay2_1_apply, zero_add, h0, show (0 + 1) = 1 from rfl, Finset.sum_range_one]
      have := step2_eq V c ⟨n + 1, h⟩ r q P hP _ _ rfl rfl
      rw [show (⟨n + 1, h⟩ : Fin cfg2.N).val % 8 = 0 from h0] at this
      exact this
    · rw [acc2_succ_neg V c n h h0]
      refine (pay2_2_apply _ _ _ r q).trans ?_
      have hdiv : (n + 1) / 8 = n / 8 := by omega
      have hmod : (n + 1) % 8 = n % 8 + 1 := by omega
      rw [acc2_apply c n (Nat.lt_of_succ_lt h) r q P (by rw [hP, hdiv]), hmod, Finset.sum_range_succ (n := n % 8 + 1)]
      refine congrArg₂ (· + ·) rfl ?_
      have := step2_eq V c ⟨n + 1, h⟩ r q P hP _ _ rfl rfl
      rw [show (⟨n + 1, h⟩ : Fin cfg2.N).val % 8 = n % 8 + 1 from hmod] at this
      exact this

/-- At a point of the last column step, row r and column q of what is stored is row P, column Q of the scaled product,
    for P the row 2048·(t / 8) + r of the array and Q = q. -/
theorem out2_at (c : Dev nD) (t : Fin cfg2.N) (h7 : t.val % 8 = 7) (r : Fin 2048) (q : Fin 512) (P : Fin 8192) (Q : Fin 512)
    (hP : P.val = t.val / 8 * 2048 + r.val) (hQ : Q.val = q.val)
    (ac : FVec Ideal S2048x512 .f32) (v : FVec Ideal S2048x1 .f32) (hac : ac = acc2 V c t.val t.isLt) (hv : v = iblk2 V c 2 t) :
    ac (ix2 r q) * v (ix2 r (0 : Fin 1))
      = diffuseAt (V c main_v48) (V c main_v60) (V c main_v47) P Q := by
  subst hac; subst hv
  obtain rfl : Q = q := Fin.ext hQ
  unfold diffuseAt
  refine congrArg₂ (· * ·) ?_ ?_
  · rw [acc2_apply V c t.val t.isLt r Q P hP, h7]
    exact blocks1_eq _ _ P Q
  · exact blk2_2 V c t r P hP

/-- What a point of the last column step writes back is its block of that function of the three arrays as the region
    finds them. -/
theorem flushed2_eq (c : Dev nD) (t : Fin cfg2.N) (hf : (cfg2.win 3).flush t = true) :
    (dat2 V c).flushed 3 t = ((cfg2.win 3).blk t).view.read (Elt Ideal) (diffuse (V c main_v48) (V c main_v60) (V c main_v47)) := by
  have h7 : t.val % 8 = 7 := (flush2_3 t).mp hf
  show (cfg2.win 3).cut (grid2.coords t) ((dat2 V c).after 3 t) = _
  rw [after2_3, outsAt2_out V c t h7]
  funext j
  obtain ⟨r, q, rfl⟩ : ∃ (r : Fin 2048) (q : Fin 512), j = ix2 r q := ⟨j 0, j 1, eq_ix2 j⟩
  refine (pay2_3_apply _ _ r q).trans ?_
  rw [View.read_apply]
  obtain ⟨-, -, -, -, -, -, e0, e1⟩ := idx_facts2 t
  have hP : (((cfg2.win 3).blk t).view.emb (ix2 r q) 0).val = t.val / 8 * 2048 + r.val := by
    show win2_3.index t (0 : Fin 2) * 2048 + 1 * r.val = _; rw [e0]; omega
  have hQ : (((cfg2.win 3).blk t).view.emb (ix2 r q) 1).val = q.val := by
    show win2_3.index t (1 : Fin 2) * 512 + 1 * q.val = _; rw [e1]; omega
  unfold diffuse
  exact out2_at V c t h7 r q _ _ hP hQ _ _ rfl rfl

/-- An index of the output array is in point t's block iff each coordinate is in the block's range on its axis. -/
theorem mem_blk2 (t : Fin cfg2.N) (i : S8192x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v61).slice (win2_3.rect t)).set ↔ _
  rw [View.set_slice_whole, Rect.mem_set_unit]
  exact Iff.rfl

/-- The four row blocks, each written back after its last column step, fill the array. -/
theorem final2 (c : Dev nD) : (dat2 V c).arrAt 3 cfg2.N = diffuse (V c main_v48) (V c main_v60) (V c main_v47) :=
  (dat2 V c).arrAt_eq_of_cover 3 _ (fun t hf => flushed2_eq V c t hf) fun i => by
    have hi0 : (i 0).val < 8192 := idx2_lt0 i
    have hi1 : (i 1).val < 512 := idx2_lt1 i
    have hN : cfg2.N = 32 := N_2
    have hlt : (i 0).val / 2048 * 8 + 7 < cfg2.N := by rw [hN]; omega
    refine ⟨⟨(i 0).val / 2048 * 8 + 7, hlt⟩, (flush2_3 _).mpr (by show ((i 0).val / 2048 * 8 + 7) % 8 = 7; omega), ?_⟩
    rw [mem_blk2]
    obtain ⟨-, -, -, -, -, -, e0, e1⟩ := idx_facts2 ⟨(i 0).val / 2048 * 8 + 7, hlt⟩
    intro a
    match a with
    | ⟨0, _⟩ =>
      show win2_3.index ⟨(i 0).val / 2048 * 8 + 7, hlt⟩ (0 : Fin 2) * 2048 ≤ (i 0).val ∧ (i 0).val < win2_3.index ⟨(i 0).val / 2048 * 8 + 7, hlt⟩ (0 : Fin 2) * 2048 + 2048
      rw [e0]; dsimp only; omega
    | ⟨1, _⟩ =>
      show win2_3.index ⟨(i 0).val / 2048 * 8 + 7, hlt⟩ (1 : Fin 2) * 512 ≤ (i 1).val ∧ (i 1).val < win2_3.index ⟨(i 0).val / 2048 * 8 + 7, hlt⟩ (1 : Fin 2) * 512 + 512
      rw [e1]; omega

end Cert.KernelIdeal.Val
end
-- ==== Proof.KI.Diff3Closed.lean ====
/-
  The diffusion kernel's region (the fourth pallas_call), third part: what each case leaves, in closed form, and the
  accumulation point by point.  Every load and store of the body is of a whole buffer, so a case's leftovers are its
  stores' payloads of the buffers' contents: where k = 0 the accumulator ends at 0 + A·X (the zero block, then the
  product of the adjacency block and the current block added), elsewhere at acc + A·X of what the point before left,
  and where k = 7 the output block is that sum with each row scaled by the row's reciprocal row sum.
-/
import proofs.«108811_j10385230921953_2_alg».proof.Proof.KI.Diff3
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

private theorem hz : (![0, 0] : Fin 2 → Nat) = fun _ => 0 := funext fun a => by fin_cases a <;> rfl

/-! ## The cases' leftovers as payloads -/

/-- Where k = 0 the accumulator is zeroed, read back, and the product added: it ends at 0 + A·X. -/
theorem sout3_A_0_eq (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : cond3_0 i) (hc1 : ¬cond3_1 i)
    (x0 : Vec F S2048x1024 .bf16) (x1 : Vec F S1024x512 .bf16) (x2 : Vec F S2048x1 .f32) :
    sout3_A_0 c i arg2 harg2 arg3 harg3 arg4 harg4 arg5 harg5 arg6 harg6 hc0 hc1 x0 x1 x2 = k3_pay2 k3_pay1 x0 x1 := by
  unfold sout3_A_0
  rw [View.read_writes_junk_eq_canon]
  unfold kernelRun3_A
  dsimp only
  sl_unfold_words
  rw [View.canon_cons_unit_zero (S := S2048x512) hz, View.readCov_unit_zero (S := S2048x512) _ hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- Where 0 < k < 7 the product is added to what the accumulator held. -/
theorem sout3_B_0_eq (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : ¬cond3_1 i)
    (x0 : Vec F S2048x1024 .bf16) (x1 : Vec F S1024x512 .bf16) (x2 : Vec F S2048x1 .f32) (xs0 : Vec F S2048x512 .f32) :
    sout3_B_0 c i arg2 harg2 arg3 harg3 arg4 harg4 arg5 harg5 arg6 harg6 hc0 hc1 x0 x1 x2 xs0 = k3_pay2 xs0 x0 x1 := by
  unfold sout3_B_0
  rw [View.read_writes_junk_eq_canon]
  unfold kernelRun3_B
  dsimp only
  rw [View.canon_unit_zero hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- Where k = 7 the same, -/
theorem sout3_C_0_eq (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) :
    sout3_C_0 c i arg2 harg2 arg3 harg3 arg4 harg4 arg5 harg5 arg6 harg6 hc0 hc1 x0 x1 x2 xs0 = k3_pay2 xs0 x0 x1 := by
  unfold sout3_C_0
  rw [View.read_writes_junk_eq_canon]
  unfold kernelRun3_C
  dsimp only
  sl_unfold_words
  rw [View.canon_unit_zero hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-- and the output block is the accumulator just stored, read back, each row scaled by the row's factor. -/
theorem out3_C_3_eq (c : Dev nD) (i : grid3.Coords) (arg2 : Memref sig .tc .vmem S2048x1024 .bf16) (harg2 : arg2.IsWhole) (arg3 : Memref sig .tc .vmem S1024x512 .bf16) (harg3 : arg3.IsWhole)
    (arg4 : Memref sig .tc .vmem S2048x1 .f32) (harg4 : arg4.IsWhole) (arg5 : Memref sig .tc .vmem S2048x512 .f32) (harg5 : arg5.IsWhole)
    (arg6 : Memref sig .tc .vmem S2048x512 .f32) (harg6 : arg6.IsWhole) (hc0 : ¬cond3_0 i) (hc1 : cond3_1 i)
    (x0 : Vec F S2048x1024 .bf16) (x1 : Vec F S1024x512 .bf16) (x2 : Vec F S2048x1 .f32) (xs0 : Vec F S2048x512 .f32) :
    out3_C_3 c i arg2 harg2 arg3 harg3 arg4 harg4 arg5 harg5 arg6 harg6 hc0 hc1 x0 x1 x2 xs0 = k3_pay3 (k3_pay2 xs0 x0 x1) x2 := by
  unfold out3_C_3
  rw [View.read_writes_junk_eq_canon]
  unfold kernelRun3_C
  dsimp only
  sl_unfold_words
  rw [View.canon_unit_zero hz, View.readCov_unit_zero (S := S2048x512) _ hz]
  simp only [View.readAt_eq_ld, harg2.read_unread, harg3.read_unread, harg4.read_unread, harg5.read_unread, harg6.read_unread, View.ld_unit_zero (S := S2048x512) hz, View.ld_unit_zero (S := S2048x1024) hz, View.ld_unit_zero (S := S1024x512) hz, View.ld_unit_zero (S := S2048x1) hz]

/-! ## The accumulation, point by point -/

/-- The adjacency block and the current block at position n. -/
abbrev adjAt3 (c : Dev nD) (n : ℕ) (h : n < cfg3.N) : Vec F S2048x1024 .bf16 := iblk3 V c 0 ⟨n, h⟩
abbrev curAt3 (c : Dev nD) (n : ℕ) (h : n < cfg3.N) : Vec F S1024x512 .bf16 := iblk3 V c 1 ⟨n, h⟩

/-- The accumulator after point n: restarted at 0 + A·X where k = 0, else the point before's plus A·X — the f32 sums in
    point order. -/
def acc3 (c : Dev nD) : (n : ℕ) → n < cfg3.N → Vec F S2048x512 .f32
  | 0, h => k3_pay2 k3_pay1 (adjAt3 V c 0 h) (curAt3 V c 0 h)
  | n + 1, h =>
    if (n + 1) % 8 = 0 then k3_pay2 k3_pay1 (adjAt3 V c (n + 1) h) (curAt3 V c (n + 1) h)
    else k3_pay2 (acc3 c n (Nat.lt_of_succ_lt h)) (adjAt3 V c (n + 1) h) (curAt3 V c (n + 1) h)

theorem acc3_zero (c : Dev nD) (h : 0 < cfg3.N) :
    acc3 V c 0 h = k3_pay2 k3_pay1 (adjAt3 V c 0 h) (curAt3 V c 0 h) := rfl

theorem acc3_succ_pos (c : Dev nD) (n : ℕ) (h : n + 1 < cfg3.N) (h0 : (n + 1) % 8 = 0) :
    acc3 V c (n + 1) h = k3_pay2 k3_pay1 (adjAt3 V c (n + 1) h) (curAt3 V c (n + 1) h) := if_pos h0

theorem acc3_succ_neg (c : Dev nD) (n : ℕ) (h : n + 1 < cfg3.N) (h0 : ¬(n + 1) % 8 = 0) :
    acc3 V c (n + 1) h = k3_pay2 (acc3 V c n (Nat.lt_of_succ_lt h)) (adjAt3 V c (n + 1) h) (curAt3 V c (n + 1) h) := if_neg h0

/-- What the accumulator holds after the first point. -/
theorem outsAt3_acc_zero (c : Dev nD) (h : 0 < cfg3.N) : (outsAt3 V c 0 h).2 = acc3 V c 0 h := by
  rw [outsAt3_A V c ⟨0, h⟩ rfl (by show ¬(0 % 8 = 7); omega), acc3_zero, sout3_A_0_eq]

/-- What it holds after a later point, from what it held after the point before. -/
theorem outsAt3_acc_succ (c : Dev nD) (n : ℕ) (h : n + 1 < cfg3.N)
    (ih : (outsAt3 V c n (Nat.lt_of_succ_lt h)).2 = acc3 V c n (Nat.lt_of_succ_lt h)) :
    (outsAt3 V c (n + 1) h).2 = acc3 V c (n + 1) h := by
  by_cases h0 : (n + 1) % 8 = 0
  · have h1 : ¬(n + 1) % 8 = 7 := by omega
    rw [outsAt3_A V c ⟨n + 1, h⟩ h0 h1, acc3_succ_pos V c n h h0, sout3_A_0_eq]
  · rw [acc3_succ_neg V c n h h0, ← ih]
    by_cases h1 : (n + 1) % 8 = 7
    · rw [outsAt3_C V c ⟨n + 1, h⟩ h0 h1, sout3_C_0_eq]
      try rfl
    · rw [outsAt3_B V c ⟨n + 1, h⟩ h0 h1, sout3_B_0_eq]
      try rfl

/-- What the accumulator holds after each point is that sum: by induction on the point. -/
theorem outsAt3_acc (c : Dev nD) : ∀ (n : ℕ) (h : n < cfg3.N), (outsAt3 V c n h).2 = acc3 V c n h
  | 0, h => outsAt3_acc_zero V c h
  | n + 1, h => outsAt3_acc_succ V c n h (outsAt3_acc c n (Nat.lt_of_succ_lt h))

/-- After a point with k = 7 the output block holds the accumulated sum, each row scaled by the row's factor. -/
theorem outsAt3_out (c : Dev nD) (t : Fin cfg3.N) (h7 : t.val % 8 = 7) :
    (outsAt3 V c t.val t.isLt).1 = k3_pay3 (acc3 V c t.val t.isLt) (iblk3 V c 2 t) := by
  have h0 : ¬t.val % 8 = 0 := by omega
  obtain ⟨n, hn⟩ := t
  cases n with
  | zero => exact absurd (Nat.zero_mod _) h0
  | succ n =>
    rw [outsAt3_C V c ⟨n + 1, hn⟩ h0 h7, acc3_succ_neg V c n hn h0, ← outsAt3_acc V c n (Nat.lt_of_succ_lt hn), out3_C_3_eq]
    try rfl

end Cert.KernelIdeal.Fr

end
-- ==== Proof.KI.DiffValue3.lean ====
/-
  What a diffusion region leaves in its output array, at the ideal values.  The grid is 4 row blocks by 8 column
  steps; at step k of row block i the body adds to the carried accumulator (zeroed at k = 0) the product of the
  2048×1024 block (i, k) of the first operand with the 1024×512 block k of the second, and at k = 7 it stores the
  accumulator, each row scaled by that row's entry of the third operand's column, into output block i.  So after step
  kk the accumulator holds, at row r and column q, the sum over the first kk+1 column blocks of the products
  A[2048·i + r, n] · X[n, q]; after the last step the eight blocks are the whole contracted axis (a sum of 8·1024
  consecutive terms is the sum over 8 blocks of 1024), and the four output blocks fill the array: it ends at
  (Σ_n A[p, n] · X[n, q]) · v[p, 0], index by index.
-/
import proofs.«108811_j10385230921953_2_alg».proof.Proof.KI.Diff3Closed
import proofs.«108811_j10385230921953_2_alg».proof.Proof.KI.DiffValue1

noncomputable section
namespace Cert.KernelIdeal.Val
open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The zero block the first step of a row block stores. -/
theorem pay3_1_apply (i : S2048x512.Idx) : k3_pay1 (F := Ideal) i = 0 := by
  unfold k3_pay1
  simp only [shapeCast_self]
  show Ideal.ofBits .f32 0x00000000#32 = 0
  exact Ideal.ofBits_zero_f32

/-- One step of the accumulation at row r, column q: what was there plus the product of this step's blocks. -/
theorem pay3_2_apply (xs : FVec Ideal S2048x512 .f32) (a : FVec Ideal S2048x1024 .bf16) (cu : FVec Ideal S1024x512 .bf16) (r : Fin 2048) (q : Fin 512) :
    k3_pay2 (F := Ideal) xs a cu (ix2 r q) = xs (ix2 r q) + ∑ k : Fin 1024, a (ix2 r k) * cu (ix2 k q) := by
  unfold k3_pay2
  simp only [shapeCast_self]
  rw [addf_apply]
  refine congrArg₂ (· + ·) rfl ?_
  exact matmul_any_zero_apply (A := 2048) (K := 1024) (B := 512) dot_S2048x1024_S1024x512_S2048x512_1_0_0_1_n_n rfl rfl rfl rfl rfl rfl none a cu r q

/-- The last step's scaling at row r, column q: the accumulated sum times the row's factor. -/
theorem pay3_3_apply (acc : FVec Ideal S2048x512 .f32) (v : FVec Ideal S2048x1 .f32) (r : Fin 2048) (q : Fin 512) :
    k3_pay3 (F := Ideal) acc v (ix2 r q) = acc (ix2 r q) * v (ix2 r (0 : Fin 1)) := by
  unfold k3_pay3
  simp only [shapeCast_self]
  rw [mulf_apply]
  refine congrArg₂ (· * ·) rfl ?_
  exact Cert.Lib.ColumnForms.broadcastTo_col_apply (a := 2048) (b := 512) v broadcasts_S2048x1_S2048x512 r q

theorem idx_facts3 : ∀ t : Fin cfg3.N, win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = t.val / 8 ∧ win3_3.index t (1 : Fin 2) = 0 :=
  (by decide +kernel : ∀ t : Fin grid3.N, _)

variable (V : (c : Dev nD) → (b : Ref sig .tc) → Buf (Elt Ideal) ((c : Thread nD τ).loc b))

theorem blk3_0 (c : Dev nD) (t : Fin cfg3.N) (r : Fin 2048) (k : Fin 1024) (P : Fin 8192) (K : Fin 8192)
    (hP : P.val = t.val / 8 * 2048 + r.val) (hK : K.val = t.val % 8 * 1024 + k.val) :
    iblk3 V c 0 t (ix2 r k) = V c main_v48 (ix2 P K) := by
  unfold iblk3; rw [View.read_apply]
  show V c main_v48 (((cfg3.win 0).blk t).view.emb (ix2 r k)) = V c main_v48 (ix2 P K)
  refine congrArg _ (funext fun a => Fin.ext ?_)
  obtain ⟨e0, e1, -⟩ := idx_facts3 t
  match a with
  | ⟨0, _⟩ => show win3_0.index t (0 : Fin 2) * 2048 + 1 * r.val = P.val; rw [e0, hP]; omega
  | ⟨1, _⟩ => show win3_0.index t (1 : Fin 2) * 1024 + 1 * k.val = K.val; rw [e1, hK]; omega

theorem blk3_1 (c : Dev nD) (t : Fin cfg3.N) (k : Fin 1024) (q : Fin 512) (K : Fin 8192)
    (hK : K.val = t.val % 8 * 1024 + k.val) :
    iblk3 V c 1 t (ix2 k q) = V c main_v67 (ix2 K q) := by
  unfold iblk3; rw [View.read_apply]
  show V c main_v67 (((cfg3.win 1).blk t).view.emb (ix2 k q)) = V c main_v67 (ix2 K q)
  refine congrArg _ (funext fun a => Fin.ext ?_)
  obtain ⟨-, -, e0, e1, -⟩ := idx_facts3 t
  match a with
  | ⟨0, _⟩ => show win3_1.index t (0 : Fin 2) * 1024 + 1 * k.val = K.val; rw [e0, hK]; omega
  | ⟨1, _⟩ => show win3_1.index t (1 : Fin 2) * 512 + 1 * q.val = q.val; rw [e1]; omega

theorem blk3_2 (c : Dev nD) (t : Fin cfg3.N) (r : Fin 2048) (P : Fin 8192)
    (hP : P.val = t.val / 8 * 2048 + r.val) :
    iblk3 V c 2 t (ix2 r (0 : Fin 1)) = V c main_v47 (ix2 P (0 : Fin 1)) := by
  unfold iblk3; rw [View.read_apply]
  show V c main_v47 (((cfg3.win 2).blk t).view.emb (ix2 r (0 : Fin 1))) = V c main_v47 (ix2 P (0 : Fin 1))
  refine congrArg _ (funext fun a => Fin.ext ?_)
  obtain ⟨-, -, -, -, e0, e1, -⟩ := idx_facts3 t
  match a with
  | ⟨0, _⟩ => show win3_2.index t (0 : Fin 2) * 2048 + 1 * r.val = P.val; rw [e0, hP]; omega
  | ⟨1, _⟩ => show win3_2.index t (1 : Fin 2) * 1 + 1 * 0 = 0; rw [e1]

/-- One step's block product is the terms of that step's column block. -/
theorem step3_eq (c : Dev nD) (t : Fin cfg3.N) (r : Fin 2048) (q : Fin 512) (P : Fin 8192) (hP : P.val = t.val / 8 * 2048 + r.val)
    (a : FVec Ideal S2048x1024 .bf16) (cu : FVec Ideal S1024x512 .bf16) (ha : a = iblk3 V c 0 t) (hcu : cu = iblk3 V c 1 t) :
    ∑ k : Fin 1024, a (ix2 r k) * cu (ix2 k q)
      = ∑ k : Fin 1024, term1 (V c main_v48) (V c main_v67) P q (1024 * (t.val % 8) + k.val) := by
  subst ha; subst hcu
  refine Finset.sum_congr rfl fun k _ => ?_
  have hk : 1024 * (t.val % 8) + k.val < 8192 := by have := k.isLt; omega
  unfold term1
  rw [dif_pos hk]
  exact congrArg₂ (· * ·) (blk3_0 V c t r k P ⟨_, hk⟩ hP (by show 1024 * (t.val % 8) + k.val = _; omega))
    (blk3_1 V c t k q ⟨_, hk⟩ (by show 1024 * (t.val % 8) + k.val = _; omega))

/-- THE ACCUMULATION, index by index: after point n the accumulator at row r, column q is the sum of the terms of the
    column blocks 0 … n mod 8 of row 2048·(n / 8) + r — by induction on the point. -/
theorem acc3_apply (c : Dev nD) : ∀ (n : ℕ) (h : n < cfg3.N) (r : Fin 2048) (q : Fin 512) (P : Fin 8192), P.val = n / 8 * 2048 + r.val →
    acc3 V c n h (ix2 r q) = ∑ j ∈ Finset.range (n % 8 + 1), ∑ k : Fin 1024, term1 (V c main_v48) (V c main_v67) P q (1024 * j + k.val)
  | 0, h, r, q, P, hP => by
    rw [acc3_zero]
    refine (pay3_2_apply _ _ _ r q).trans ?_
    rw [pay3_1_apply, zero_add, show (0 % 8 + 1) = 1 from rfl, Finset.sum_range_one]
    exact step3_eq V c ⟨0, h⟩ r q P hP _ _ rfl rfl
  | n + 1, h, r, q, P, hP => by
    by_cases h0 : (n + 1) % 8 = 0
    · rw [acc3_succ_pos V c n h h0]
      refine (pay3_2_apply _ _ _ r q).trans ?_
      rw [pay3_1_apply, zero_add, h0, show (0 + 1) = 1 from rfl, Finset.sum_range_one]
      have := step3_eq V c ⟨n + 1, h⟩ r q P hP _ _ rfl rfl
      rw [show (⟨n + 1, h⟩ : Fin cfg3.N).val % 8 = 0 from h0] at this
      exact this
    · rw [acc3_succ_neg V c n h h0]
      refine (pay3_2_apply _ _ _ r q).trans ?_
      have hdiv : (n + 1) / 8 = n / 8 := by omega
      have hmod : (n + 1) % 8 = n % 8 + 1 := by omega
      rw [acc3_apply c n (Nat.lt_of_succ_lt h) r q P (by rw [hP, hdiv]), hmod, Finset.sum_range_succ (n := n % 8 + 1)]
      refine congrArg₂ (· + ·) rfl ?_
      have := step3_eq V c ⟨n + 1, h⟩ r q P hP _ _ rfl rfl
      rw [show (⟨n + 1, h⟩ : Fin cfg3.N).val % 8 = n % 8 + 1 from hmod] at this
      exact this

/-- At a point of the last column step, row r and column q of what is stored is row P, column Q of the scaled product,
    for P the row 2048·(t / 8) + r of the array and Q = q. -/
theorem out3_at (c : Dev nD) (t : Fin cfg3.N) (h7 : t.val % 8 = 7) (r : Fin 2048) (q : Fin 512) (P : Fin 8192) (Q : Fin 512)
    (hP : P.val = t.val / 8 * 2048 + r.val) (hQ : Q.val = q.val)
    (ac : FVec Ideal S2048x512 .f32) (v : FVec Ideal S2048x1 .f32) (hac : ac = acc3 V c t.val t.isLt) (hv : v = iblk3 V c 2 t) :
    ac (ix2 r q) * v (ix2 r (0 : Fin 1))
      = diffuseAt (V c main_v48) (V c main_v67) (V c main_v47) P Q := by
  subst hac; subst hv
  obtain rfl : Q = q := Fin.ext hQ
  unfold diffuseAt
  refine congrArg₂ (· * ·) ?_ ?_
  · rw [acc3_apply V c t.val t.isLt r Q P hP, h7]
    exact blocks1_eq _ _ P Q
  · exact blk3_2 V c t r P hP

/-- What a point of the last column step writes back is its block of that function of the three arrays as the region
    finds them. -/
theorem flushed3_eq (c : Dev nD) (t : Fin cfg3.N) (hf : (cfg3.win 3).flush t = true) :
    (dat3 V c).flushed 3 t = ((cfg3.win 3).blk t).view.read (Elt Ideal) (diffuse (V c main_v48) (V c main_v67) (V c main_v47)) := by
  have h7 : t.val % 8 = 7 := (flush3_3 t).mp hf
  show (cfg3.win 3).cut (grid3.coords t) ((dat3 V c).after 3 t) = _
  rw [after3_3, outsAt3_out V c t h7]
  funext j
  obtain ⟨r, q, rfl⟩ : ∃ (r : Fin 2048) (q : Fin 512), j = ix2 r q := ⟨j 0, j 1, eq_ix2 j⟩
  refine (pay3_3_apply _ _ r q).trans ?_
  rw [View.read_apply]
  obtain ⟨-, -, -, -, -, -, e0, e1⟩ := idx_facts3 t
  have hP : (((cfg3.win 3).blk t).view.emb (ix2 r q) 0).val = t.val / 8 * 2048 + r.val := by
    show win3_3.index t (0 : Fin 2) * 2048 + 1 * r.val = _; rw [e0]; omega
  have hQ : (((cfg3.win 3).blk t).view.emb (ix2 r q) 1).val = q.val := by
    show win3_3.index t (1 : Fin 2) * 512 + 1 * q.val = _; rw [e1]; omega
  unfold diffuse
  exact out3_at V c t h7 r q _ _ hP hQ _ _ rfl rfl

/-- An index of the output array is in point t's block iff each coordinate is in the block's range on its axis. -/
theorem mem_blk3 (t : Fin cfg3.N) (i : S8192x512.Idx) :
    i ∈ ((cfg3.win 3).blk t).view.set ↔ ∀ a : Fin 2, win3_3.index t a * S2048x512.size a ≤ (i a).val ∧ (i a).val < win3_3.index t a * S2048x512.size a + S2048x512.size a := by
  show i ∈ ((View.whole main_v68).slice (win3_3.rect t)).set ↔ _
  rw [View.set_slice_whole, Rect.mem_set_unit]
  exact Iff.rfl

/-- The four row blocks, each written back after its last column step, fill the array. -/
theorem final3 (c : Dev nD) : (dat3 V c).arrAt 3 cfg3.N = diffuse (V c main_v48) (V c main_v67) (V c main_v47) :=
  (dat3 V c).arrAt_eq_of_cover 3 _ (fun t hf => flushed3_eq V c t hf) fun i => by
    have hi0 : (i 0).val < 8192 := idx2_lt0 i
    have hi1 : (i 1).val < 512 := idx2_lt1 i
    have hN : cfg3.N = 32 := N_3
    have hlt : (i 0).val / 2048 * 8 + 7 < cfg3.N := by rw [hN]; omega
    refine ⟨⟨(i 0).val / 2048 * 8 + 7, hlt⟩, (flush3_3 _).mpr (by show ((i 0).val / 2048 * 8 + 7) % 8 = 7; omega), ?_⟩
    rw [mem_blk3]
    obtain ⟨-, -, -, -, -, -, e0, e1⟩ := idx_facts3 ⟨(i 0).val / 2048 * 8 + 7, hlt⟩
    intro a
    match a with
    | ⟨0, _⟩ =>
      show win3_3.index ⟨(i 0).val / 2048 * 8 + 7, hlt⟩ (0 : Fin 2) * 2048 ≤ (i 0).val ∧ (i 0).val < win3_3.index ⟨(i 0).val / 2048 * 8 + 7, hlt⟩ (0 : Fin 2) * 2048 + 2048
      rw [e0]; dsimp only; omega
    | ⟨1, _⟩ =>
      show win3_3.index ⟨(i 0).val / 2048 * 8 + 7, hlt⟩ (1 : Fin 2) * 512 ≤ (i 1).val ∧ (i 1).val < win3_3.index ⟨(i 0).val / 2048 * 8 + 7, hlt⟩ (1 : Fin 2) * 512 + 512
      rw [e1]; omega

end Cert.KernelIdeal.Val
end
-- ==== Proof.KI.HostSmall.lean ====
/-
  What the short stretches of host operations around the regions leave, from any contents of the buffers they read.
  Before the linear region: the two operands rounded to the narrow format (the identity at the ideal values) and the bias
  reshaped to a row.  After each diffusion region: the running output plus the hop's weight times the region's result,
  and the result rounded for the next hop.  At the end the positive part.
-/
import proofs.«108811_j10385230921953_2_alg».proof.Proof.Gen.KernelIdeal.Launch
import Idealize.ShloMosaic.Lib.StableHlo.Run
import Idealize.ShloMosaic.Lib.ValueIdx
import Idealize.ShloMosaic.Lib.Pipeline.Value

noncomputable section
namespace Cert.KernelIdeal.Val
open Cert.KernelIdeal Cert.KernelIdeal.Gen
open Idealize.ShloMosaic Idealize.ShloMosaic.TcCoe Idealize.SL.Sem Idealize.ShloMosaic.ValueIdx Idealize.ShloMosaic.StableHlo

variable (Wb : Valuation τ sig (Elt Ideal))

/-- The hop weight number k spread over the whole array. -/
def scale1 (dw : (⟨S4, .f32⟩ : BufTy).Contents (Elt Ideal)) : (⟨S8192x512, .f32⟩ : BufTy).Contents (Elt Ideal) :=
  broadcastInDim S8192x512 ![] bcast_S_S8192x512 (shapeCast S_ (extractStridedSlice S1 ![1] dw slices_S4_S1_1) shapeCasts_S1_S_)
def scale2 (dw : (⟨S4, .f32⟩ : BufTy).Contents (Elt Ideal)) : (⟨S8192x512, .f32⟩ : BufTy).Contents (Elt Ideal) :=
  broadcastInDim S8192x512 ![] bcast_S_S8192x512 (shapeCast S_ (extractStridedSlice S1 ![2] dw slices_S4_S1_2) shapeCasts_S1_S_)
def scale3 (dw : (⟨S4, .f32⟩ : BufTy).Contents (Elt Ideal)) : (⟨S8192x512, .f32⟩ : BufTy).Contents (Elt Ideal) :=
  broadcastInDim S8192x512 ![] bcast_S_S8192x512 (shapeCast S_ (extractStridedSlice S1 ![3] dw slices_S4_S1_3) shapeCasts_S1_S_)

theorem host0_v0 : StableHlo.after (hostOps0 (F := Ideal)) Wb (Proc.devRef .tc main_v0) = Wb (Proc.devRef .tc main_arg0) := by
  after_results; rfl
theorem host0_v1 : StableHlo.after (hostOps0 (F := Ideal)) Wb (Proc.devRef .tc main_v1) = Wb (Proc.devRef .tc main_arg2) := by
  after_results; rfl
theorem host0_v2 : StableHlo.after (hostOps0 (F := Ideal)) Wb (Proc.devRef .tc main_v2)
    = shapeCast S1x512 (Wb (Proc.devRef .tc main_arg3)) shapeCasts_S512_S1x512 := by
  after_results; rfl

theorem host2_v59 : StableHlo.after (hostOps2 (F := Ideal)) Wb (Proc.devRef .tc main_v59)
    = addf (F := Ideal) (s := S8192x512) (φ := .f32) (Wb (Proc.devRef .tc main_v52)) (mulf (F := Ideal) (s := S8192x512) (φ := .f32) (scale1 (Wb (Proc.devRef .tc main_arg4))) (Wb (Proc.devRef .tc main_v54))) := by
  after_results; rfl
theorem host2_v60 : StableHlo.after (hostOps2 (F := Ideal)) Wb (Proc.devRef .tc main_v60) = Wb (Proc.devRef .tc main_v54) := by
  after_results; rfl
theorem host3_v66 : StableHlo.after (hostOps3 (F := Ideal)) Wb (Proc.devRef .tc main_v66)
    = addf (F := Ideal) (s := S8192x512) (φ := .f32) (Wb (Proc.devRef .tc main_v59)) (mulf (F := Ideal) (s := S8192x512) (φ := .f32) (scale2 (Wb (Proc.devRef .tc main_arg4))) (Wb (Proc.devRef .tc main_v61))) := by
  after_results; rfl
theorem host3_v67 : StableHlo.after (hostOps3 (F := Ideal)) Wb (Proc.devRef .tc main_v67) = Wb (Proc.devRef .tc main_v61) := by
  after_results; rfl
theorem host4_v73 : StableHlo.after (hostOps4 (F := Ideal)) Wb (Proc.devRef .tc main_v73)
    = addf (F := Ideal) (s := S8192x512) (φ := .f32) (Wb (Proc.devRef .tc main_v66)) (mulf (F := Ideal) (s := S8192x512) (φ := .f32) (scale3 (Wb (Proc.devRef .tc main_arg4))) (Wb (Proc.devRef .tc main_v68))) := by
  after_results; rfl
theorem host41_v74 : StableHlo.after (hostOps4_1 (F := Ideal)) Wb (Proc.devRef .tc main_v74)
    = maximumf (F := Ideal) (s := S8192x512) (φ := .f32) (Wb (Proc.devRef .tc main_v73)) (broadcastInDim S8192x512 ![] bcast_S_S8192x512 (constant (F := Ideal) S_ .f32 0x00000000#32)) := by
  after_results; rfl

end Cert.KernelIdeal.Val
end
-- ==== Proof.LibRealClosed.lean ====
/-
  Real-closedness of the ideal operations: an extended real is REAL when it is the coercion of a real number, and sums,
  differences, products, finite sums, maxima and quotients by a nonzero real of real numbers are real — so are, entry by entry,
  the results of the host operations that only add and multiply entries of their operands: a gather (each entry IS an entry of
  the operand), an accumulating scatter (an operand entry plus a finite sum of update entries), a sum along axes (the initial
  value plus a finite sum of entries), a general dot and a matmul (finite sums of products, plus the accumulator's entry).
  These carry "every input is finite" through a program to the point where an algebraic law needs it (distributivity and
  cancellation fail at the infinities).
-/
import Idealize.ShloMosaic.PureOps.Ideal
import Idealize.ShloMosaic.PureOps.Ideal.Laws

namespace LibRealClosed

open Idealize.ShloMosaic

/-- An extended real that is (the coercion of) a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The ideal quotient of a real number by a nonzero real is real. -/
theorem IsReal.div_coe {x : EReal} (hx : IsReal x) {n : ℝ} (hn : n ≠ 0) : IsReal (Ideal.div x (n : EReal)) := by
  rw [Ideal.div_coe hn]; exact hx.mul (IsReal.coe _)

/-- A gather's entry is an entry of its operand. -/
theorem gather_isReal {s si t : Shape} {w : Nat} (d : GatherDims s si t) (x : s.Idx → EReal) (idx : IVec si w)
    (hx : ∀ i, IsReal (x i)) (j : t.Idx) : IsReal (Host.gather d x idx j) := hx _

/-- An accumulating scatter's entry: the operand's plus a finite sum of update entries. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A host sum along axes: the initial value plus a finite sum of entries. -/
theorem hostReduceAdd_isReal {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) := by
  unfold Ideal.hostReduceAdd
  exact hi.add (IsReal.sum _ _ fun i _ => hx i)

/-- A general dot's entry: a finite sum of products of entries. -/
theorem dotGeneral_isReal {sl sr so : Shape} {φ₁ φ₂ : FTy} (d : DotDims sl sr so) (prec : Option ContractPrecision)
    (sched : HostSchedule) (lhs : FVec Ideal sl φ₁) (rhs : FVec Ideal sr φ₂) (hl : ∀ i, IsReal (lhs i)) (hr : ∀ i, IsReal (rhs i))
    (j : so.Idx) : IsReal (FloatOps.dotGeneral d prec sched lhs rhs j) := by
  rw [Ideal.dotGeneral_apply]
  exact IsReal.sum _ _ fun k _ => (hl _).mul (hr _)

/-- A matmul's entry: the accumulator's plus a finite sum of products of entries. -/
theorem matmul_isReal {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) : IsReal (FloatOps.matmul d prec lhs rhs acc j) := by
  rw [Ideal.matmul_apply]
  exact (ha j).add (IsReal.sum _ _ fun k _ => (hl _).mul (hr _))

end LibRealClosed
-- ==== Proof.LibScatterSet.lean ====
/-
  A host scatter whose body returns the update ("set") and whose updates are all ONE value `v`: the result does not depend on
  the order in which the updates are taken. An element of the result is `v` when some update's result index is that element,
  and the operand's element otherwise. The scatter is a left fold over the update positions; the fold over ANY list `l` of
  positions gives "`v` if some position of `l` lands on the element, else the accumulator's element", by induction on `l`; the
  list of all positions meets every update index because row-major numbering is a bijection between update indices and positions.
-/
import Idealize.ShloMosaic.PureOps.ShapeOps
import Idealize.ShloMosaic.PureOps.Dims
import Idealize.ShloMosaic.Lib.ValueIdx

namespace LibScatterSet

open Idealize.ShloMosaic Idealize.ShloMosaic.ValueIdx

variable {α : Type} {s si u : Shape} {w : Nat}

/-- One step of the fold with a constant update: the element is `v` when the position lands on it, else unchanged. -/
theorem step_apply (d : ScatterDims s si u) (idx : IVec si w) (v : α) (r : s.Idx → α) (n : Fin u.numel) (i : s.Idx) :
    (match d.resultIdx? (u.rowMajor.symm n) idx with
      | some i₀ => fun i' => if i' = i₀ then (fun (_ b : α) => b) (r i₀) ((fun _ => v) (u.rowMajor.symm n)) else r i'
      | none => r) i
      = (open Classical in if d.resultIdx? (u.rowMajor.symm n) idx = some i then v else r i) := by
  classical
  cases h : d.resultIdx? (u.rowMajor.symm n) idx with
  | none => simp
  | some i₀ =>
    by_cases hi : i = i₀
    · subst hi; simp
    · have : ¬ (some i₀ = some i) := fun e => hi (Option.some.inj e).symm
      simp [hi, this]

/-- The fold over a list of positions: `v` when some position of the list lands on the element, else the accumulator's. -/
theorem foldl_apply (d : ScatterDims s si u) (idx : IVec si w) (v : α) (l : List (Fin u.numel)) (r : s.Idx → α) (i : s.Idx) :
    l.foldl (fun r n =>
        match d.resultIdx? (u.rowMajor.symm n) idx with
        | some i₀ => fun i' => if i' = i₀ then (fun (_ b : α) => b) (r i₀) ((fun _ => v) (u.rowMajor.symm n)) else r i'
        | none => r) r i
      = (open Classical in if ∃ n ∈ l, d.resultIdx? (u.rowMajor.symm n) idx = some i then v else r i) := by
  classical
  induction l generalizing r with
  | nil => simp
  | cons n l ih =>
    rw [List.foldl_cons, ih, step_apply]
    by_cases h1 : ∃ m ∈ l, d.resultIdx? (u.rowMajor.symm m) idx = some i
    · have h2 : ∃ m ∈ n :: l, d.resultIdx? (u.rowMajor.symm m) idx = some i := by
        obtain ⟨m, hm, e⟩ := h1; exact ⟨m, List.mem_cons_of_mem _ hm, e⟩
      rw [if_pos h1, if_pos h2]
    · rw [if_neg h1]
      by_cases h0 : d.resultIdx? (u.rowMajor.symm n) idx = some i
      · rw [if_pos h0, if_pos ⟨n, List.mem_cons_self .., h0⟩]
      · have h2 : ¬ ∃ m ∈ n :: l, d.resultIdx? (u.rowMajor.symm m) idx = some i := by
          rintro ⟨m, hm, e⟩
          rcases List.mem_cons.1 hm with rfl | hm
          · exact h0 e
          · exact h1 ⟨m, hm, e⟩
        rw [if_neg h0, if_neg h2]

/-- A set-scatter of one constant value: `v` where some update lands, the operand elsewhere. -/
theorem scatter_const_apply (d : ScatterDims s si u) (x : s.Idx → α) (idx : IVec si w) (v : α) (i : s.Idx) :
    Host.scatter d (fun _ b => b) x idx (fun _ => v) i
      = (open Classical in if ∃ j, d.resultIdx? j idx = some i then v else x i) := by
  classical
  unfold Host.scatter
  refine (foldl_apply d idx v _ x i).trans ?_
  have hiff : (∃ n ∈ List.finRange u.numel, d.resultIdx? (u.rowMajor.symm n) idx = some i) ↔ ∃ j, d.resultIdx? j idx = some i := by
    constructor
    · rintro ⟨n, _, e⟩; exact ⟨_, e⟩
    · rintro ⟨j, e⟩
      exact ⟨u.rowMajor j, List.mem_finRange _, by rw [Equiv.symm_apply_apply]; exact e⟩
  by_cases h : ∃ j, d.resultIdx? j idx = some i
  · rw [if_pos h, if_pos (hiff.2 h)]
  · rw [if_neg h, if_neg (fun h' => h (hiff.1 h'))]

/-- Where some update lands, the set-scatter of a constant holds that constant. -/
theorem scatter_const_of_hit (d : ScatterDims s si u) (x : s.Idx → α) (idx : IVec si w) (v : α) (i : s.Idx)
    (h : ∃ j, d.resultIdx? j idx = some i) : Host.scatter d (fun _ b => b) x idx (fun _ => v) i = v := by
  rw [scatter_const_apply]; exact if_pos h

/-- Where no update lands, the set-scatter of a constant keeps the operand's element. -/
theorem scatter_const_of_miss (d : ScatterDims s si u) (x : s.Idx → α) (idx : IVec si w) (v : α) (i : s.Idx)
    (h : ¬ ∃ j, d.resultIdx? j idx = some i) : Host.scatter d (fun _ b => b) x idx (fun _ => v) i = x i := by
  rw [scatter_const_apply]; exact if_neg h

/-! ## A point scatter into a matrix

  `M` scalar updates into an `R × C` matrix, update `n` at the position `(idx[n, 0], idx[n, 1])` its row of the `M × 2` index
  array names (the index vector along axis 1, both operand axes inserted window axes, no update window axes): the update lands
  on the element `(p, q)` exactly when its two index words, read signed, are `p` and `q`. -/

/-- The dimension numbers of a point scatter of `M` scalars into an `R × C` matrix. -/
abbrev pointDims (R C M : Nat) (wf : ScatterDims.WF ⟨2, ![R, C]⟩ ⟨2, ![M, 2]⟩ ⟨1, ![M]⟩ [] [0, 1] [0, 1] 1) :
    ScatterDims ⟨2, ![R, C]⟩ ⟨2, ![M, 2]⟩ ⟨1, ![M]⟩ where
  updateWindowDims := []
  insertedWindowDims := [0, 1]
  scatterDimsToOperandDims := [0, 1]
  indexVectorDim := 1
  wf := wf

section Point

variable {R C M : Nat} (wf : ScatterDims.WF ⟨2, ![R, C]⟩ ⟨2, ![M, 2]⟩ ⟨1, ![M]⟩ [] [0, 1] [0, 1] 1)

/-- No operand axis carries a window coordinate. -/
theorem pointDims_window (j : (⟨1, ![M]⟩ : Shape).Idx) (a : Fin 2) : (pointDims R C M wf).window j a = 0 := by
  unfold ScatterDims.window
  rw [dif_neg]
  have : (pointDims R C M wf).sKept = [] := rfl
  rw [this]; exact List.not_mem_nil

/-- The start on the row axis is the first index word of the update's row, read signed. -/
theorem pointDims_start0 (j : (⟨1, ![M]⟩ : Shape).Idx) (idx : IVec ⟨2, ![M, 2]⟩ w) :
    (pointDims R C M wf).start j idx 0 = (idx (ix2 (j 0) 0)).toInt := by
  unfold ScatterDims.start
  rw [dif_pos (show (0 : Fin 2) ∈ (pointDims R C M wf).scatterDimsToOperandDims from List.mem_cons_self ..)]
  congr 2
  funext b; refine Fin.ext ?_
  match b with
  | ⟨0, _⟩ => rfl
  | ⟨1, _⟩ => rfl

/-- The start on the column axis is the second index word of the update's row, read signed. -/
theorem pointDims_start1 (j : (⟨1, ![M]⟩ : Shape).Idx) (idx : IVec ⟨2, ![M, 2]⟩ w) :
    (pointDims R C M wf).start j idx 1 = (idx (ix2 (j 0) 1)).toInt := by
  unfold ScatterDims.start
  rw [dif_pos (show (1 : Fin 2) ∈ (pointDims R C M wf).scatterDimsToOperandDims from
    List.mem_cons_of_mem _ (List.mem_cons_self ..))]
  congr 2
  funext b; refine Fin.ext ?_
  match b with
  | ⟨0, _⟩ => rfl
  | ⟨1, _⟩ => rfl

/-- An update lands on `(p, q)` exactly when its index words, read signed, are `p` and `q`. -/
theorem pointDims_resultIdx?_eq_some (j : (⟨1, ![M]⟩ : Shape).Idx) (idx : IVec ⟨2, ![M, 2]⟩ w)
    (i : (⟨2, ![R, C]⟩ : Shape).Idx) :
    (pointDims R C M wf).resultIdx? j idx = some i ↔
      (idx (ix2 (j 0) 0)).toInt = ((i 0).val : Int) ∧ (idx (ix2 (j 0) 1)).toInt = ((i 1).val : Int) := by
  have h0 := pointDims_start0 wf j idx
  have h1 := pointDims_start1 wf j idx
  have w0 := pointDims_window wf j 0
  have w1 := pointDims_window wf j 1
  have hi0 : (i 0).val < R := (i 0).isLt
  have hi1 : (i 1).val < C := (i 1).isLt
  unfold ScatterDims.resultIdx?
  constructor
  · intro h
    split at h
    · next hc =>
      have e := Option.some.inj h
      have e0 := congrArg (fun f => (f 0).val) e
      have e1 := congrArg (fun f => (f 1).val) e
      have c0 := hc 0
      have c1 := hc 1
      simp only [h0, h1, w0, w1] at e0 e1 c0 c1
      constructor <;> omega
    · exact absurd h (by simp)
  · rintro ⟨e0, e1⟩
    have hc : ∀ a, 0 ≤ (pointDims R C M wf).start j idx a + ((pointDims R C M wf).window j a : Int) ∧
        (pointDims R C M wf).start j idx a + ((pointDims R C M wf).window j a : Int) < ((⟨2, ![R, C]⟩ : Shape).size a : Int) := by
      intro a
      match a with
      | ⟨0, _⟩ =>
        show 0 ≤ (pointDims R C M wf).start j idx 0 + ((pointDims R C M wf).window j 0 : Int) ∧
          (pointDims R C M wf).start j idx 0 + ((pointDims R C M wf).window j 0 : Int) < (R : Int)
        rw [h0, w0, e0]; omega
      | ⟨1, _⟩ =>
        show 0 ≤ (pointDims R C M wf).start j idx 1 + ((pointDims R C M wf).window j 1 : Int) ∧
          (pointDims R C M wf).start j idx 1 + ((pointDims R C M wf).window j 1 : Int) < (C : Int)
        rw [h1, w1, e1]; omega
    rw [dif_pos hc]
    congr 1
    funext a; refine Fin.ext ?_
    match a with
    | ⟨0, _⟩ =>
      show ((pointDims R C M wf).start j idx 0 + ((pointDims R C M wf).window j 0 : Int)).toNat = (i 0).val
      rw [h0, w0, e0]; omega
    | ⟨1, _⟩ =>
      show ((pointDims R C M wf).start j idx 1 + ((pointDims R C M wf).window j 1 : Int)).toNat = (i 1).val
      rw [h1, w1, e1]; omega

end Point

end LibScatterSet
-- ==== Proof.DiffuseLaw.lean ====
/-
  The row-scaling law of a normalised matrix-vector product over the extended reals. A row of real entries `a k`, each divided by
  a nonzero real `m` BEFORE it is multiplied with the real entries `c k` and summed, gives the same number as the plain sum of
  products `∑ a k * c k` multiplied AFTERWARDS by `1 / m`: division by a nonzero real is multiplication by its reciprocal, every
  term is a real number (so products commute and distribute over the finite sum, which fails at the infinities), and the
  reciprocal factors out of the sum. The result is again a real number.
-/
import Mathlib.Data.EReal.Basic
import Mathlib.Data.EReal.Operations
import Mathlib.Data.EReal.Inv
import Idealize.ShloMosaic.PureOps.Ideal
import proofs.«108811_j10385230921953_2_alg».proof.Proof.LibRealClosed

namespace Cert.Bridge.Law

open Idealize.ShloMosaic LibRealClosed

/-- The pattern `0x3F800000` of the 32-bit format denotes the real number one. -/
theorem ofBits_one : Ideal.ofBits .f32 0x3F800000#32 = ((1 : ℝ) : EReal) := by
  simp [Ideal.ofBits, Ideal.ieee, -EReal.coe_mul]; norm_num

/-- The pattern `0x00000000` of the 32-bit format denotes zero. -/
theorem ofBits_zero : Ideal.ofBits .f32 0x00000000#32 = 0 := by
  simp [Ideal.ofBits, Ideal.ieee]

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing each entry of a real row by a nonzero real before the product with a real vector equals multiplying the row's
    plain sum of products by the reciprocal afterwards. -/
theorem row_scale {K : Type*} [Fintype K] (a c : K → EReal) (mm : EReal) (ha : ∀ k, LibRealClosed.IsReal (a k))
    (hc : ∀ k, LibRealClosed.IsReal (c k)) (hm : ∃ r : ℝ, r ≠ 0 ∧ mm = (r : EReal)) :
    (∑ k, Ideal.div (a k) mm * c k) = (∑ k, a k * c k) * Ideal.div (Ideal.ofBits .f32 0x3F800000#32) mm := by
  obtain ⟨r, hr, rfl⟩ := hm
  choose ra hra using ha
  choose rc hrc using hc
  rw [ofBits_one, Ideal.div_coe hr]
  simp only [Ideal.div_coe hr, hra, hrc, ← EReal.coe_mul, ← coe_sum]
  congr 1
  rw [Finset.sum_mul]
  refine Finset.sum_congr rfl fun k _ => ?_
  ring

/-- Both sides of the row-scaling law are real numbers. -/
theorem row_scale_real {K : Type*} [Fintype K] (a c : K → EReal) (mm : EReal) (ha : ∀ k, LibRealClosed.IsReal (a k))
    (hc : ∀ k, LibRealClosed.IsReal (c k)) (hm : ∃ r : ℝ, r ≠ 0 ∧ mm = (r : EReal)) :
    LibRealClosed.IsReal (∑ k, Ideal.div (a k) mm * c k)
      ∧ LibRealClosed.IsReal ((∑ k, a k * c k) * Ideal.div (Ideal.ofBits .f32 0x3F800000#32) mm) := by
  obtain ⟨r, hr, rfl⟩ := hm
  refine ⟨IsReal.sum _ _ fun k _ => ((ha k).div_coe hr).mul (hc k), ?_⟩
  refine (IsReal.sum _ _ fun k _ => (ha k).mul (hc k)).mul ?_
  rw [ofBits_one]
  exact (IsReal.coe 1).div_coe hr

end Cert.Bridge.Law
-- ==== Proof.Adjacency.lean ====
/-
  The two programs' dense adjacency matrices are one matrix. Both start from zeros and write the constant one at positions
  named by the edge list, then add one on the diagonal. The reference writes the `E` pairs `(row n, col n)`, then the `E`
  pairs `(col n, row n)`, with two set-scatters; the kernel writes the `2 E` pairs of the concatenated lists with one. A
  set-scatter of ONE constant value does not depend on the order or multiplicity of its updates: an element is that value when
  some update lands on it and the operand's element otherwise, so all that matters is the SET of positions hit — and the
  positions hit by the concatenated list are those hit by its first half or by its second half. On the diagonal the reference
  adds the matrix "row coordinate = column coordinate" converted to a number; the kernel accumulates one update per node `n`
  at `(n, n)`, and the updates landing on `(p, q)` are the single one `n = p` when `p = q` and none otherwise. Every entry is
  `0`, `1` or `2`: a real number that is not negative.
-/
import proofs.«108811_j10385230921953_2_alg».proof.Defs
import proofs.«108811_j10385230921953_2_alg».proof.Proof.Gen.KernelIdeal
import proofs.«108811_j10385230921953_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.Pipeline.Value
import proofs.«108811_j10385230921953_2_alg».proof.Proof.LibRealClosed
import proofs.«108811_j10385230921953_2_alg».proof.Proof.LibScatterSet
import proofs.«108811_j10385230921953_2_alg».proof.Proof.DiffuseLaw

noncomputable section

namespace Cert.Bridge.Adj

open Idealize.ShloMosaic Idealize.ShloMosaic.ValueIdx

/-! ## Index words -/

/-- The normalisation of an index word: a negative word has the extent `8192` added. -/
def normW (b : BitVec 32) : BitVec 32 := Scalar.select (IntOp.cmpi .slt b 0#32) (IntOp.addi b 8192#32) b

/-- A node number, as a word, reads signed as itself. -/
theorem toInt_ofNat_node (n : Nat) (h : n < 8192) : (BitVec.ofNat 32 n).toInt = (n : Int) := by
  rw [BitVec.toInt_eq_toNat_cond, BitVec.toNat_ofNat]
  have : n % 2 ^ 32 = n := Nat.mod_eq_of_lt (by omega)
  rw [this]; split <;> omega

/-- Normalising a node number changes nothing: it is not negative. -/
theorem normW_ofNat_node (n : Nat) (h : n < 8192) : normW (BitVec.ofNat 32 n) = BitVec.ofNat 32 n := by
  unfold normW IntOp.cmpi
  have hs : (BitVec.ofNat 32 n).slt 0#32 = false := by
    rw [BitVec.slt, toInt_ofNat_node n h]; simp
  simp only [hs]
  exact select_zero _ _

/-! ## Reading the pieces of an index-pair array -/

section Pieces

variable {α : Type} {M : Nat}

/-- A scalar broadcast to any shape reads the scalar everywhere. -/
theorem bcast_scalar_apply (t : Shape) (hb : (⟨0, ![]⟩ : Shape).BroadcastsInDim t (![] : Fin 0 → Fin t.rank))
    (y : (⟨0, ![]⟩ : Shape).Idx → α) (i : t.Idx) : broadcastInDim t ![] hb y i = y ix0 :=
  broadcastInDim_apply _ hb y i ix0 (fun a => a.elim0)

/-- A vector made a one-column matrix reads the vector at the row. -/
theorem bcast_col_apply (hb : (⟨1, ![M]⟩ : Shape).BroadcastsInDim ⟨2, ![M, 1]⟩ (![0] : Fin 1 → Fin 2))
    (y : (⟨1, ![M]⟩ : Shape).Idx → α) (n : Fin M) (c : Fin 1) :
    broadcastInDim ⟨2, ![M, 1]⟩ ![0] hb y (ix2 n c) = y (ix1 n) :=
  broadcastInDim_apply _ hb y (ix2 n c) (ix1 n) (fun a => match a with
    | ⟨0, _⟩ => by
      have := n.isLt
      show n.val = if M = 1 then 0 else n.val
      split <;> omega)

/-- Two one-column matrices side by side: column `0` reads the first. -/
theorem pair_apply0 (hc : Shape.Concatenates [(⟨2, ![M, 1]⟩ : Shape), ⟨2, ![M, 1]⟩] ⟨2, ![M, 2]⟩ 1)
    (a b : (⟨2, ![M, 1]⟩ : Shape).Idx → α) (n : Fin M) :
    concatenate ⟨2, ![M, 2]⟩ 1 [⟨⟨2, ![M, 1]⟩, a⟩, ⟨⟨2, ![M, 1]⟩, b⟩] hc (ix2 n 0) = a (ix2 n 0) :=
  concatenate_pair_apply_left 1 a b hc (ix2 n 0) rfl (ix2 n 0) (fun b => match b with
    | ⟨0, _⟩ => rfl
    | ⟨1, _⟩ => rfl)

/-- Two one-column matrices side by side: column `1` reads the second. -/
theorem pair_apply1 (hc : Shape.Concatenates [(⟨2, ![M, 1]⟩ : Shape), ⟨2, ![M, 1]⟩] ⟨2, ![M, 2]⟩ 1)
    (a b : (⟨2, ![M, 1]⟩ : Shape).Idx → α) (n : Fin M) :
    concatenate ⟨2, ![M, 2]⟩ 1 [⟨⟨2, ![M, 1]⟩, a⟩, ⟨⟨2, ![M, 1]⟩, b⟩] hc (ix2 n 1) = b (ix2 n 0) :=
  concatenate_pair_apply_right 1 a b hc (ix2 n 1) rfl rfl (ix2 n 0) (fun b hb => match b with
    | ⟨0, _⟩ => rfl
    | ⟨1, _⟩ => absurd rfl hb) rfl

/-- Two vectors end to end: below the first's length, the first. -/
theorem cat_apply_lo {E : Nat} (hc : Shape.Concatenates [(⟨1, ![E]⟩ : Shape), ⟨1, ![E]⟩] ⟨1, ![M]⟩ 0)
    (a b : (⟨1, ![E]⟩ : Shape).Idx → α) (n : Fin M) (m : Fin E) (h : m.val = n.val) :
    concatenate ⟨1, ![M]⟩ 0 [⟨⟨1, ![E]⟩, a⟩, ⟨⟨1, ![E]⟩, b⟩] hc (ix1 n) = a (ix1 m) :=
  concatenate_pair_apply_left 0 a b hc (ix1 n) rfl (ix1 m) (fun b => match b with
    | ⟨0, _⟩ => h)

/-- Two vectors end to end: from the first's length on, the second. -/
theorem cat_apply_hi {E : Nat} (hc : Shape.Concatenates [(⟨1, ![E]⟩ : Shape), ⟨1, ![E]⟩] ⟨1, ![M]⟩ 0)
    (a b : (⟨1, ![E]⟩ : Shape).Idx → α) (n : Fin M) (m : Fin E) (h : m.val + E = n.val) :
    concatenate ⟨1, ![M]⟩ 0 [⟨⟨1, ![E]⟩, a⟩, ⟨⟨1, ![E]⟩, b⟩] hc (ix1 n) = b (ix1 m) :=
  concatenate_pair_apply_right 0 a b hc (ix1 n) rfl rfl (ix1 m) (fun b hb => match b with
    | ⟨0, _⟩ => absurd rfl hb) h

end Pieces

/-! ## The general facts the two programs share -/

section Shared

variable {α : Type} {M : Nat}

/-- The jnp normalisation of a whole index vector, read at an index, normalises the word there. -/
theorem norm_apply {t : Shape} (hb : (⟨0, ![]⟩ : Shape).BroadcastsInDim t (![] : Fin 0 → Fin t.rank)) (x : IVec t 32) (i : t.Idx) :
    select (cmpi .slt x (broadcastInDim t ![] hb (constantI ⟨0, ![]⟩ 32 0#32)))
      (addi x (broadcastInDim t ![] hb (constantI ⟨0, ![]⟩ 32 8192#32))) x i = normW (x i) := by
  show Scalar.select (IntOp.cmpi .slt (x i) (broadcastInDim t ![] hb (constantI ⟨0, ![]⟩ 32 0#32) i))
      (IntOp.addi (x i) (broadcastInDim t ![] hb (constantI ⟨0, ![]⟩ 32 8192#32) i)) (x i) = _
  rw [bcast_scalar_apply, bcast_scalar_apply]
  rfl

/-- Two index vectors made the two columns of an index-pair array: row `n` is the pair of their entries at `n`. -/
theorem pairs_apply0 (hb : (⟨1, ![M]⟩ : Shape).BroadcastsInDim ⟨2, ![M, 1]⟩ (![0] : Fin 1 → Fin 2))
    (hc : Shape.Concatenates [(⟨2, ![M, 1]⟩ : Shape), ⟨2, ![M, 1]⟩] ⟨2, ![M, 2]⟩ 1)
    (x y : (⟨1, ![M]⟩ : Shape).Idx → α) (n : Fin M) :
    concatenate ⟨2, ![M, 2]⟩ 1 [⟨⟨2, ![M, 1]⟩, broadcastInDim ⟨2, ![M, 1]⟩ ![0] hb x⟩,
      ⟨⟨2, ![M, 1]⟩, broadcastInDim ⟨2, ![M, 1]⟩ ![0] hb y⟩] hc (ix2 n 0) = x (ix1 n) :=
  (pair_apply0 hc _ _ n).trans (bcast_col_apply hb x n 0)

theorem pairs_apply1 (hb : (⟨1, ![M]⟩ : Shape).BroadcastsInDim ⟨2, ![M, 1]⟩ (![0] : Fin 1 → Fin 2))
    (hc : Shape.Concatenates [(⟨2, ![M, 1]⟩ : Shape), ⟨2, ![M, 1]⟩] ⟨2, ![M, 2]⟩ 1)
    (x y : (⟨1, ![M]⟩ : Shape).Idx → α) (n : Fin M) :
    concatenate ⟨2, ![M, 2]⟩ 1 [⟨⟨2, ![M, 1]⟩, broadcastInDim ⟨2, ![M, 1]⟩ ![0] hb x⟩,
      ⟨⟨2, ![M, 1]⟩, broadcastInDim ⟨2, ![M, 1]⟩ ![0] hb y⟩] hc (ix2 n 1) = y (ix1 n) :=
  (pair_apply1 hc _ _ n).trans (bcast_col_apply hb y n 0)

/-- A word pair lands on the matrix position `(p, q)` when, read signed, the words are `p` and `q`. -/
def Lands (a b : BitVec 32) (p q : Fin 8192) : Prop := a.toInt = (p.val : Int) ∧ b.toInt = (q.val : Int)

/-- Some update of a point scatter lands on `(p, q)` exactly when some row of the index-pair array does. -/
theorem hit_iff (wf : ScatterDims.WF ⟨2, ![8192, 8192]⟩ ⟨2, ![M, 2]⟩ ⟨1, ![M]⟩ [] [0, 1] [0, 1] 1)
    (idx : IVec ⟨2, ![M, 2]⟩ 32) (p q : Fin 8192) :
    (∃ j, (LibScatterSet.pointDims 8192 8192 M wf).resultIdx? j idx = some (ix2 p q)) ↔
      ∃ n : Fin M, Lands (idx (ix2 n 0)) (idx (ix2 n 1)) p q := by
  constructor
  · rintro ⟨j, hj⟩
    exact ⟨j 0, (LibScatterSet.pointDims_resultIdx?_eq_some wf j idx (ix2 p q)).1 hj⟩
  · rintro ⟨n, hn⟩
    exact ⟨ix1 n, (LibScatterSet.pointDims_resultIdx?_eq_some wf (ix1 n) idx (ix2 p q)).2 hn⟩

open Classical in
/-- A point set-scatter of one constant: the constant where some row of the index-pair array lands, the operand elsewhere. -/
theorem setConst_apply (wf : ScatterDims.WF ⟨2, ![8192, 8192]⟩ ⟨2, ![M, 2]⟩ ⟨1, ![M]⟩ [] [0, 1] [0, 1] 1)
    (x : (⟨2, ![8192, 8192]⟩ : Shape).Idx → α) (idx : IVec ⟨2, ![M, 2]⟩ 32) (v : α) (p q : Fin 8192) :
    Host.scatter (LibScatterSet.pointDims 8192 8192 M wf) (fun _ b => b) x idx (fun _ => v) (ix2 p q)
      = if ∃ n : Fin M, Lands (idx (ix2 n 0)) (idx (ix2 n 1)) p q then v else x (ix2 p q) := by
  by_cases h : ∃ n : Fin M, Lands (idx (ix2 n 0)) (idx (ix2 n 1)) p q
  · rw [if_pos h]; exact LibScatterSet.scatter_const_of_hit _ x idx v _ ((hit_iff wf idx p q).2 h)
  · rw [if_neg h]; exact LibScatterSet.scatter_const_of_miss _ x idx v _ (fun h' => h ((hit_iff wf idx p q).1 h'))

end Shared

/-! ## The kernel's adjacency: its host operations composed, in the operations' own spelling -/

section Kernel

open Cert.KernelIdeal Cert.KernelIdeal.Facts₀

variable {F : FTy → Type} [FloatOps F]

abbrev EdgeBuf (F : FTy → Type) : Type := (⟨Cert.KernelIdeal.S2x262144, .i32⟩ : BufTy).Contents (Elt F)

def kv4 (e : EdgeBuf F) : (⟨S1x262144, .i32⟩ : BufTy).Contents (Elt F) :=
  extractStridedSlice S1x262144 ![0, 0] e slices_S2x262144_S1x262144_0_0
def kv5 (e : EdgeBuf F) : (⟨S262144, .i32⟩ : BufTy).Contents (Elt F) :=
  shapeCast S262144 (kv4 (F := F) e) shapeCasts_S1x262144_S262144
def kv6 (e : EdgeBuf F) : (⟨S1x262144, .i32⟩ : BufTy).Contents (Elt F) :=
  extractStridedSlice S1x262144 ![1, 0] e slices_S2x262144_S1x262144_1_0
def kv7 (e : EdgeBuf F) : (⟨S262144, .i32⟩ : BufTy).Contents (Elt F) :=
  shapeCast S262144 (kv6 (F := F) e) shapeCasts_S1x262144_S262144
def kv8 (e : EdgeBuf F) : (⟨S524288, .i32⟩ : BufTy).Contents (Elt F) :=
  concatenate S524288 0 [⟨S262144, kv5 (F := F) e⟩, ⟨S262144, kv7 (F := F) e⟩] concatenates_S262144_S262144_S524288_d0
def kv9 (e : EdgeBuf F) : (⟨S524288, .i32⟩ : BufTy).Contents (Elt F) :=
  concatenate S524288 0 [⟨S262144, kv7 (F := F) e⟩, ⟨S262144, kv5 (F := F) e⟩] concatenates_S262144_S262144_S524288_d0
def kcst : (⟨S_, .f32⟩ : BufTy).Contents (Elt F) := constant S_ .f32 0x00000000#32
def kv10 : (⟨S8192x8192, .f32⟩ : BufTy).Contents (Elt F) :=
  broadcastInDim S8192x8192 ![] bcast_S_S8192x8192 (kcst (F := F))
def kc0 : (⟨S_, .i32⟩ : BufTy).Contents (Elt F) := constantI S_ 32 0#32
def kcN : (⟨S_, .i32⟩ : BufTy).Contents (Elt F) := constantI S_ 32 8192#32
def kv11 : (⟨S524288, .i32⟩ : BufTy).Contents (Elt F) := broadcastInDim S524288 ![] bcast_S_S524288 (kc0 (F := F))
def kv12 (e : EdgeBuf F) : (⟨S524288, .i1⟩ : BufTy).Contents (Elt F) := cmpi .slt (kv8 (F := F) e) (kv11 (F := F))
def kv13 : (⟨S524288, .i32⟩ : BufTy).Contents (Elt F) := broadcastInDim S524288 ![] bcast_S_S524288 (kcN (F := F))
def kv14 (e : EdgeBuf F) : (⟨S524288, .i32⟩ : BufTy).Contents (Elt F) := addi (kv8 (F := F) e) (kv13 (F := F))
def kv15 (e : EdgeBuf F) : (⟨S524288, .i32⟩ : BufTy).Contents (Elt F) :=
  select (kv12 (F := F) e) (kv14 (F := F) e) (kv8 (F := F) e)
def kv17 (e : EdgeBuf F) : (⟨S524288, .i1⟩ : BufTy).Contents (Elt F) := cmpi .slt (kv9 (F := F) e) (kv11 (F := F))
def kv19 (e : EdgeBuf F) : (⟨S524288, .i32⟩ : BufTy).Contents (Elt F) := addi (kv9 (F := F) e) (kv13 (F := F))
def kv20 (e : EdgeBuf F) : (⟨S524288, .i32⟩ : BufTy).Contents (Elt F) :=
  select (kv17 (F := F) e) (kv19 (F := F) e) (kv9 (F := F) e)
def kv21 (e : EdgeBuf F) : (⟨S524288x1, .i32⟩ : BufTy).Contents (Elt F) :=
  broadcastInDim S524288x1 ![0] bcast_S524288_S524288x1_0 (kv15 (F := F) e)
def kv22 (e : EdgeBuf F) : (⟨S524288x1, .i32⟩ : BufTy).Contents (Elt F) :=
  broadcastInDim S524288x1 ![0] bcast_S524288_S524288x1_0 (kv20 (F := F) e)
def kv23 (e : EdgeBuf F) : (⟨S524288x2, .i32⟩ : BufTy).Contents (Elt F) :=
  concatenate S524288x2 1 [⟨S524288x1, kv21 (F := F) e⟩, ⟨S524288x1, kv22 (F := F) e⟩] concatenates_S524288x1_S524288x1_S524288x2_d1
def kone : (⟨S_, .f32⟩ : BufTy).Contents (Elt F) := constant S_ .f32 0x3F800000#32
def kv24 : (⟨S524288, .f32⟩ : BufTy).Contents (Elt F) := broadcastInDim S524288 ![] bcast_S_S524288 (kone (F := F))
def kv25 (e : EdgeBuf F) : (⟨S8192x8192, .f32⟩ : BufTy).Contents (Elt F) :=
  Host.scatter scatter_S8192x8192_S524288x2_S524288_n_01_01_1 (fun _ b => b) (kv10 (F := F)) (kv23 (F := F) e) (kv24 (F := F))
def kv26 : (⟨S8192, .i32⟩ : BufTy).Contents (Elt F) := iotaInDim S8192 32 0
def kv27 : (⟨S8192, .i32⟩ : BufTy).Contents (Elt F) := broadcastInDim S8192 ![] bcast_S_S8192 (kc0 (F := F))
def kv28 : (⟨S8192, .i1⟩ : BufTy).Contents (Elt F) := cmpi .slt (kv26 (F := F)) (kv27 (F := F))
def kv29 : (⟨S8192, .i32⟩ : BufTy).Contents (Elt F) := broadcastInDim S8192 ![] bcast_S_S8192 (kcN (F := F))
def kv30 : (⟨S8192, .i32⟩ : BufTy).Contents (Elt F) := addi (kv26 (F := F)) (kv29 (F := F))
def kv31 : (⟨S8192, .i32⟩ : BufTy).Contents (Elt F) := select (kv28 (F := F)) (kv30 (F := F)) (kv26 (F := F))
def kv37 : (⟨S8192x1, .i32⟩ : BufTy).Contents (Elt F) := broadcastInDim S8192x1 ![0] bcast_S8192_S8192x1_0 (kv31 (F := F))
def kv39 : (⟨S8192x2, .i32⟩ : BufTy).Contents (Elt F) :=
  concatenate S8192x2 1 [⟨S8192x1, kv37 (F := F)⟩, ⟨S8192x1, kv37 (F := F)⟩] concatenates_S8192x1_S8192x1_S8192x2_d1
def kv40 : (⟨S8192, .f32⟩ : BufTy).Contents (Elt F) := broadcastInDim S8192 ![] bcast_S_S8192 (kone (F := F))
def kv41 (e : EdgeBuf F) : (⟨S8192x8192, .f32⟩ : BufTy).Contents (Elt F) :=
  Host.scatterAdd scatter_S8192x8192_S8192x2_S8192_n_01_01_1 (kv25 (F := F) e) (kv39 (F := F)) (kv40 (F := F))

end Kernel

/-- THE KERNEL'S ADJACENCY, as a function of the edge list: the composition of its host operations up to the accumulating
    scatter on the diagonal. -/
def adjK (e : (⟨Cert.KernelIdeal.S2x262144, .i32⟩ : BufTy).Contents (Elt Ideal)) :
    (⟨Cert.KernelIdeal.S8192x8192, .f32⟩ : BufTy).Contents (Elt Ideal) :=
  kv41 (F := Ideal) e

/-! ## The kernel's matrix, entry by entry -/

section KernelReads

open Cert.KernelIdeal Cert.KernelIdeal.Facts₀

variable {F : FTy → Type} [FloatOps F]

/-- The source list of an edge, as the kernel slices it. -/
abbrev rowK (e : EdgeBuf F) (m : Fin 262144) : BitVec 32 := kv5 (F := F) e (ix1 m)
/-- The target list of an edge, as the kernel slices it. -/
abbrev colK (e : EdgeBuf F) (m : Fin 262144) : BitVec 32 := kv7 (F := F) e (ix1 m)

theorem kv23_apply0 (e : EdgeBuf F) (n : Fin 524288) : kv23 (F := F) e (ix2 n 0) = normW (kv8 (F := F) e (ix1 n)) :=
  (pairs_apply0 bcast_S524288_S524288x1_0 concatenates_S524288x1_S524288x1_S524288x2_d1 (kv15 (F := F) e) (kv20 (F := F) e) n).trans
    (norm_apply bcast_S_S524288 (kv8 (F := F) e) (ix1 n))

theorem kv23_apply1 (e : EdgeBuf F) (n : Fin 524288) : kv23 (F := F) e (ix2 n 1) = normW (kv9 (F := F) e (ix1 n)) :=
  (pairs_apply1 bcast_S524288_S524288x1_0 concatenates_S524288x1_S524288x1_S524288x2_d1 (kv15 (F := F) e) (kv20 (F := F) e) n).trans
    (norm_apply bcast_S_S524288 (kv9 (F := F) e) (ix1 n))

theorem kv8_lo (e : EdgeBuf F) (n : Fin 524288) (m : Fin 262144) (h : m.val = n.val) : kv8 (F := F) e (ix1 n) = rowK e m :=
  cat_apply_lo concatenates_S262144_S262144_S524288_d0 (kv5 (F := F) e) (kv7 (F := F) e) n m h
theorem kv8_hi (e : EdgeBuf F) (n : Fin 524288) (m : Fin 262144) (h : m.val + 262144 = n.val) : kv8 (F := F) e (ix1 n) = colK e m :=
  cat_apply_hi concatenates_S262144_S262144_S524288_d0 (kv5 (F := F) e) (kv7 (F := F) e) n m h
theorem kv9_lo (e : EdgeBuf F) (n : Fin 524288) (m : Fin 262144) (h : m.val = n.val) : kv9 (F := F) e (ix1 n) = colK e m :=
  cat_apply_lo concatenates_S262144_S262144_S524288_d0 (kv7 (F := F) e) (kv5 (F := F) e) n m h
theorem kv9_hi (e : EdgeBuf F) (n : Fin 524288) (m : Fin 262144) (h : m.val + 262144 = n.val) : kv9 (F := F) e (ix1 n) = rowK e m :=
  cat_apply_hi concatenates_S262144_S262144_S524288_d0 (kv7 (F := F) e) (kv5 (F := F) e) n m h

/-- Some edge, in either direction, names the position `(p, q)`. -/
def Edge (e : EdgeBuf F) (p q : Fin 8192) : Prop :=
  (∃ m : Fin 262144, Lands (normW (rowK e m)) (normW (colK e m)) p q) ∨
    ∃ m : Fin 262144, Lands (normW (colK e m)) (normW (rowK e m)) p q

/-- The positions the kernel's concatenated pair list hits are those some edge names, in either direction. -/
theorem hitK_iff (e : EdgeBuf F) (p q : Fin 8192) :
    (∃ n : Fin 524288, Lands (kv23 (F := F) e (ix2 n 0)) (kv23 (F := F) e (ix2 n 1)) p q) ↔ Edge e p q := by
  constructor
  · rintro ⟨n, hn⟩
    rw [kv23_apply0, kv23_apply1] at hn
    by_cases hlt : n.val < 262144
    · left
      refine ⟨⟨n.val, hlt⟩, ?_⟩
      rw [kv8_lo e n ⟨n.val, hlt⟩ rfl, kv9_lo e n ⟨n.val, hlt⟩ rfl] at hn
      exact hn
    · right
      have hn' := n.isLt
      have hm : n.val - 262144 < 262144 := by omega
      have he : (⟨n.val - 262144, hm⟩ : Fin 262144).val + 262144 = n.val := by show n.val - 262144 + 262144 = n.val; omega
      refine ⟨⟨n.val - 262144, hm⟩, ?_⟩
      rw [kv8_hi e n _ he, kv9_hi e n _ he] at hn
      exact hn
  · rintro (⟨m, hm⟩ | ⟨m, hm⟩)
    · have hm' := m.isLt
      refine ⟨⟨m.val, by omega⟩, ?_⟩
      rw [kv23_apply0, kv23_apply1, kv8_lo e _ m rfl, kv9_lo e _ m rfl]
      exact hm
    · have hm' := m.isLt
      refine ⟨⟨m.val + 262144, by omega⟩, ?_⟩
      rw [kv23_apply0, kv23_apply1, kv8_hi e _ m rfl, kv9_hi e _ m rfl]
      exact hm

/-- The constant the scatters write and the diagonal adds: the pattern of `1.0`. -/
abbrev oneF (F : FTy → Type) [FloatOps F] : F .f32 := FloatOps.ofBits .f32 0x3F800000#32
/-- The constant the matrix starts from: the pattern of `0.0`. -/
abbrev zeroF (F : FTy → Type) [FloatOps F] : F .f32 := FloatOps.ofBits .f32 0x00000000#32

theorem kv24_eq : kv24 (F := F) = fun _ => oneF F :=
  funext fun j => bcast_scalar_apply S524288 bcast_S_S524288 (kone (F := F)) j
theorem kv40_apply (j : S8192.Idx) : kv40 (F := F) j = oneF F :=
  bcast_scalar_apply S8192 bcast_S_S8192 (kone (F := F)) j
theorem kv10_apply (i : S8192x8192.Idx) : kv10 (F := F) i = zeroF F :=
  bcast_scalar_apply S8192x8192 bcast_S_S8192x8192 (kcst (F := F)) i

open Classical in
/-- The kernel's set-scatter: one where some edge names the position, zero elsewhere. -/
theorem kv25_apply (e : EdgeBuf F) (p q : Fin 8192) :
    kv25 (F := F) e (ix2 p q) = if Edge e p q then oneF F else zeroF F := by
  have h : kv25 (F := F) e (ix2 p q) =
      Host.scatter (LibScatterSet.pointDims 8192 8192 524288 scatter_S8192x8192_S524288x2_S524288_n_01_01_1_wf)
        (fun _ b => b) (kv10 (F := F)) (kv23 (F := F) e) (fun _ => oneF F) (ix2 p q) := by
    rw [← kv24_eq]; rfl
  rw [h, setConst_apply, kv10_apply]
  by_cases hE : Edge e p q
  · rw [if_pos hE, if_pos ((hitK_iff e p q).2 hE)]
  · rw [if_neg hE, if_neg (fun h' => hE ((hitK_iff e p q).1 h'))]

/-- The diagonal's index-pair array: row `n` is `(n, n)`. -/
theorem kv39_apply (n : Fin 8192) (c : Fin 2) : kv39 (F := F) (ix2 n c) = BitVec.ofNat 32 n.val := by
  have h31 : kv31 (F := F) (ix1 n) = BitVec.ofNat 32 n.val :=
    (norm_apply bcast_S_S8192 (kv26 (F := F)) (ix1 n)).trans (normW_ofNat_node n.val n.isLt)
  match c with
  | ⟨0, _⟩ =>
    exact (pairs_apply0 bcast_S8192_S8192x1_0 concatenates_S8192x1_S8192x1_S8192x2_d1 (kv31 (F := F)) (kv31 (F := F)) n).trans h31
  | ⟨1, _⟩ =>
    exact (pairs_apply1 bcast_S8192_S8192x1_0 concatenates_S8192x1_S8192x1_S8192x2_d1 (kv31 (F := F)) (kv31 (F := F)) n).trans h31

/-- A diagonal update `n` lands on `(p, q)` exactly when `n = p = q`. -/
theorem diag_lands (n p q : Fin 8192) :
    Lands (kv39 (F := F) (ix2 n 0)) (kv39 (F := F) (ix2 n 1)) p q ↔ n = p ∧ n = q := by
  unfold Lands
  rw [kv39_apply, kv39_apply, toInt_ofNat_node n.val n.isLt]
  constructor
  · rintro ⟨h0, h1⟩; exact ⟨Fin.ext (by omega), Fin.ext (by omega)⟩
  · rintro ⟨rfl, rfl⟩; exact ⟨rfl, rfl⟩

end KernelReads

/-! ## The reference's matrix, entry by entry -/

section RefReads

open Cert.ReferenceIdeal Cert.ReferenceIdeal.Facts₀ Cert.ReferenceIdeal.Read

variable {F : FTy → Type} [FloatOps F]

theorem v21_apply0 (e : EdgeBuf F) (n : Fin 262144) : val_main_v21 (F := F) e (ix2 n 0) = normW (rowK e n) :=
  (pairs_apply0 bcast_S262144_S262144x1_0 concatenates_S262144x1_S262144x1_S262144x2_d1 (val_main_v13 (F := F) e) (val_main_v18 (F := F) e) n).trans
    (norm_apply bcast_S_S262144 (val_main_v5 (F := F) e) (ix1 n))
theorem v21_apply1 (e : EdgeBuf F) (n : Fin 262144) : val_main_v21 (F := F) e (ix2 n 1) = normW (colK e n) :=
  (pairs_apply1 bcast_S262144_S262144x1_0 concatenates_S262144x1_S262144x1_S262144x2_d1 (val_main_v13 (F := F) e) (val_main_v18 (F := F) e) n).trans
    (norm_apply bcast_S_S262144 (val_main_v7 (F := F) e) (ix1 n))
theorem v36_apply0 (e : EdgeBuf F) (n : Fin 262144) : val_main_v36 (F := F) e (ix2 n 0) = normW (colK e n) :=
  (pairs_apply0 bcast_S262144_S262144x1_0 concatenates_S262144x1_S262144x1_S262144x2_d1 (val_main_v28 (F := F) e) (val_main_v33 (F := F) e) n).trans
    (norm_apply bcast_S_S262144 (val_main_v7 (F := F) e) (ix1 n))
theorem v36_apply1 (e : EdgeBuf F) (n : Fin 262144) : val_main_v36 (F := F) e (ix2 n 1) = normW (rowK e n) :=
  (pairs_apply1 bcast_S262144_S262144x1_0 concatenates_S262144x1_S262144x1_S262144x2_d1 (val_main_v28 (F := F) e) (val_main_v33 (F := F) e) n).trans
    (norm_apply bcast_S_S262144 (val_main_v5 (F := F) e) (ix1 n))

theorem v22_eq : val_main_v22 (F := F) = fun _ => oneF F :=
  funext fun j => bcast_scalar_apply S262144 bcast_S_S262144 (val_main_cst_3 (F := F)) j
theorem v37_eq : val_main_v37 (F := F) = fun _ => oneF F :=
  funext fun j => bcast_scalar_apply S262144 bcast_S_S262144 (val_main_cst_8 (F := F)) j
theorem v8_apply (i : S8192x8192.Idx) : val_main_v8 (F := F) i = zeroF F :=
  bcast_scalar_apply S8192x8192 bcast_S_S8192x8192 (val_main_cst (F := F)) i

/-- Some edge, source to target, names the position. -/
def Fwd (e : EdgeBuf F) (p q : Fin 8192) : Prop := ∃ m : Fin 262144, Lands (normW (rowK e m)) (normW (colK e m)) p q
/-- Some edge, target to source, names the position. -/
def Bwd (e : EdgeBuf F) (p q : Fin 8192) : Prop := ∃ m : Fin 262144, Lands (normW (colK e m)) (normW (rowK e m)) p q

theorem edge_iff (e : EdgeBuf F) (p q : Fin 8192) : Edge e p q ↔ Fwd e p q ∨ Bwd e p q := Iff.rfl

open Classical in
/-- The reference's first set-scatter: one where a source-to-target edge names the position, zero elsewhere. -/
theorem v23_apply (e : EdgeBuf F) (p q : Fin 8192) :
    val_main_v23 (F := F) e (ix2 p q) = if Fwd e p q then oneF F else zeroF F := by
  have h : val_main_v23 (F := F) e (ix2 p q) =
      Host.scatter (LibScatterSet.pointDims 8192 8192 262144 scatter_S8192x8192_S262144x2_S262144_n_01_01_1_wf)
        (fun _ b => b) (val_main_v8 (F := F)) (val_main_v21 (F := F) e) (fun _ => oneF F) (ix2 p q) := by
    rw [← v22_eq]; rfl
  have hiff : (∃ n : Fin 262144, Lands (val_main_v21 (F := F) e (ix2 n 0)) (val_main_v21 (F := F) e (ix2 n 1)) p q) ↔ Fwd e p q :=
    exists_congr fun n => by rw [v21_apply0, v21_apply1]
  rw [h, setConst_apply, v8_apply]
  by_cases hE : Fwd e p q
  · rw [if_pos hE, if_pos (hiff.2 hE)]
  · rw [if_neg hE, if_neg (fun h' => hE (hiff.1 h'))]

open Classical in
/-- The reference's second set-scatter: one where a target-to-source edge names the position, the first scatter's elsewhere. -/
theorem v38_apply (e : EdgeBuf F) (p q : Fin 8192) :
    val_main_v38 (F := F) e (ix2 p q) = if Bwd e p q then oneF F else val_main_v23 (F := F) e (ix2 p q) := by
  have h : val_main_v38 (F := F) e (ix2 p q) =
      Host.scatter (LibScatterSet.pointDims 8192 8192 262144 scatter_S8192x8192_S262144x2_S262144_n_01_01_1_wf)
        (fun _ b => b) (val_main_v23 (F := F) e) (val_main_v36 (F := F) e) (fun _ => oneF F) (ix2 p q) := by
    rw [← v37_eq]; rfl
  have hiff : (∃ n : Fin 262144, Lands (val_main_v36 (F := F) e (ix2 n 0)) (val_main_v36 (F := F) e (ix2 n 1)) p q) ↔ Bwd e p q :=
    exists_congr fun n => by rw [v36_apply0, v36_apply1]
  rw [h, setConst_apply]
  by_cases hE : Bwd e p q
  · rw [if_pos hE, if_pos (hiff.2 hE)]
  · rw [if_neg hE, if_neg (fun h' => hE (hiff.1 h'))]

/-- The reference's identity matrix: the number one where the coordinates agree, zero elsewhere. -/
theorem v44_apply (p q : Fin 8192) :
    val_main_v44 (F := Ideal) (ix2 p q) = if p = q then ((1 : ℝ) : EReal) else ((0 : ℝ) : EReal) := by
  have h41 : val_main_v41 (F := Ideal) (ix2 p q) = 0#32 :=
    bcast_scalar_apply S8192x8192 bcast_S_S8192x8192 (val_main_c_9 (F := Ideal)) (ix2 p q)
  have h : val_main_v44 (F := Ideal) (ix2 p q) =
      (((IntOp.cmpi .eq (IntOp.addi (BitVec.ofNat 32 p.val) (val_main_v41 (F := Ideal) (ix2 p q))) (BitVec.ofNat 32 q.val)).toNat : ℝ) : EReal) := rfl
  rw [h, h41]
  unfold IntOp.cmpi IntOp.addi
  have hp := p.isLt
  have hq := q.isLt
  by_cases hpq : p = q
  · subst hpq; simp
  · have hne : ¬ (BitVec.ofNat 32 p.val = BitVec.ofNat 32 q.val) := by
      intro hh
      have := congrArg BitVec.toNat hh
      simp only [BitVec.toNat_ofNat] at this
      exact hpq (Fin.ext (by omega))
    simp [hne, hpq]

end RefReads

/-! ## The two matrices agree -/

section Main

open Cert.KernelIdeal Cert.KernelIdeal.Facts₀

/-- The diagonal updates landing on `(p, q)`: the one update `p` when `p = q`, none otherwise. -/
theorem diag_sum (p q : Fin 8192)
    [DecidablePred fun j : S8192.Idx => scatter_S8192x8192_S8192x2_S8192_n_01_01_1.resultIdx? j (kv39 (F := Ideal)) = some (ix2 p q)] :
    (∑ j ∈ Finset.univ.filter (fun j : S8192.Idx =>
        scatter_S8192x8192_S8192x2_S8192_n_01_01_1.resultIdx? j (kv39 (F := Ideal)) = some (ix2 p q)), kv40 (F := Ideal) j)
      = if p = q then oneF Ideal else 0 := by
  have hP : ∀ n : Fin 8192, scatter_S8192x8192_S8192x2_S8192_n_01_01_1.resultIdx? (ix1 n) (kv39 (F := Ideal)) = some (ix2 p q)
      ↔ n = p ∧ n = q := fun n =>
    (LibScatterSet.pointDims_resultIdx?_eq_some scatter_S8192x8192_S8192x2_S8192_n_01_01_1_wf (ix1 n) (kv39 (F := Ideal)) (ix2 p q)).trans
      (diag_lands n p q)
  by_cases h : p = q
  · subst h
    rw [if_pos rfl]
    have hs : Finset.univ.filter (fun j : S8192.Idx =>
        scatter_S8192x8192_S8192x2_S8192_n_01_01_1.resultIdx? j (kv39 (F := Ideal)) = some (ix2 p p)) = {ix1 p} := by
      ext j
      obtain ⟨n, rfl⟩ : ∃ n : Fin 8192, j = ix1 n := ⟨j 0, eq_ix1 j⟩
      rw [Finset.mem_filter, Finset.mem_singleton, hP n]
      constructor
      · rintro ⟨_, rfl, _⟩; rfl
      · intro hj
        have hn : n = p := congrArg (fun f : S8192.Idx => f 0) hj
        subst hn
        exact ⟨Finset.mem_univ _, rfl, rfl⟩
    rw [hs, Finset.sum_singleton, kv40_apply]
  · rw [if_neg h]
    refine Finset.sum_eq_zero fun j hj => ?_
    obtain ⟨n, rfl⟩ : ∃ n : Fin 8192, j = ix1 n := ⟨j 0, eq_ix1 j⟩
    have := (hP n).1 (Finset.mem_filter.1 hj).2
    exact absurd (this.1.symm.trans this.2) h

open Classical in
/-- THE KERNEL'S ADJACENCY, entry by entry: one where some edge, in either direction, names the position, plus one on the
    diagonal. -/
theorem adjK_apply (e : EdgeBuf Ideal) (p q : Fin 8192) :
    adjK e (ix2 p q) = (if Edge e p q then oneF Ideal else zeroF Ideal) + (if p = q then oneF Ideal else 0) := by
  have h : adjK e = Ideal.hostScatterAdd scatter_S8192x8192_S8192x2_S8192_n_01_01_1 (kv25 (F := Ideal) e) (kv39 (F := Ideal))
      (kv40 (F := Ideal)) := rfl
  rw [h]
  unfold Ideal.hostScatterAdd
  rw [kv25_apply, diag_sum]

open Classical in
/-- THE REFERENCE'S ADJACENCY, entry by entry. -/
theorem refA_apply (e : EdgeBuf Ideal) (p q : Fin 8192) :
    Cert.ReferenceIdeal.Read.val_main_v45 (F := Ideal) e (ix2 p q) =
      (if Bwd e p q then oneF Ideal else if Fwd e p q then oneF Ideal else zeroF Ideal)
        + (if p = q then ((1 : ℝ) : EReal) else ((0 : ℝ) : EReal)) := by
  have h : Cert.ReferenceIdeal.Read.val_main_v45 (F := Ideal) e (ix2 p q) =
      Cert.ReferenceIdeal.Read.val_main_v38 (F := Ideal) e (ix2 p q) + Cert.ReferenceIdeal.Read.val_main_v44 (F := Ideal) (ix2 p q) := rfl
  rw [h, v38_apply, v23_apply, v44_apply]

/-- The constant the scatters write is the number one. -/
theorem oneF_eq : oneF Ideal = ((1 : ℝ) : EReal) := Cert.Bridge.Law.ofBits_one
/-- The constant the matrix starts from is the number zero. -/
theorem zeroF_eq : zeroF Ideal = ((0 : ℝ) : EReal) := Cert.Bridge.Law.ofBits_zero.trans EReal.coe_zero.symm

/-- THE TWO ADJACENCY MATRICES ARE ONE MATRIX. -/
theorem adj_eq (e : (⟨Cert.KernelIdeal.S2x262144, .i32⟩ : BufTy).Contents (Elt Ideal)) :
    adjK e = Cert.ReferenceIdeal.Read.val_main_v45 (F := Ideal) e := by
  classical
  funext i
  obtain ⟨p, q, rfl⟩ : ∃ p q : Fin 8192, i = ix2 p q := ⟨i 0, i 1, eq_ix2 i⟩
  rw [adjK_apply, refA_apply, oneF_eq]
  congr 1
  · by_cases hb : Bwd e p q
    · rw [if_pos hb, if_pos ((edge_iff e p q).2 (Or.inr hb))]
    · by_cases hf : Fwd e p q
      · rw [if_neg hb, if_pos hf, if_pos ((edge_iff e p q).2 (Or.inl hf))]
      · rw [if_neg hb, if_neg hf, if_neg (fun h => (((edge_iff e p q).1 h).elim hf hb))]

/-- Every entry of the adjacency is a real number that is not negative (it is `0`, `1` or `2`). -/
theorem adj_real (e : (⟨Cert.KernelIdeal.S2x262144, .i32⟩ : BufTy).Contents (Elt Ideal)) (i : Cert.KernelIdeal.S8192x8192.Idx) :
    ∃ r : ℝ, 0 ≤ r ∧ adjK e i = (r : EReal) := by
  classical
  obtain ⟨p, q, rfl⟩ : ∃ p q : Fin 8192, i = ix2 p q := ⟨i 0, i 1, eq_ix2 i⟩
  rw [adjK_apply, oneF_eq, zeroF_eq]
  by_cases hE : Edge e p q <;> by_cases hpq : p = q
  · rw [if_pos hE, if_pos hpq]; exact ⟨1 + 1, by norm_num, (EReal.coe_add 1 1).symm⟩
  · rw [if_pos hE, if_neg hpq]; exact ⟨1, by norm_num, add_zero _⟩
  · rw [if_neg hE, if_pos hpq]; exact ⟨0 + 1, by norm_num, (EReal.coe_add 0 1).symm⟩
  · rw [if_neg hE, if_neg hpq]; exact ⟨0, le_refl _, add_zero _⟩

end Main

end Cert.Bridge.Adj
-- ==== Proof.HostStretch.lean ====
/-
  What the kernel program's host stretch between its first and second launch leaves in the buffers the later stages read: the
  adjacency matrix (and its narrowed copy, the same numbers), the reciprocal of each row's clamped sum, the scaled first-hop
  features and the narrowed features. The stretch is a straight line of 64 tensor operations; the buffer contents after it are
  computed stage by stage — the line cut before each concatenation, so that a concatenation's operands are buffers of the stage
  before — and each stage's result is the composition of its operations' functions.
-/
import proofs.«108811_j10385230921953_2_alg».proof.Proof.Adjacency
import proofs.«108811_j10385230921953_2_alg».proof.Proof.Gen.KernelIdeal.Launch
import Idealize.ShloMosaic.Lib.StableHlo.Run

noncomputable section

namespace Cert.Bridge.Host

open Idealize.ShloMosaic Idealize.ShloMosaic.TcCoe Idealize.ShloMosaic.ValueIdx
open Cert.KernelIdeal Cert.KernelIdeal.Gen Idealize.ShloMosaic.StableHlo
open Cert.Bridge.Adj

/-- A line run in two parts: the second part from what the first leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

section Lists

variable {F : FTy → Type} [FloatOps F]

/-- The two halves of the edge list, sliced and flattened. -/
abbrev LA : List (HloOp τ sig (Elt F)) :=
  ( StableHlo.unary main_arg1 main_v4 ((extractStridedSlice S1x262144 ![0, 0] · slices_S2x262144_S1x262144_0_0) : (⟨S2x262144, .i32⟩ : BufTy).Contents (Elt F) → (⟨S1x262144, .i32⟩ : BufTy).Contents (Elt F))
  :: StableHlo.reshape main_v4 main_v5 rfl shapeCasts_S1x262144_S262144
  :: StableHlo.unary main_arg1 main_v6 ((extractStridedSlice S1x262144 ![1, 0] · slices_S2x262144_S1x262144_1_0) : (⟨S2x262144, .i32⟩ : BufTy).Contents (Elt F) → (⟨S1x262144, .i32⟩ : BufTy).Contents (Elt F))
  :: StableHlo.reshape main_v6 main_v7 rfl shapeCasts_S1x262144_S262144
  :: [] )

/-- The concatenated, normalised index vectors, as columns; the zero matrix. -/
abbrev LB : List (HloOp τ sig (Elt F)) :=
  ( StableHlo.binary main_v5 main_v7 main_v8 ((fun a b => concatenate S524288 0 [⟨S262144, a⟩, ⟨S262144, b⟩] concatenates_S262144_S262144_S524288_d0) : (⟨S262144, .i32⟩ : BufTy).Contents (Elt F) → (⟨S262144, .i32⟩ : BufTy).Contents (Elt F) → (⟨S524288, .i32⟩ : BufTy).Contents (Elt F))
  :: StableHlo.binary main_v7 main_v5 main_v9 ((fun a b => concatenate S524288 0 [⟨S262144, a⟩, ⟨S262144, b⟩] concatenates_S262144_S262144_S524288_d0) : (⟨S262144, .i32⟩ : BufTy).Contents (Elt F) → (⟨S262144, .i32⟩ : BufTy).Contents (Elt F) → (⟨S524288, .i32⟩ : BufTy).Contents (Elt F))
  :: StableHlo.nullary main_cst (constant S_ .f32 0x00000000#32)
  :: StableHlo.unary main_cst main_v10 (broadcastInDim S8192x8192 ![] bcast_S_S8192x8192 : (⟨S_, .f32⟩ : BufTy).Contents (Elt F) → (⟨S8192x8192, .f32⟩ : BufTy).Contents (Elt F))
  :: StableHlo.nullary main_c (constantI S_ 32 0#32)
  :: StableHlo.unary main_c main_v11 (broadcastInDim S524288 ![] bcast_S_S524288 : (⟨S_, .i32⟩ : BufTy).Contents (Elt F) → (⟨S524288, .i32⟩ : BufTy).Contents (Elt F))
  :: StableHlo.binary main_v8 main_v11 main_v12 (cmpi .slt : (⟨S524288, .i32⟩ : BufTy).Contents (Elt F) → (⟨S524288, .i32⟩ : BufTy).Contents (Elt F) → (⟨S524288, .i1⟩ : BufTy).Contents (Elt F))
  :: StableHlo.nullary main_c_0 (constantI S_ 32 8192#32)
  :: StableHlo.unary main_c_0 main_v13 (broadcastInDim S524288 ![] bcast_S_S524288 : (⟨S_, .i32⟩ : BufTy).Contents (Elt F) → (⟨S524288, .i32⟩ : BufTy).Contents (Elt F))
  :: StableHlo.binary main_v8 main_v13 main_v14 (addi : (⟨S524288, .i32⟩ : BufTy).Contents (Elt F) → (⟨S524288, .i32⟩ : BufTy).Contents (Elt F) → (⟨S524288, .i32⟩ : BufTy).Contents (Elt F))
  :: StableHlo.ternary main_v12 main_v14 main_v8 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F))
  :: StableHlo.nullary main_c_1 (constantI S_ 32 0#32)
  :: StableHlo.unary main_c_1 main_v16 (broadcastInDim S524288 ![] bcast_S_S524288 : (⟨S_, .i32⟩ : BufTy).Contents (Elt F) → (⟨S524288, .i32⟩ : BufTy).Contents (Elt F))
  :: StableHlo.binary main_v9 main_v16 main_v17 (cmpi .slt : (⟨S524288, .i32⟩ : BufTy).Contents (Elt F) → (⟨S524288, .i32⟩ : BufTy).Contents (Elt F) → (⟨S524288, .i1⟩ : BufTy).Contents (Elt F))
  :: StableHlo.nullary main_c_2 (constantI S_ 32 8192#32)
  :: StableHlo.unary main_c_2 main_v18 (broadcastInDim S524288 ![] bcast_S_S524288 : (⟨S_, .i32⟩ : BufTy).Contents (Elt F) → (⟨S524288, .i32⟩ : BufTy).Contents (Elt F))
  :: StableHlo.binary main_v9 main_v18 main_v19 (addi : (⟨S524288, .i32⟩ : BufTy).Contents (Elt F) → (⟨S524288, .i32⟩ : BufTy).Contents (Elt F) → (⟨S524288, .i32⟩ : BufTy).Contents (Elt F))
  :: StableHlo.ternary main_v17 main_v19 main_v9 main_v20 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F))
  :: StableHlo.unary main_v15 main_v21 (broadcastInDim S524288x1 ![0] bcast_S524288_S524288x1_0 : (⟨S524288, .i32⟩ : BufTy).Contents (Elt F) → (⟨S524288x1, .i32⟩ : BufTy).Contents (Elt F))
  :: StableHlo.unary main_v20 main_v22 (broadcastInDim S524288x1 ![0] bcast_S524288_S524288x1_0 : (⟨S524288, .i32⟩ : BufTy).Contents (Elt F) → (⟨S524288x1, .i32⟩ : BufTy).Contents (Elt F))
  :: [] )

/-- The index-pair array and the set-scatter; the diagonal's index vectors, as columns. -/
abbrev LC : List (HloOp τ sig (Elt F)) :=
  ( StableHlo.binary main_v21 main_v22 main_v23 ((fun a b => concatenate S524288x2 1 [⟨S524288x1, a⟩, ⟨S524288x1, b⟩] concatenates_S524288x1_S524288x1_S524288x2_d1) : (⟨S524288x1, .i32⟩ : BufTy).Contents (Elt F) → (⟨S524288x1, .i32⟩ : BufTy).Contents (Elt F) → (⟨S524288x2, .i32⟩ : BufTy).Contents (Elt F))
  :: StableHlo.nullary main_cst_3 (constant S_ .f32 0x3F800000#32)
  :: StableHlo.unary main_cst_3 main_v24 (broadcastInDim S524288 ![] bcast_S_S524288 : (⟨S_, .f32⟩ : BufTy).Contents (Elt F) → (⟨S524288, .f32⟩ : BufTy).Contents (Elt F))
  :: StableHlo.ternary main_v10 main_v23 main_v24 main_v25 ((fun x i u => Host.scatter scatter_S8192x8192_S524288x2_S524288_n_01_01_1 (fun _ b => b) x i u) : (⟨S8192x8192, .f32⟩ : BufTy).Contents (Elt F) → (⟨S524288x2, .i32⟩ : BufTy).Contents (Elt F) → (⟨S524288, .f32⟩ : BufTy).Contents (Elt F) → (⟨S8192x8192, .f32⟩ : BufTy).Contents (Elt F))
  :: StableHlo.nullary main_v26 (iotaInDim S8192 32 0)
  :: StableHlo.nullary main_c_4 (constantI S_ 32 0#32)
  :: StableHlo.unary main_c_4 main_v27 (broadcastInDim S8192 ![] bcast_S_S8192 : (⟨S_, .i32⟩ : BufTy).Contents (Elt F) → (⟨S8192, .i32⟩ : BufTy).Contents (Elt F))
  :: StableHlo.binary main_v26 main_v27 main_v28 (cmpi .slt : (⟨S8192, .i32⟩ : BufTy).Contents (Elt F) → (⟨S8192, .i32⟩ : BufTy).Contents (Elt F) → (⟨S8192, .i1⟩ : BufTy).Contents (Elt F))
  :: StableHlo.nullary main_c_5 (constantI S_ 32 8192#32)
  :: StableHlo.unary main_c_5 main_v29 (broadcastInDim S8192 ![] bcast_S_S8192 : (⟨S_, .i32⟩ : BufTy).Contents (Elt F) → (⟨S8192, .i32⟩ : BufTy).Contents (Elt F))
  :: StableHlo.binary main_v26 main_v29 main_v30 (addi : (⟨S8192, .i32⟩ : BufTy).Contents (Elt F) → (⟨S8192, .i32⟩ : BufTy).Contents (Elt F) → (⟨S8192, .i32⟩ : BufTy).Contents (Elt F))
  :: StableHlo.ternary main_v28 main_v30 main_v26 main_v31 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.nullary main_c_6 (constantI S_ 32 0#32)
  :: StableHlo.unary main_c_6 main_v32 (broadcastInDim S8192 ![] bcast_S_S8192 : (⟨S_, .i32⟩ : BufTy).Contents (Elt F) → (⟨S8192, .i32⟩ : BufTy).Contents (Elt F))
  :: StableHlo.binary main_v26 main_v32 main_v33 (cmpi .slt : (⟨S8192, .i32⟩ : BufTy).Contents (Elt F) → (⟨S8192, .i32⟩ : BufTy).Contents (Elt F) → (⟨S8192, .i1⟩ : BufTy).Contents (Elt F))
  :: StableHlo.nullary main_c_7 (constantI S_ 32 8192#32)
  :: StableHlo.unary main_c_7 main_v34 (broadcastInDim S8192 ![] bcast_S_S8192 : (⟨S_, .i32⟩ : BufTy).Contents (Elt F) → (⟨S8192, .i32⟩ : BufTy).Contents (Elt F))
  :: StableHlo.binary main_v26 main_v34 main_v35 (addi : (⟨S8192, .i32⟩ : BufTy).Contents (Elt F) → (⟨S8192, .i32⟩ : BufTy).Contents (Elt F) → (⟨S8192, .i32⟩ : BufTy).Contents (Elt F))
  :: StableHlo.ternary main_v33 main_v35 main_v26 main_v36 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v31 main_v37 (broadcastInDim S8192x1 ![0] bcast_S8192_S8192x1_0 : (⟨S8192, .i32⟩ : BufTy).Contents (Elt F) → (⟨S8192x1, .i32⟩ : BufTy).Contents (Elt F))
  :: StableHlo.unary main_v36 main_v38 (broadcastInDim S8192x1 ![0] bcast_S8192_S8192x1_0 : (⟨S8192, .i32⟩ : BufTy).Contents (Elt F) → (⟨S8192x1, .i32⟩ : BufTy).Contents (Elt F))
  :: [] )

/-- The diagonal's index-pair array and the accumulating scatter; the row sums' reciprocals; the scaled features. -/
abbrev LD : List (HloOp τ sig (Elt F)) :=
  ( StableHlo.binary main_v37 main_v38 main_v39 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F))
  :: StableHlo.nullary main_cst_8 (constant S_ .f32 0x3F800000#32)
  :: StableHlo.unary main_cst_8 main_v40 (broadcastInDim S8192 ![] bcast_S_S8192 : (⟨S_, .f32⟩ : BufTy).Contents (Elt F) → (⟨S8192, .f32⟩ : BufTy).Contents (Elt F))
  :: StableHlo.ternary main_v25 main_v39 main_v40 main_v41 ((fun x i u => Host.scatterAdd scatter_S8192x8192_S8192x2_S8192_n_01_01_1 x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F))
  :: StableHlo.nullary main_cst_9 (constant S_ .f32 0x00000000#32)
  :: StableHlo.binary main_v41 main_cst_9 main_v42 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F))
  :: StableHlo.unary main_v42 main_v43 (broadcastInDim S8192x1 ![0] bcast_S8192_S8192x1_0 : (⟨S8192, .f32⟩ : BufTy).Contents (Elt F) → (⟨S8192x1, .f32⟩ : BufTy).Contents (Elt F))
  :: StableHlo.nullary main_cst_10 (constant S_ .f32 0x3F800000#32)
  :: StableHlo.unary main_cst_10 main_v44 (broadcastInDim S8192x1 ![] bcast_S_S8192x1 : (⟨S_, .f32⟩ : BufTy).Contents (Elt F) → (⟨S8192x1, .f32⟩ : BufTy).Contents (Elt F))
  :: StableHlo.binary main_v43 main_v44 main_v45 (maximumf : (⟨S8192x1, .f32⟩ : BufTy).Contents (Elt F) → (⟨S8192x1, .f32⟩ : BufTy).Contents (Elt F) → (⟨S8192x1, .f32⟩ : BufTy).Contents (Elt F))
  :: StableHlo.nullary main_cst_11 (constant S_ .f32 0x3F800000#32)
  :: StableHlo.unary main_cst_11 main_v46 (broadcastInDim S8192x1 ![] bcast_S_S8192x1 : (⟨S_, .f32⟩ : BufTy).Contents (Elt F) → (⟨S8192x1, .f32⟩ : BufTy).Contents (Elt F))
  :: StableHlo.binary main_v46 main_v45 main_v47 (Host.divf : (⟨S8192x1, .f32⟩ : BufTy).Contents (Elt F) → (⟨S8192x1, .f32⟩ : BufTy).Contents (Elt F) → (⟨S8192x1, .f32⟩ : BufTy).Contents (Elt F))
  :: StableHlo.unary main_v41 main_v48 ((truncf .bf16 · bitsLt_bf16_f32) : (⟨S8192x8192, .f32⟩ : BufTy).Contents (Elt F) → (⟨S8192x8192, .bf16⟩ : BufTy).Contents (Elt F))
  :: StableHlo.unary main_arg4 main_v49 ((extractStridedSlice S1 ![0] · slices_S4_S1_0) : (⟨S4, .f32⟩ : BufTy).Contents (Elt F) → (⟨S1, .f32⟩ : BufTy).Contents (Elt F))
  :: StableHlo.reshape main_v49 main_v50 rfl shapeCasts_S1_S_
  :: StableHlo.unary main_v50 main_v51 (broadcastInDim S8192x512 ![] bcast_S_S8192x512 : (⟨S_, .f32⟩ : BufTy).Contents (Elt F) → (⟨S8192x512, .f32⟩ : BufTy).Contents (Elt F))
  :: StableHlo.binary main_v51 main_v3 main_v52 (mulf : (⟨S8192x512, .f32⟩ : BufTy).Contents (Elt F) → (⟨S8192x512, .f32⟩ : BufTy).Contents (Elt F) → (⟨S8192x512, .f32⟩ : BufTy).Contents (Elt F))
  :: StableHlo.unary main_v3 main_v53 ((truncf .bf16 · bitsLt_bf16_f32) : (⟨S8192x512, .f32⟩ : BufTy).Contents (Elt F) → (⟨S8192x512, .bf16⟩ : BufTy).Contents (Elt F))
  :: [] )

/-- The stretch is the four stages end to end. -/
theorem hostOps1_eq : (hostOps1 (F := F)) = LA (F := F) ++ (LB (F := F) ++ (LC (F := F) ++ LD (F := F))) := rfl

end Lists

/-! ## The reciprocal row sums and the scaled features, as functions of what they read -/

/-- The reciprocal of each row's sum clamped below at one: the sum along axis 1 from zero, as a column, its maximum with the
    column of ones, and the column of ones divided by it. -/
def invRow (A : (⟨S8192x8192, .f32⟩ : BufTy).Contents (Elt Ideal)) : (⟨S8192x1, .f32⟩ : BufTy).Contents (Elt Ideal) :=
  Host.divf (F := Ideal)
    (broadcastInDim S8192x1 ![] bcast_S_S8192x1 (constant (F := Ideal) S_ .f32 0x3F800000#32))
    (maximumf (F := Ideal)
      (broadcastInDim S8192x1 ![0] bcast_S8192_S8192x1_0
        (Host.reduceAdd (F := Ideal) A (constant (F := Ideal) S_ .f32 0x00000000#32) reducesTo_S8192x8192_S8192_d1 h_S_))
      (broadcastInDim S8192x1 ![] bcast_S_S8192x1 (constant (F := Ideal) S_ .f32 0x3F800000#32)))

/-- The first hop weight, everywhere: entry `0` of the weight vector, made a scalar and broadcast. -/
def scale0 (dw : (⟨S4, .f32⟩ : BufTy).Contents (Elt Ideal)) : (⟨S8192x512, .f32⟩ : BufTy).Contents (Elt Ideal) :=
  broadcastInDim S8192x512 ![] bcast_S_S8192x512
    (shapeCast S_ (extractStridedSlice S1 ![0] dw slices_S4_S1_0) shapeCasts_S1_S_)

/-! ## The four stages -/

section Stages

variable (W : Valuation Cert.KernelIdeal.τ Cert.KernelIdeal.sig (Elt Ideal))

/-! ### Stage one -/

theorem A_v5 : after (LA (F := Ideal)) W (Proc.devRef .tc main_v5) = kv5 (F := Ideal) (W (Proc.devRef .tc main_arg1)) := by
  after_results_simp
  rfl
theorem A_v7 : after (LA (F := Ideal)) W (Proc.devRef .tc main_v7) = kv7 (F := Ideal) (W (Proc.devRef .tc main_arg1)) := by
  after_results_simp
  rfl
theorem A_arg4 : after (LA (F := Ideal)) W (Proc.devRef .tc main_arg4) = W (Proc.devRef .tc main_arg4) := by
  after_results_simp
theorem A_v3 : after (LA (F := Ideal)) W (Proc.devRef .tc main_v3) = W (Proc.devRef .tc main_v3) := by
  after_results_simp

/-! ### Stage two -/

theorem B_v21 (e : EdgeBuf Ideal) (h5 : W (Proc.devRef .tc main_v5) = kv5 (F := Ideal) e) (h7 : W (Proc.devRef .tc main_v7) = kv7 (F := Ideal) e) :
    after (LB (F := Ideal)) W (Proc.devRef .tc main_v21) = kv21 (F := Ideal) e := by
  after_results_simp
  rw [h5, h7]
  rfl
theorem B_v22 (e : EdgeBuf Ideal) (h5 : W (Proc.devRef .tc main_v5) = kv5 (F := Ideal) e) (h7 : W (Proc.devRef .tc main_v7) = kv7 (F := Ideal) e) :
    after (LB (F := Ideal)) W (Proc.devRef .tc main_v22) = kv22 (F := Ideal) e := by
  after_results_simp
  rw [binary_result_ne (r := main_v7) (h := by decide), binary_result_ne (r := main_v5) (h := by decide)]
  rw [h5, h7]
  rfl
theorem B_v10 : after (LB (F := Ideal)) W (Proc.devRef .tc main_v10) = kv10 (F := Ideal) := by
  after_results_simp
  rfl
theorem B_arg4 : after (LB (F := Ideal)) W (Proc.devRef .tc main_arg4) = W (Proc.devRef .tc main_arg4) := by
  after_results_simp
theorem B_v3 : after (LB (F := Ideal)) W (Proc.devRef .tc main_v3) = W (Proc.devRef .tc main_v3) := by
  after_results_simp

/-! ### Stage three -/

theorem C_v25 (e : EdgeBuf Ideal) (h21 : W (Proc.devRef .tc main_v21) = kv21 (F := Ideal) e)
    (h22 : W (Proc.devRef .tc main_v22) = kv22 (F := Ideal) e) (h10 : W (Proc.devRef .tc main_v10) = kv10 (F := Ideal)) :
    after (LC (F := Ideal)) W (Proc.devRef .tc main_v25) = kv25 (F := Ideal) e := by
  after_results_simp
  rw [h21, h22, h10]
  rfl
theorem C_v37 : after (LC (F := Ideal)) W (Proc.devRef .tc main_v37) = kv37 (F := Ideal) := by
  after_results_simp
  rfl
theorem C_v38 : after (LC (F := Ideal)) W (Proc.devRef .tc main_v38) = kv37 (F := Ideal) := by
  after_results_simp
  rfl
theorem C_arg4 : after (LC (F := Ideal)) W (Proc.devRef .tc main_arg4) = W (Proc.devRef .tc main_arg4) := by
  after_results_simp
theorem C_v3 : after (LC (F := Ideal)) W (Proc.devRef .tc main_v3) = W (Proc.devRef .tc main_v3) := by
  after_results_simp

/-! ### Stage four -/

theorem D_v41 (e : EdgeBuf Ideal) (h25 : W (Proc.devRef .tc main_v25) = kv25 (F := Ideal) e)
    (h37 : W (Proc.devRef .tc main_v37) = kv37 (F := Ideal)) (h38 : W (Proc.devRef .tc main_v38) = kv37 (F := Ideal)) :
    after (LD (F := Ideal)) W (Proc.devRef .tc main_v41) = adjK e := by
  after_results_simp
  rw [h25, h37, h38]
  rfl
theorem D_v48 (e : EdgeBuf Ideal) (h25 : W (Proc.devRef .tc main_v25) = kv25 (F := Ideal) e)
    (h37 : W (Proc.devRef .tc main_v37) = kv37 (F := Ideal)) (h38 : W (Proc.devRef .tc main_v38) = kv37 (F := Ideal)) :
    after (LD (F := Ideal)) W (Proc.devRef .tc main_v48) = adjK e := by
  have h : after (LD (F := Ideal)) W (Proc.devRef .tc main_v48)
      = ((truncf (F := Ideal) .bf16 · bitsLt_bf16_f32) : (⟨S8192x8192, .f32⟩ : BufTy).Contents (Elt Ideal) → (⟨S8192x8192, .bf16⟩ : BufTy).Contents (Elt Ideal))
          (after (LD (F := Ideal)) W (Proc.devRef .tc main_v41)) := by
    after_results_simp
  rw [h, D_v41 W e h25 h37 h38]
  funext i
  rfl
theorem D_v47 (e : EdgeBuf Ideal) (h25 : W (Proc.devRef .tc main_v25) = kv25 (F := Ideal) e)
    (h37 : W (Proc.devRef .tc main_v37) = kv37 (F := Ideal)) (h38 : W (Proc.devRef .tc main_v38) = kv37 (F := Ideal)) :
    after (LD (F := Ideal)) W (Proc.devRef .tc main_v47) = invRow (adjK e) := by
  have h : after (LD (F := Ideal)) W (Proc.devRef .tc main_v47) = invRow (after (LD (F := Ideal)) W (Proc.devRef .tc main_v41)) := by
    after_results_simp
    rfl
  rw [h, D_v41 W e h25 h37 h38]
theorem D_v52 : after (LD (F := Ideal)) W (Proc.devRef .tc main_v52)
    = mulf (F := Ideal) (φ := .f32) (scale0 (W (Proc.devRef .tc main_arg4))) (W (Proc.devRef .tc main_v3)) := by
  after_results_simp
  rfl
theorem D_v53 : after (LD (F := Ideal)) W (Proc.devRef .tc main_v53) = W (Proc.devRef .tc main_v3) := by
  after_results_simp
  funext i
  rfl

end Stages

/-! ## The stretch -/

section Stretch

variable (Wb : Valuation Cert.KernelIdeal.τ Cert.KernelIdeal.sig (Elt Ideal))

/-- What the third stage leaves of the adjacency's pieces, from the stretch's start. -/
theorem stage3 :
    after (LC (F := Ideal)) (after (LB (F := Ideal)) (after (LA (F := Ideal)) Wb)) (Proc.devRef .tc main_v25)
        = kv25 (F := Ideal) (Wb (Proc.devRef .tc main_arg1))
      ∧ after (LC (F := Ideal)) (after (LB (F := Ideal)) (after (LA (F := Ideal)) Wb)) (Proc.devRef .tc main_v37) = kv37 (F := Ideal)
      ∧ after (LC (F := Ideal)) (after (LB (F := Ideal)) (after (LA (F := Ideal)) Wb)) (Proc.devRef .tc main_v38) = kv37 (F := Ideal) := by
  have hA5 := A_v5 Wb
  have hA7 := A_v7 Wb
  have hB21 := B_v21 (after (LA (F := Ideal)) Wb) _ hA5 hA7
  have hB22 := B_v22 (after (LA (F := Ideal)) Wb) _ hA5 hA7
  have hB10 := B_v10 (after (LA (F := Ideal)) Wb)
  exact ⟨C_v25 _ _ hB21 hB22 hB10, C_v37 _, C_v38 _⟩

/-- After the stretch the adjacency buffer holds the kernel's adjacency of the edge list. -/
theorem host1_v41 : after (hostOps1 (F := Ideal)) Wb (Proc.devRef .tc main_v41) = adjK (Wb (Proc.devRef .tc main_arg1)) := by
  rw [hostOps1_eq, after_append, after_append, after_append]
  obtain ⟨h25, h37, h38⟩ := stage3 Wb
  exact D_v41 _ _ h25 h37 h38

/-- Its narrowed copy holds the same numbers. -/
theorem host1_v48 : after (hostOps1 (F := Ideal)) Wb (Proc.devRef .tc main_v48) = adjK (Wb (Proc.devRef .tc main_arg1)) := by
  rw [hostOps1_eq, after_append, after_append, after_append]
  obtain ⟨h25, h37, h38⟩ := stage3 Wb
  exact D_v48 _ _ h25 h37 h38

/-- The reciprocal row sums are those of the adjacency. -/
theorem host1_v47 : after (hostOps1 (F := Ideal)) Wb (Proc.devRef .tc main_v47) = invRow (adjK (Wb (Proc.devRef .tc main_arg1))) := by
  rw [hostOps1_eq, after_append, after_append, after_append]
  obtain ⟨h25, h37, h38⟩ := stage3 Wb
  exact D_v47 _ _ h25 h37 h38

/-- The scaled first-hop features: the first hop weight times the features the first launch left. -/
theorem host1_v52 : after (hostOps1 (F := Ideal)) Wb (Proc.devRef .tc main_v52)
    = mulf (F := Ideal) (φ := .f32) (scale0 (Wb (Proc.devRef .tc main_arg4))) (Wb (Proc.devRef .tc main_v3)) := by
  rw [hostOps1_eq, after_append, after_append, after_append, D_v52, C_arg4, B_arg4, A_arg4, C_v3, B_v3, A_v3]

/-- The narrowed features hold the features' numbers. -/
theorem host1_v53 : after (hostOps1 (F := Ideal)) Wb (Proc.devRef .tc main_v53) = Wb (Proc.devRef .tc main_v3) := by
  rw [hostOps1_eq, after_append, after_append, after_append, D_v53, C_v3, B_v3, A_v3]

end Stretch

/-! ## Read at an index -/

/-- A row's sum from zero. -/
theorem rowSum_apply (A : (⟨S8192x8192, .f32⟩ : BufTy).Contents (Elt Ideal)) (p : Fin 8192) :
    Host.reduceAdd (F := Ideal) A (constant (F := Ideal) S_ .f32 0x00000000#32) reducesTo_S8192x8192_S8192_d1 h_S_ (ix1 p)
      = Ideal.ofBits .f32 0x00000000#32 + ∑ k : Fin 8192, A (ix2 p k) := by
  simp only [Host.reduceAdd, Ideal.hostReduceAdd_def]
  rw [Ideal.hostReduceAdd_single reducesTo_S8192x8192_S8192_d1 (by decide)]
  refine congrArg (_ + ·) (Finset.sum_congr rfl fun k _ => ?_)
  exact congrArg A (funext fun a => Fin.ext (by match a with | ⟨0, _⟩ => rfl | ⟨1, _⟩ => rfl))

/-- The reciprocal row sum of row `p`: one divided by the larger of the row's sum and one. -/
theorem invRow_apply (A : (⟨S8192x8192, .f32⟩ : BufTy).Contents (Elt Ideal)) (p : Fin 8192) :
    invRow A (ix2 p (0 : Fin 1)) = Ideal.div (Ideal.ofBits .f32 0x3F800000#32)
      (max (Ideal.ofBits .f32 0x00000000#32 + ∑ k : Fin 8192, A (ix2 p k)) (Ideal.ofBits .f32 0x3F800000#32)) := by
  have h1 : broadcastInDim S8192x1 ![] bcast_S_S8192x1 (constant (F := Ideal) S_ .f32 0x3F800000#32) (ix2 p (0 : Fin 1))
      = Ideal.ofBits .f32 0x3F800000#32 :=
    bcast_scalar_apply S8192x1 bcast_S_S8192x1 (constant (F := Ideal) S_ .f32 0x3F800000#32) (ix2 p (0 : Fin 1))
  have h2 : broadcastInDim S8192x1 ![0] bcast_S8192_S8192x1_0
        (Host.reduceAdd (F := Ideal) A (constant (F := Ideal) S_ .f32 0x00000000#32) reducesTo_S8192x8192_S8192_d1 h_S_) (ix2 p (0 : Fin 1))
      = Ideal.ofBits .f32 0x00000000#32 + ∑ k : Fin 8192, A (ix2 p k) :=
    (bcast_col_apply bcast_S8192_S8192x1_0 _ p 0).trans (rowSum_apply A p)
  show Ideal.div (broadcastInDim S8192x1 ![] bcast_S_S8192x1 (constant (F := Ideal) S_ .f32 0x3F800000#32) (ix2 p (0 : Fin 1)))
      (max (broadcastInDim S8192x1 ![0] bcast_S8192_S8192x1_0
          (Host.reduceAdd (F := Ideal) A (constant (F := Ideal) S_ .f32 0x00000000#32) reducesTo_S8192x8192_S8192_d1 h_S_) (ix2 p (0 : Fin 1)))
        (broadcastInDim S8192x1 ![] bcast_S_S8192x1 (constant (F := Ideal) S_ .f32 0x3F800000#32) (ix2 p (0 : Fin 1)))) = _
  rw [h1, h2]

/-- The first hop weight, everywhere. -/
theorem scale0_apply (dw : (⟨S4, .f32⟩ : BufTy).Contents (Elt Ideal)) (i : S8192x512.Idx) :
    scale0 dw i = dw (ix1 (0 : Fin 4)) := by
  unfold scale0
  rw [bcast_scalar_apply]
  have hn : S_.numel = 1 := by decide
  have hs : shapeCast S_ (extractStridedSlice S1 ![0] dw slices_S4_S1_0) shapeCasts_S1_S_ ix0
      = extractStridedSlice S1 ![0] dw slices_S4_S1_0 (ix1 (0 : Fin 1)) :=
    shapeCast_apply _ shapeCasts_S1_S_ ix0 (ix1 (0 : Fin 1)) (by
      rw [Shape.rowMajor_val_one]
      have := (S_.rowMajor ix0).isLt
      show 0 = (S_.rowMajor ix0).val
      omega)
  rw [hs]
  exact extractStridedSlice_apply ![0] dw slices_S4_S1_0 (ix1 (0 : Fin 1)) (ix1 (0 : Fin 4)) (fun a => match a with
    | ⟨0, _⟩ => rfl)

end Cert.Bridge.Host
-- ==== Proof.KI.Trace.lean ====
/-
  The kernel program's result, followed through its ten segments.  From the launch memory: the first host stretch hands
  the linear region the two operands and the bias row, and the region leaves H = x·w + b; the long stretch builds the
  adjacency A from the edge list, its inverse clamped row sums v, the first term w₀·H of the output and the first hop's
  operand; each diffusion region leaves C ↦ (A·C) scaled row by row by v, and the stretch after it adds the hop's
  weight times that to the output; the last stretch takes the positive part.  A buffer that a segment neither writes nor
  stages as an output keeps its contents, which is how A, v and the weights reach the later segments.
-/
import proofs.«108811_j10385230921953_2_alg».proof.Proof.KI.Run
import proofs.«108811_j10385230921953_2_alg».proof.Proof.KI.LinearValue
import proofs.«108811_j10385230921953_2_alg».proof.Proof.KI.DiffValue1
import proofs.«108811_j10385230921953_2_alg».proof.Proof.KI.DiffValue2
import proofs.«108811_j10385230921953_2_alg».proof.Proof.KI.DiffValue3
import proofs.«108811_j10385230921953_2_alg».proof.Proof.KI.HostSmall
import proofs.«108811_j10385230921953_2_alg».proof.Proof.HostStretch

noncomputable section
namespace Cert.KernelIdeal.Val
open Cert.KernelIdeal Cert.KernelIdeal.Gen Cert.KernelIdeal.Fr
open Idealize.ShloMosaic Idealize.ShloMosaic.TcCoe Idealize.SL.Sem Idealize.ShloMosaic.ValueIdx Idealize.ShloMosaic.StableHlo
open Cert.Bridge.Adj Cert.Bridge.Host

variable (m : (ℓ : Loc nD τ sig) → Buf (Elt Ideal) ℓ) (ρ : Dev nD → PrngReg) (c : Dev nD)

/-! ## The values, as functions of the launch memory -/

/-- H = x·w + b. -/
def tH : S8192x512.Idx → EReal := lin (m ((c : Thread nD τ).loc main_arg0)) (m ((c : Thread nD τ).loc main_arg2)) (shapeCast S1x512 (m ((c : Thread nD τ).loc main_arg3)) shapeCasts_S512_S1x512)
/-- The adjacency. -/
def tA : S8192x8192.Idx → EReal := adjK (m ((c : Thread nD τ).loc main_arg1))
/-- The inverse clamped row sums. -/
def tV : S8192x1.Idx → EReal := invRow (tA m c)
/-- The three hops. -/
def tC1 : S8192x512.Idx → EReal := diffuse (tA m c) (tH m c) (tV m c)
def tC2 : S8192x512.Idx → EReal := diffuse (tA m c) (tC1 m c) (tV m c)
def tC3 : S8192x512.Idx → EReal := diffuse (tA m c) (tC2 m c) (tV m c)
/-- The running output. -/
def tO0 : S8192x512.Idx → EReal := mulf (F := Ideal) (s := S8192x512) (φ := .f32) (scale0 (m ((c : Thread nD τ).loc main_arg4))) (tH m c)
def tO1 : S8192x512.Idx → EReal := addf (F := Ideal) (s := S8192x512) (φ := .f32) (tO0 m c) (mulf (F := Ideal) (s := S8192x512) (φ := .f32) (scale1 (m ((c : Thread nD τ).loc main_arg4))) (tC1 m c))
def tO2 : S8192x512.Idx → EReal := addf (F := Ideal) (s := S8192x512) (φ := .f32) (tO1 m c) (mulf (F := Ideal) (s := S8192x512) (φ := .f32) (scale2 (m ((c : Thread nD τ).loc main_arg4))) (tC2 m c))
def tO3 : S8192x512.Idx → EReal := addf (F := Ideal) (s := S8192x512) (φ := .f32) (tO2 m c) (mulf (F := Ideal) (s := S8192x512) (φ := .f32) (scale3 (m ((c : Thread nD τ).loc main_arg4))) (tC3 m c))
/-- The result. -/
def tRes : S8192x512.Idx → EReal :=
  maximumf (F := Ideal) (s := S8192x512) (φ := .f32) (tO3 m c) (broadcastInDim S8192x512 ![] bcast_S_S8192x512 (constant (F := Ideal) S_ .f32 0x00000000#32))

/-! ## The arguments reach every segment unchanged -/

theorem W2_arg (r : Ref sig .tc) (h0 : r ∉ hostOps0_W) (a0 : ∀ w, Pipeline.arrRef spec0 w ≠ r) :
    W2 m ρ c (Proc.devRef .tc r) = m ((c : Thread nD τ).loc r) :=
  (W2_of_ne m ρ c r a0).trans ((StableHlo.after_of_writes_sub hostOps0 _ hostOps0_writes h0).trans rfl)
theorem W3_keep (r : Ref sig .tc) (h : r ∉ hostOps1_W) : W3 m ρ c (Proc.devRef .tc r) = W2 m ρ c (Proc.devRef .tc r) :=
  StableHlo.after_of_writes_sub hostOps1 _ hostOps1_writes h
theorem W5_keep (r : Ref sig .tc) (h : r ∉ hostOps2_W) : W5 m ρ c (Proc.devRef .tc r) = W4 m ρ c (Proc.devRef .tc r) :=
  StableHlo.after_of_writes_sub hostOps2 _ hostOps2_writes h
theorem W7_keep (r : Ref sig .tc) (h : r ∉ hostOps3_W) : W7 m ρ c (Proc.devRef .tc r) = W6 m ρ c (Proc.devRef .tc r) :=
  StableHlo.after_of_writes_sub hostOps3 _ hostOps3_writes h
theorem W9_keep (r : Ref sig .tc) (h : r ∉ hostOps4_W) : W9 m ρ c (Proc.devRef .tc r) = W8 m ρ c (Proc.devRef .tc r) :=
  StableHlo.after_of_writes_sub hostOps4 _ hostOps4_writes h

/-! ## The linear region -/

theorem t2_v3 : W2 m ρ c (Proc.devRef .tc main_v3) = tH m c := by
  have e0 : Ve1 m ρ c main_v0 = (m ((c : Thread nD τ).loc main_arg0)) := host0_v0 (W0 m ρ c)
  have e1 : Ve1 m ρ c main_v1 = (m ((c : Thread nD τ).loc main_arg2)) := host0_v1 (W0 m ρ c)
  have e2 : Ve1 m ρ c main_v2 = shapeCast S1x512 (m ((c : Thread nD τ).loc main_arg3)) shapeCasts_S512_S1x512 := host0_v2 (W0 m ρ c)
  refine (W2_arr m ρ c 3).trans ((final0 (Ve1 m ρ) c).trans ?_)
  rw [e0, e1, e2]
  rfl

/-! ## The long host stretch -/

theorem t3_v48 : W3 m ρ c (Proc.devRef .tc main_v48) = tA m c := by
  refine (host1_v48 (W2 m ρ c)).trans ?_
  rw [W2_arg m ρ c main_arg1 (by decide) (by decide)]
  rfl
theorem t3_v47 : W3 m ρ c (Proc.devRef .tc main_v47) = tV m c := by
  refine (host1_v47 (W2 m ρ c)).trans ?_
  rw [W2_arg m ρ c main_arg1 (by decide) (by decide)]
  rfl
theorem t3_v53 : W3 m ρ c (Proc.devRef .tc main_v53) = tH m c :=
  (host1_v53 (W2 m ρ c)).trans (t2_v3 m ρ c)
theorem t3_v52 : W3 m ρ c (Proc.devRef .tc main_v52) = tO0 m c := by
  refine (host1_v52 (W2 m ρ c)).trans ?_
  rw [W2_arg m ρ c main_arg4 (by decide) (by decide), t2_v3 m ρ c]
  rfl
theorem t3_arg4 : W3 m ρ c (Proc.devRef .tc main_arg4) = (m ((c : Thread nD τ).loc main_arg4)) :=
  (W3_keep m ρ c main_arg4 (by decide)).trans (W2_arg m ρ c main_arg4 (by decide) (by decide))

/-! ## The first hop -/

theorem t4_v54 : W4 m ρ c (Proc.devRef .tc main_v54) = tC1 m c := by
  refine (W4_arr m ρ c 3).trans ((final1 (Ve3 m ρ) c).trans ?_)
  rw [show Ve3 m ρ c main_v48 = tA m c from t3_v48 m ρ c, show Ve3 m ρ c main_v53 = tH m c from t3_v53 m ρ c,
    show Ve3 m ρ c main_v47 = tV m c from t3_v47 m ρ c]
  rfl
theorem t4_v48 : W4 m ρ c (Proc.devRef .tc main_v48) = tA m c :=
  ((W4_arr m ρ c 0).trans (((dat1 (Ve3 m ρ) c).arrAt_in 0 rfl _).trans (A_eq1 (Ve3 m ρ) c 0))).trans (t3_v48 m ρ c)
theorem t4_v47 : W4 m ρ c (Proc.devRef .tc main_v47) = tV m c :=
  ((W4_arr m ρ c 2).trans (((dat1 (Ve3 m ρ) c).arrAt_in 2 rfl _).trans (A_eq1 (Ve3 m ρ) c 2))).trans (t3_v47 m ρ c)
theorem t4_v52 : W4 m ρ c (Proc.devRef .tc main_v52) = tO0 m c :=
  (W4_of_ne m ρ c main_v52 (by decide)).trans (t3_v52 m ρ c)
theorem t4_arg4 : W4 m ρ c (Proc.devRef .tc main_arg4) = (m ((c : Thread nD τ).loc main_arg4)) :=
  (W4_of_ne m ρ c main_arg4 (by decide)).trans (t3_arg4 m ρ c)

theorem t5_v59 : W5 m ρ c (Proc.devRef .tc main_v59) = tO1 m c := by
  refine (host2_v59 (W4 m ρ c)).trans ?_
  rw [t4_v52 m ρ c, t4_arg4 m ρ c, t4_v54 m ρ c]
  rfl
theorem t5_v60 : W5 m ρ c (Proc.devRef .tc main_v60) = tC1 m c :=
  (host2_v60 (W4 m ρ c)).trans (t4_v54 m ρ c)
theorem t5_v48 : W5 m ρ c (Proc.devRef .tc main_v48) = tA m c := (W5_keep m ρ c main_v48 (by decide)).trans (t4_v48 m ρ c)
theorem t5_v47 : W5 m ρ c (Proc.devRef .tc main_v47) = tV m c := (W5_keep m ρ c main_v47 (by decide)).trans (t4_v47 m ρ c)
theorem t5_arg4 : W5 m ρ c (Proc.devRef .tc main_arg4) = (m ((c : Thread nD τ).loc main_arg4)) := (W5_keep m ρ c main_arg4 (by decide)).trans (t4_arg4 m ρ c)

/-! ## The second hop -/

theorem t6_v61 : W6 m ρ c (Proc.devRef .tc main_v61) = tC2 m c := by
  refine (W6_arr m ρ c 3).trans ((final2 (Ve5 m ρ) c).trans ?_)
  rw [show Ve5 m ρ c main_v48 = tA m c from t5_v48 m ρ c, show Ve5 m ρ c main_v60 = tC1 m c from t5_v60 m ρ c,
    show Ve5 m ρ c main_v47 = tV m c from t5_v47 m ρ c]
  rfl
theorem t6_v48 : W6 m ρ c (Proc.devRef .tc main_v48) = tA m c :=
  ((W6_arr m ρ c 0).trans (((dat2 (Ve5 m ρ) c).arrAt_in 0 rfl _).trans (A_eq2 (Ve5 m ρ) c 0))).trans (t5_v48 m ρ c)
theorem t6_v47 : W6 m ρ c (Proc.devRef .tc main_v47) = tV m c :=
  ((W6_arr m ρ c 2).trans (((dat2 (Ve5 m ρ) c).arrAt_in 2 rfl _).trans (A_eq2 (Ve5 m ρ) c 2))).trans (t5_v47 m ρ c)
theorem t6_v59 : W6 m ρ c (Proc.devRef .tc main_v59) = tO1 m c :=
  (W6_of_ne m ρ c main_v59 (by decide)).trans (t5_v59 m ρ c)
theorem t6_arg4 : W6 m ρ c (Proc.devRef .tc main_arg4) = (m ((c : Thread nD τ).loc main_arg4)) :=
  (W6_of_ne m ρ c main_arg4 (by decide)).trans (t5_arg4 m ρ c)

theorem t7_v66 : W7 m ρ c (Proc.devRef .tc main_v66) = tO2 m c := by
  refine (host3_v66 (W6 m ρ c)).trans ?_
  rw [t6_v59 m ρ c, t6_arg4 m ρ c, t6_v61 m ρ c]
  rfl
theorem t7_v67 : W7 m ρ c (Proc.devRef .tc main_v67) = tC2 m c :=
  (host3_v67 (W6 m ρ c)).trans (t6_v61 m ρ c)
theorem t7_v48 : W7 m ρ c (Proc.devRef .tc main_v48) = tA m c := (W7_keep m ρ c main_v48 (by decide)).trans (t6_v48 m ρ c)
theorem t7_v47 : W7 m ρ c (Proc.devRef .tc main_v47) = tV m c := (W7_keep m ρ c main_v47 (by decide)).trans (t6_v47 m ρ c)
theorem t7_arg4 : W7 m ρ c (Proc.devRef .tc main_arg4) = (m ((c : Thread nD τ).loc main_arg4)) := (W7_keep m ρ c main_arg4 (by decide)).trans (t6_arg4 m ρ c)

/-! ## The third hop and the end -/

theorem t8_v68 : W8 m ρ c (Proc.devRef .tc main_v68) = tC3 m c := by
  refine (W8_arr m ρ c 3).trans ((final3 (Ve7 m ρ) c).trans ?_)
  rw [show Ve7 m ρ c main_v48 = tA m c from t7_v48 m ρ c, show Ve7 m ρ c main_v67 = tC2 m c from t7_v67 m ρ c,
    show Ve7 m ρ c main_v47 = tV m c from t7_v47 m ρ c]
  rfl
theorem t8_v66 : W8 m ρ c (Proc.devRef .tc main_v66) = tO2 m c :=
  (W8_of_ne m ρ c main_v66 (by decide)).trans (t7_v66 m ρ c)
theorem t8_arg4 : W8 m ρ c (Proc.devRef .tc main_arg4) = (m ((c : Thread nD τ).loc main_arg4)) :=
  (W8_of_ne m ρ c main_arg4 (by decide)).trans (t7_arg4 m ρ c)

theorem t9_v73 : W9 m ρ c (Proc.devRef .tc main_v73) = tO3 m c := by
  refine (host4_v73 (W8 m ρ c)).trans ?_
  rw [t8_v66 m ρ c, t8_arg4 m ρ c, t8_v68 m ρ c]
  rfl

/-- THE RESULT: at the end the result buffer holds the positive part of the weighted sum of H and its three hops. -/
theorem t10_v74 : W10 m ρ c (Proc.devRef .tc main_v74) = tRes m c := by
  refine (host41_v74 (W9 m ρ c)).trans ?_
  rw [t9_v73 m ρ c]
  rfl

end Cert.KernelIdeal.Val
end
-- ==== Proof.RefRead.lean ====
/-
  The reference program's result at an index, in closed form over the extended reals.  With H = x·W + b, A the
  unnormalized adjacency with self loops, m(p) = max(0 + Σₖ A(p,k), 1) its clamped row sums, and one diffusion hop
  (hop X)(p,q) = Σₙ (A(p,n) / m(p)) · X(n,q), the result at (p,q) is
  max(((d₀·H + d₁·hop H) + d₂·hop(hop H)) + d₃·hop(hop(hop H)), 0) at (p,q), the sums and products in the order the
  program's operations have them.
-/
import proofs.«108811_j10385230921953_2_alg».proof.Proof.Gen.ReferenceIdeal.Read
import Idealize.ShloMosaic.Lib.ValueIdx
import Idealize.ShloMosaic.PureOps.Ideal.Laws

noncomputable section

namespace Cert.Bridge.Ref

open Cert.ReferenceIdeal Cert.ReferenceIdeal.Read Idealize.ShloMosaic ValueIdx
open scoped BigOperators

/-- The linear transform at (p, q): row p of x against column q of W, plus the bias at q. -/
def Hr (x : S8192x512.Idx → EReal) (w : S512x512.Idx → EReal) (b : S512.Idx → EReal) (p : Fin 8192) (q : Fin 512) : EReal :=
  (∑ k : Fin 512, x (ix2 p k) * w (ix2 k q)) + b (ix1 q)

/-- The clamped row sum of row p: the larger of 0 + Σₖ A(p,k) and 1. -/
def mr (A : S8192x8192.Idx → EReal) (p : Fin 8192) : EReal :=
  max (Ideal.ofBits .f32 0x00000000#32 + ∑ k : Fin 8192, A (ix2 p k)) (Ideal.ofBits .f32 0x3F800000#32)

/-- One diffusion hop at (p, q): row p of the row-normalized adjacency against column q of X. -/
def hop (A : S8192x8192.Idx → EReal) (X : Fin 8192 → Fin 512 → EReal) (p : Fin 8192) (q : Fin 512) : EReal :=
  ∑ n : Fin 8192, Ideal.div (A (ix2 p n)) (mr A p) * X n q

/-! ## The linear transform -/

theorem v3_at (x : (⟨S8192x512, .f32⟩ : BufTy).Contents (Elt Ideal)) (w : (⟨S512x512, .f32⟩ : BufTy).Contents (Elt Ideal)) (b : (⟨S512, .f32⟩ : BufTy).Contents (Elt Ideal)) (p : Fin 8192) (q : Fin 512) :
    val_main_v3 (F := Ideal) x w b (ix2 p q) = Hr x w b p q := by
  rw [val_main_v3_apply, val_main_v0_apply, val_main_v2_apply, val_main_v1_apply]
  refine congrArg₂ (· + ·) (Finset.sum_congr rfl fun k _ => ?_) (congrArg b ?_)
  · have hl : lidx_main_v0 (ix2 p q) k = ix2 p k := by funext a; match a with | ⟨0, _⟩ => rfl | ⟨1, _⟩ => rfl
    have hr : ridx_main_v0 (ix2 p q) k = ix2 k q := by funext a; match a with | ⟨0, _⟩ => rfl | ⟨1, _⟩ => rfl
    rw [hl, hr]
  · funext a; match a with | ⟨0, _⟩ => rfl

/-! ## The row-normalized adjacency -/

theorem v46_at (e : (⟨S2x262144, .i32⟩ : BufTy).Contents (Elt Ideal)) (p : Fin 8192) :
    val_main_v46 (F := Ideal) e (ix1 p) = Ideal.ofBits .f32 0x00000000#32 + ∑ k : Fin 8192, (val_main_v45 (F := Ideal) e) (ix2 p k) := by
  rw [val_main_v46_apply]
  refine congrArg₂ (· + ·) rfl (Finset.sum_congr rfl fun k _ => congrArg _ ?_)
  funext a; match a with | ⟨0, _⟩ => rfl | ⟨1, _⟩ => rfl

theorem v49_at (e : (⟨S2x262144, .i32⟩ : BufTy).Contents (Elt Ideal)) (p : Fin 8192) (z : Fin 1) :
    val_main_v49 (F := Ideal) e (ix2 p z) = mr (val_main_v45 (F := Ideal) e) p := by
  rw [val_main_v49_apply, val_main_v47_apply, val_main_v48_apply]
  have hi : idx_main_v47 (ix2 p z) = ix1 p := by funext a; match a with | ⟨0, _⟩ => rfl
  rw [hi, v46_at]
  rfl

theorem v51_at (e : (⟨S2x262144, .i32⟩ : BufTy).Contents (Elt Ideal)) (p n : Fin 8192) :
    val_main_v51 (F := Ideal) e (ix2 p n) = Ideal.div ((val_main_v45 (F := Ideal) e) (ix2 p n)) (mr (val_main_v45 (F := Ideal) e) p) := by
  rw [val_main_v51_apply, val_main_v50_apply]
  have hi : idx_main_v50 (ix2 p n) = ix2 p (0 : Fin 1) := by funext a; match a with | ⟨0, _⟩ => rfl | ⟨1, _⟩ => rfl
  rw [hi, v49_at]
  rfl

/-! ## The three hops -/

theorem v56_at (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (p : Fin 8192) (q : Fin 512) :
    val_main_v56 (F := Ideal) x e w b (ix2 p q) = hop (val_main_v45 (F := Ideal) e) (Hr x w b) p q := by
  rw [val_main_v56_apply]
  show _ = ∑ n : Fin 8192, Ideal.div ((val_main_v45 (F := Ideal) e) (ix2 p n)) (mr (val_main_v45 (F := Ideal) e) p) * Hr x w b n q
  refine Finset.sum_congr rfl fun n _ => ?_
  have hl : lidx_main_v56 (ix2 p q) n = ix2 p n := by funext a; match a with | ⟨0, _⟩ => rfl | ⟨1, _⟩ => rfl
  have hr : ridx_main_v56 (ix2 p q) n = ix2 n q := by funext a; match a with | ⟨0, _⟩ => rfl | ⟨1, _⟩ => rfl
  rw [hl, hr, v51_at, v3_at]

theorem v62_at (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (p : Fin 8192) (q : Fin 512) :
    val_main_v62 (F := Ideal) x e w b (ix2 p q) = hop (val_main_v45 (F := Ideal) e) (hop (val_main_v45 (F := Ideal) e) (Hr x w b)) p q := by
  rw [val_main_v62_apply]
  show _ = ∑ n : Fin 8192, Ideal.div ((val_main_v45 (F := Ideal) e) (ix2 p n)) (mr (val_main_v45 (F := Ideal) e) p) * hop (val_main_v45 (F := Ideal) e) (Hr x w b) n q
  refine Finset.sum_congr rfl fun n _ => ?_
  have hl : lidx_main_v62 (ix2 p q) n = ix2 p n := by funext a; match a with | ⟨0, _⟩ => rfl | ⟨1, _⟩ => rfl
  have hr : ridx_main_v62 (ix2 p q) n = ix2 n q := by funext a; match a with | ⟨0, _⟩ => rfl | ⟨1, _⟩ => rfl
  rw [hl, hr, v51_at, v56_at]

theorem v68_at (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (p : Fin 8192) (q : Fin 512) :
    val_main_v68 (F := Ideal) x e w b (ix2 p q) = hop (val_main_v45 (F := Ideal) e) (hop (val_main_v45 (F := Ideal) e) (hop (val_main_v45 (F := Ideal) e) (Hr x w b))) p q := by
  rw [val_main_v68_apply]
  show _ = ∑ n : Fin 8192, Ideal.div ((val_main_v45 (F := Ideal) e) (ix2 p n)) (mr (val_main_v45 (F := Ideal) e) p) * hop (val_main_v45 (F := Ideal) e) (hop (val_main_v45 (F := Ideal) e) (Hr x w b)) n q
  refine Finset.sum_congr rfl fun n _ => ?_
  have hl : lidx_main_v68 (ix2 p q) n = ix2 p n := by funext a; match a with | ⟨0, _⟩ => rfl | ⟨1, _⟩ => rfl
  have hr : ridx_main_v68 (ix2 p q) n = ix2 n q := by funext a; match a with | ⟨0, _⟩ => rfl | ⟨1, _⟩ => rfl
  rw [hl, hr, v51_at, v62_at]

/-! ## The four hop weights: entry k of the weights, sliced out, recast to a scalar and broadcast -/

theorem w0_at (dw : (⟨S4, .f32⟩ : BufTy).Contents (Elt Ideal)) (i : S8192x512.Idx) :
    val_main_v54 (F := Ideal) dw i = dw (ix1 (0 : Fin 4)) := by
  rw [val_main_v54_apply]
  show val_main_v52 (F := Ideal) dw (Shape.reshapeEquiv _ _) = _
  rw [val_main_v52_apply]
  generalize Shape.reshapeEquiv _ _ = j
  refine congrArg dw (funext fun a => ?_)
  match a with
  | ⟨0, _⟩ =>
    refine Fin.ext ?_
    have h1 : (j 0).val < 1 := (j 0).isLt
    show (j 0).val = 0
    omega

theorem w1_at (dw : (⟨S4, .f32⟩ : BufTy).Contents (Elt Ideal)) (i : S8192x512.Idx) :
    val_main_v59 (F := Ideal) dw i = dw (ix1 (1 : Fin 4)) := by
  rw [val_main_v59_apply]
  show val_main_v57 (F := Ideal) dw (Shape.reshapeEquiv _ _) = _
  rw [val_main_v57_apply]
  generalize Shape.reshapeEquiv _ _ = j
  refine congrArg dw (funext fun a => ?_)
  match a with
  | ⟨0, _⟩ =>
    refine Fin.ext ?_
    have h1 : (j 0).val < 1 := (j 0).isLt
    show 1 + (j 0).val = 1
    omega

theorem w2_at (dw : (⟨S4, .f32⟩ : BufTy).Contents (Elt Ideal)) (i : S8192x512.Idx) :
    val_main_v65 (F := Ideal) dw i = dw (ix1 (2 : Fin 4)) := by
  rw [val_main_v65_apply]
  show val_main_v63 (F := Ideal) dw (Shape.reshapeEquiv _ _) = _
  rw [val_main_v63_apply]
  generalize Shape.reshapeEquiv _ _ = j
  refine congrArg dw (funext fun a => ?_)
  match a with
  | ⟨0, _⟩ =>
    refine Fin.ext ?_
    have h1 : (j 0).val < 1 := (j 0).isLt
    show 2 + (j 0).val = 2
    omega

theorem w3_at (dw : (⟨S4, .f32⟩ : BufTy).Contents (Elt Ideal)) (i : S8192x512.Idx) :
    val_main_v71 (F := Ideal) dw i = dw (ix1 (3 : Fin 4)) := by
  rw [val_main_v71_apply]
  show val_main_v69 (F := Ideal) dw (Shape.reshapeEquiv _ _) = _
  rw [val_main_v69_apply]
  generalize Shape.reshapeEquiv _ _ = j
  refine congrArg dw (funext fun a => ?_)
  match a with
  | ⟨0, _⟩ =>
    refine Fin.ext ?_
    have h1 : (j 0).val < 1 := (j 0).isLt
    show 3 + (j 0).val = 3
    omega

/-! ## The result -/

theorem ref_apply (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (dw : (⟨S4, .f32⟩ : BufTy).Contents (Elt Ideal)) (p : Fin 8192) (q : Fin 512) :
    val_main_v74 (F := Ideal) x e w b dw (ix2 p q)
      = max (((dw (ix1 (0 : Fin 4)) * Hr x w b p q + dw (ix1 (1 : Fin 4)) * hop (val_main_v45 (F := Ideal) e) (Hr x w b) p q)
          + dw (ix1 (2 : Fin 4)) * hop (val_main_v45 (F := Ideal) e) (hop (val_main_v45 (F := Ideal) e) (Hr x w b)) p q)
          + dw (ix1 (3 : Fin 4)) * hop (val_main_v45 (F := Ideal) e) (hop (val_main_v45 (F := Ideal) e) (hop (val_main_v45 (F := Ideal) e) (Hr x w b))) p q)
        (Ideal.ofBits .f32 0x00000000#32) := by
  rw [val_main_v74_apply, val_main_v73_apply, val_main_v67_apply, val_main_v61_apply, val_main_v55_apply,
    val_main_v60_apply, val_main_v66_apply, val_main_v72_apply, w0_at, w1_at, w2_at, w3_at, v3_at, v56_at, v62_at, v68_at,
    val_main_call0_v0_apply]
  rfl

end Cert.Bridge.Ref

end
-- ==== Proof.BridgeCore.lean ====
/-
  The kernel's closed form against the reference's, the arithmetic.  Every entry of the adjacency A is a real number ≥ 0,
  so a row's clamped sum m(p) = max(0 + Σₖ A(p,k), 1) is a real number ≥ 1, in particular not zero; for real X,
  dividing each entry of row p by m(p) before the product with X (the reference) is multiplying the product by 1/m(p)
  afterwards (the kernel): Σₙ (A(p,n)/m(p))·X(n,q) = (Σₙ A(p,n)·X(n,q))·(1/m(p)), and the result is real again, so
  the three hops agree one after the other.
-/
import proofs.«108811_j10385230921953_2_alg».proof.Proof.RefRead
import proofs.«108811_j10385230921953_2_alg».proof.Proof.DiffuseLaw
import proofs.«108811_j10385230921953_2_alg».proof.Proof.LibRealClosed
import Idealize.ShloMosaic.Lib.Pipeline.Value
import Idealize.ShloMosaic.Lib.ValueIdx

noncomputable section

namespace Cert.Bridge.Final

open Idealize.ShloMosaic ValueIdx LibRealClosed Cert.Bridge.Ref Cert.Bridge.Law
open Cert.ReferenceIdeal (S8192x512 S8192x8192 S512x512 S512 S4 S2x262144)
open scoped BigOperators

/-! ## The clamped row sums are nonzero reals -/

/-- A row's clamped sum is a real number, and not zero (it is at least one). -/
theorem mr_real (A : S8192x8192.Idx → EReal) (hA : ∀ i, ∃ r : ℝ, 0 ≤ r ∧ A i = (r : EReal)) (p : Fin 8192) :
    ∃ r : ℝ, r ≠ 0 ∧ mr A p = (r : EReal) := by
  choose f hf0 hf using hA
  refine ⟨max (∑ k : Fin 8192, f (ix2 p k)) 1, ?_, ?_⟩
  · have h1 : (1 : ℝ) ≤ max (∑ k : Fin 8192, f (ix2 p k)) 1 := le_max_right _ _
    intro h0; rw [h0] at h1; norm_num at h1
  · unfold mr
    have hs : (∑ k : Fin 8192, A (ix2 p k)) = ((∑ k : Fin 8192, f (ix2 p k) : ℝ) : EReal) := by
      rw [coe_sum]; exact Finset.sum_congr rfl fun k _ => hf _
    rw [ofBits_zero, ofBits_one, zero_add, hs]
    exact (EReal.coe_strictMono.monotone.map_max).symm

/-- An entry of the linear transform of real inputs is real. -/
theorem Hr_real (x : S8192x512.Idx → EReal) (w : S512x512.Idx → EReal) (b : S512.Idx → EReal)
    (hx : ∀ i, IsReal (x i)) (hw : ∀ i, IsReal (w i)) (hb : ∀ i, IsReal (b i)) (p : Fin 8192) (q : Fin 512) :
    IsReal (Hr x w b p q) :=
  (IsReal.sum _ _ fun k _ => (hx _).mul (hw _)).add (hb _)

/-! ## One hop -/

/-- Scaling row p of the product A·X by 1/m(p) is the reference's hop, and the hop of a real X is real. -/
theorem hop_step (A : S8192x8192.Idx → EReal) (hA : ∀ i, ∃ r : ℝ, 0 ≤ r ∧ A i = (r : EReal))
    (Xf : Fin 8192 → Fin 512 → EReal) (hX : ∀ n q, IsReal (Xf n q)) (p : Fin 8192) (q : Fin 512) :
    (∑ n : Fin 8192, A (ix2 p n) * Xf n q) * Ideal.div (Ideal.ofBits .f32 0x3F800000#32) (mr A p) = hop A Xf p q
      ∧ IsReal (hop A Xf p q) := by
  have ha : ∀ n : Fin 8192, IsReal (A (ix2 p n)) := fun n => by
    obtain ⟨r, -, hr⟩ := hA (ix2 p n); exact ⟨r, hr⟩
  have hm := mr_real A hA p
  exact ⟨(row_scale (fun n => A (ix2 p n)) (fun n => Xf n q) (mr A p) ha (fun n => hX n q) hm).symm,
    (row_scale_real (fun n => A (ix2 p n)) (fun n => Xf n q) (mr A p) ha (fun n => hX n q) hm).1⟩

/-- The kernel's hop at (p, q) — the product's entry times the row's factor v(p, 0) = 1/m(p) — of an X whose entries are
    those of Xf, real, is the reference's hop of Xf there. -/
theorem diff_at (A : S8192x8192.Idx → EReal) (hA : ∀ i, ∃ r : ℝ, 0 ≤ r ∧ A i = (r : EReal))
    (X : S8192x512.Idx → EReal) (Xf : Fin 8192 → Fin 512 → EReal) (hXf : ∀ n q, X (ix2 n q) = Xf n q)
    (hX : ∀ n q, IsReal (Xf n q)) (v : (⟨2, ![8192, 1]⟩ : Shape).Idx → EReal)
    (hv : ∀ p : Fin 8192, v (ix2 p (0 : Fin 1)) = Ideal.div (Ideal.ofBits .f32 0x3F800000#32) (mr A p)) (p : Fin 8192) (q : Fin 512) :
    (∑ n : Fin 8192, A (ix2 p n) * X (ix2 n q)) * v (ix2 p (0 : Fin 1)) = hop A Xf p q := by
  rw [hv, ← (hop_step A hA Xf hX p q).1]
  refine congrArg (· * _) (Finset.sum_congr rfl fun n _ => ?_)
  rw [hXf]

/-! ## The hop weights and the zero array -/

/-- Entry k of the weights, sliced out, recast to a scalar and spread over any shape, reads that entry everywhere. -/
theorem scale_at {t : Shape} (hb : (⟨0, ![]⟩ : Shape).BroadcastsInDim t (![] : Fin 0 → Fin t.rank))
    (hc : (⟨1, ![1]⟩ : Shape).ShapeCasts ⟨0, ![]⟩) (k : ℕ) (hk : k < 4)
    (hs : (⟨1, ![4]⟩ : Shape).Slices ![k] ⟨1, ![1]⟩) (dw : (⟨1, ![4]⟩ : Shape).Idx → EReal) (i : t.Idx) :
    broadcastInDim t ![] hb (shapeCast ⟨0, ![]⟩ (extractStridedSlice ⟨1, ![1]⟩ ![k] dw hs) hc) i = dw (ix1 ⟨k, hk⟩) := by
  rw [broadcastInDim_apply _ hb _ i ix0 (fun a => a.elim0)]
  show dw _ = _
  refine congrArg dw (funext fun a => ?_)
  match a with
  | ⟨0, _⟩ =>
    refine Fin.ext ?_
    generalize Shape.reshapeEquiv hc ix0 = j
    have h1 : (j 0).val < 1 := (j 0).isLt
    show k + (j 0).val = k
    omega

/-- The scalar zero spread over any shape reads zero everywhere. -/
theorem zero_at {t : Shape} (hb : (⟨0, ![]⟩ : Shape).BroadcastsInDim t (![] : Fin 0 → Fin t.rank)) (i : t.Idx) :
    broadcastInDim t ![] hb (constant (F := Ideal) ⟨0, ![]⟩ .f32 0x00000000#32) i = (Ideal.ofBits .f32 0x00000000#32) := by
  rw [broadcastInDim_apply _ hb _ i ix0 (fun a => a.elim0)]
  rfl

/-! ## The result -/

/-- The weighted sum of the linear transform and its three hops, clamped at zero, is the reference's result at (p, q). -/
theorem combine (x : (⟨S8192x512, .f32⟩ : BufTy).Contents (Elt Ideal)) (e : (⟨S2x262144, .i32⟩ : BufTy).Contents (Elt Ideal))
    (w : (⟨S512x512, .f32⟩ : BufTy).Contents (Elt Ideal)) (b : (⟨S512, .f32⟩ : BufTy).Contents (Elt Ideal))
    (dw : (⟨S4, .f32⟩ : BufTy).Contents (Elt Ideal)) (p : Fin 8192) (q : Fin 512) (h c1 c2 c3 : EReal)
    (hh : h = Hr x w b p q)
    (h1 : c1 = hop (Cert.ReferenceIdeal.Read.val_main_v45 (F := Ideal) e) (Hr x w b) p q)
    (h2 : c2 = hop (Cert.ReferenceIdeal.Read.val_main_v45 (F := Ideal) e) (hop (Cert.ReferenceIdeal.Read.val_main_v45 (F := Ideal) e) (Hr x w b)) p q)
    (h3 : c3 = hop (Cert.ReferenceIdeal.Read.val_main_v45 (F := Ideal) e) (hop (Cert.ReferenceIdeal.Read.val_main_v45 (F := Ideal) e) (hop (Cert.ReferenceIdeal.Read.val_main_v45 (F := Ideal) e) (Hr x w b))) p q) :
    max (((dw (ix1 (0 : Fin 4)) * h + dw (ix1 (1 : Fin 4)) * c1) + dw (ix1 (2 : Fin 4)) * c2) + dw (ix1 (3 : Fin 4)) * c3) (Ideal.ofBits .f32 0x00000000#32)
      = Cert.ReferenceIdeal.Read.val_main_v74 (F := Ideal) x e w b dw (ix2 p q) := by
  rw [ref_apply, hh, h1, h2, h3]

end Cert.Bridge.Final

end
-- ==== Proof.BridgeGen.lean ====
/-
  The kernel's closed form, as one function of the inputs, equals the reference's result when the float inputs are
  real.  The kernel computes H = x·W + b once, then three times C ← (A·C)·(1/m) row by row, and returns
  max(((d₀·H + d₁·C₁) + d₂·C₂) + d₃·C₃, 0); the reference normalizes A's rows first.  Stated here for any column v
  with v(p,0) = 1/m(p) and any array s₀ reading d₀ everywhere.
-/
import proofs.«108811_j10385230921953_2_alg».proof.Proof.BridgeCore
import proofs.«108811_j10385230921953_2_alg».proof.Proof.KI.DiffValue1
import proofs.«108811_j10385230921953_2_alg».proof.Proof.KI.HostSmall
import proofs.«108811_j10385230921953_2_alg».proof.Proof.Adjacency
import proofs.«108811_j10385230921953_2_alg».proof.Proof.LibColumnForms

noncomputable section

namespace Cert.Bridge.Final

open Cert.KernelIdeal Cert.KernelIdeal.Gen Cert.KernelIdeal.Val
open Idealize.ShloMosaic ValueIdx LibRealClosed Cert.Bridge.Ref Cert.Bridge.Law Cert.Bridge.Adj
open scoped BigOperators

/-- The linear transform: x·W plus the bias as a row. -/
def kH (x : (⟨S8192x512, .f32⟩ : BufTy).Contents (Elt Ideal)) (w : (⟨S512x512, .f32⟩ : BufTy).Contents (Elt Ideal)) (b : (⟨S512, .f32⟩ : BufTy).Contents (Elt Ideal)) : (⟨S8192x512, .f32⟩ : BufTy).Contents (Elt Ideal) :=
  lin x w (shapeCast S1x512 b shapeCasts_S512_S1x512)
/-- The first, second and third hop: the product with the adjacency, row p scaled by v(p, 0). -/
def kC1 (v : (⟨S8192x1, .f32⟩ : BufTy).Contents (Elt Ideal)) (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) : (⟨S8192x512, .f32⟩ : BufTy).Contents (Elt Ideal) := diffuse (adjK e) (kH x w b) v
def kC2 (v : (⟨S8192x1, .f32⟩ : BufTy).Contents (Elt Ideal)) (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) : (⟨S8192x512, .f32⟩ : BufTy).Contents (Elt Ideal) := diffuse (adjK e) (kC1 v x e w b) v
def kC3 (v : (⟨S8192x1, .f32⟩ : BufTy).Contents (Elt Ideal)) (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) : (⟨S8192x512, .f32⟩ : BufTy).Contents (Elt Ideal) := diffuse (adjK e) (kC2 v x e w b) v
/-- The weighted sum of the four, clamped at zero. -/
def kOutG (v : (⟨S8192x1, .f32⟩ : BufTy).Contents (Elt Ideal)) (s0 : (⟨S8192x512, .f32⟩ : BufTy).Contents (Elt Ideal)) (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (dw : (⟨S4, .f32⟩ : BufTy).Contents (Elt Ideal)) : (⟨S8192x512, .f32⟩ : BufTy).Contents (Elt Ideal) :=
  maximumf (F := Ideal) (s := S8192x512) (φ := .f32)
    (addf (F := Ideal) (s := S8192x512) (φ := .f32) (addf (F := Ideal) (s := S8192x512) (φ := .f32) (addf (F := Ideal) (s := S8192x512) (φ := .f32) (mulf (F := Ideal) (s := S8192x512) (φ := .f32) s0 (kH x w b)) (mulf (F := Ideal) (s := S8192x512) (φ := .f32) (scale1 dw) (kC1 v x e w b)))
      (mulf (F := Ideal) (s := S8192x512) (φ := .f32) (scale2 dw) (kC2 v x e w b))) (mulf (F := Ideal) (s := S8192x512) (φ := .f32) (scale3 dw) (kC3 v x e w b)))
    (broadcastInDim S8192x512 ![] bcast_S_S8192x512 (constant (F := Ideal) S_ .f32 0x00000000#32))

theorem scale1_at (dw : (⟨S4, .f32⟩ : BufTy).Contents (Elt Ideal)) (i : S8192x512.Idx) : scale1 dw i = dw (ix1 (1 : Fin 4)) :=
  scale_at _ _ 1 (by decide) _ dw i
theorem scale2_at (dw : (⟨S4, .f32⟩ : BufTy).Contents (Elt Ideal)) (i : S8192x512.Idx) : scale2 dw i = dw (ix1 (2 : Fin 4)) :=
  scale_at _ _ 2 (by decide) _ dw i
theorem scale3_at (dw : (⟨S4, .f32⟩ : BufTy).Contents (Elt Ideal)) (i : S8192x512.Idx) : scale3 dw i = dw (ix1 (3 : Fin 4)) :=
  scale_at _ _ 3 (by decide) _ dw i

/-- The linear transform at (p, q). -/
theorem kH_at (x : (⟨S8192x512, .f32⟩ : BufTy).Contents (Elt Ideal)) (w : (⟨S512x512, .f32⟩ : BufTy).Contents (Elt Ideal)) (b : (⟨S512, .f32⟩ : BufTy).Contents (Elt Ideal)) (p : Fin 8192) (q : Fin 512) :
    kH x w b (ix2 p q) = Hr x w b p q := by
  show linAt x w (shapeCast S1x512 b shapeCasts_S512_S1x512) p q = _
  unfold linAt Hr
  rw [Cert.Lib.ColumnForms.shapeCast_row_apply]

/-- With v(p, 0) = 1/m(p), s₀ = d₀ everywhere and real inputs, the kernel's closed form is the reference's result. -/
theorem kOutG_eq_ref (v : (⟨S8192x1, .f32⟩ : BufTy).Contents (Elt Ideal)) (s0 : (⟨S8192x512, .f32⟩ : BufTy).Contents (Elt Ideal)) (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (dw : (⟨S4, .f32⟩ : BufTy).Contents (Elt Ideal))
    (hv : ∀ p : Fin 8192, v (ix2 p (0 : Fin 1))
      = Ideal.div (Ideal.ofBits .f32 0x3F800000#32) (max ((Ideal.ofBits .f32 0x00000000#32) + ∑ k : Fin 8192, adjK e (ix2 p k)) (Ideal.ofBits .f32 0x3F800000#32)))
    (hs0 : ∀ i, s0 i = dw (ix1 (0 : Fin 4)))
    (hx : ∀ i, IsReal (x i)) (hw : ∀ i, IsReal (w i)) (hb : ∀ i, IsReal (b i)) :
    kOutG v s0 x e w b dw = Cert.ReferenceIdeal.Read.val_main_v74 (F := Ideal) x e w b dw := by
  funext i
  obtain ⟨p, q, rfl⟩ : ∃ (p : Fin 8192) (q : Fin 512), i = ix2 p q := ⟨i 0, i 1, eq_ix2 i⟩
  have hA := adj_real e
  have hAe := adj_eq e
  have hHr := Hr_real x w b hx hw hb
  have hR1 : ∀ n q, IsReal (hop (adjK e) (Hr x w b) n q) := fun n q => (hop_step (adjK e) hA _ hHr n q).2
  have hR2 : ∀ n q, IsReal (hop (adjK e) (hop (adjK e) (Hr x w b)) n q) := fun n q => (hop_step (adjK e) hA _ hR1 n q).2
  have h1 : ∀ p q, kC1 v x e w b (ix2 p q) = hop (adjK e) (Hr x w b) p q := fun p q =>
    diff_at (adjK e) hA (kH x w b) (Hr x w b) (kH_at x w b) hHr v hv p q
  have h2 : ∀ p q, kC2 v x e w b (ix2 p q) = hop (adjK e) (hop (adjK e) (Hr x w b)) p q := fun p q =>
    diff_at (adjK e) hA (kC1 v x e w b) _ h1 hR1 v hv p q
  have h3 : ∀ p q, kC3 v x e w b (ix2 p q) = hop (adjK e) (hop (adjK e) (hop (adjK e) (Hr x w b))) p q := fun p q =>
    diff_at (adjK e) hA (kC2 v x e w b) _ h2 hR2 v hv p q
  rw [hAe] at h1 h2 h3
  refine Eq.trans ?_ (combine x e w b dw p q _ _ _ _ (kH_at x w b p q) (h1 p q) (h2 p q) (h3 p q))
  show max (((s0 _ * _ + scale1 dw _ * _) + scale2 dw _ * _) + scale3 dw _ * _) (broadcastInDim _ _ _ _ _) = _
  rw [hs0, scale1_at, scale2_at, scale3_at, zero_at]

end Cert.Bridge.Final

end
-- ==== Proof.Bridge.lean ====
/-
  The kernel's closed form equals the reference's result under real inputs: the general statement at the kernel's own
  column of reciprocal clamped row sums and its own array of the first hop weight.
-/
import proofs.«108811_j10385230921953_2_alg».proof.Proof.BridgeGen
import proofs.«108811_j10385230921953_2_alg».proof.Proof.HostStretch

noncomputable section

namespace Cert.Bridge.Final

open Cert.KernelIdeal Cert.KernelIdeal.Gen Cert.KernelIdeal.Val
open Idealize.ShloMosaic ValueIdx LibRealClosed Cert.Bridge.Adj Cert.Bridge.Host

/-- The kernel's result as one function of the inputs: H = x·W + b, three hops C ← (A·C) scaled row by row by the
    reciprocal clamped row sums, and max(((d₀·H + d₁·C₁) + d₂·C₂) + d₃·C₃, 0). -/
def kOut (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (dw : (⟨S4, .f32⟩ : BufTy).Contents (Elt Ideal)) : (⟨S8192x512, .f32⟩ : BufTy).Contents (Elt Ideal) :=
  kOutG (invRow (adjK e)) (scale0 dw) x e w b dw

/-- Under real inputs it is the reference's result. -/
theorem kOut_eq_ref (x : (⟨S8192x512, .f32⟩ : BufTy).Contents (Elt Ideal)) (e : (⟨S2x262144, .i32⟩ : BufTy).Contents (Elt Ideal)) (w : (⟨S512x512, .f32⟩ : BufTy).Contents (Elt Ideal)) (b : (⟨S512, .f32⟩ : BufTy).Contents (Elt Ideal)) (dw : (⟨S4, .f32⟩ : BufTy).Contents (Elt Ideal))
    (hx : ∀ i, IsReal (x i)) (hw : ∀ i, IsReal (w i)) (hb : ∀ i, IsReal (b i)) :
    kOut x e w b dw = Cert.ReferenceIdeal.Read.val_main_v74 (F := Ideal) x e w b dw :=
  kOutG_eq_ref (invRow (adjK e)) (scale0 dw) x e w b dw (invRow_apply (adjK e)) (scale0_apply dw) hx hw hb

end Cert.Bridge.Final

end
-- ==== Proof.Finite.lean ====
/-
  Every entry of the four float inputs is a real number.  The precondition is the conjunction of four tests, one per float
  input x: all entries of |x| are below +∞.  An "all" that came out true met only true entries; an entry with
  max(x, -x) < +∞ is neither infinity (at -∞ the maximum is +∞, at +∞ it is +∞), so it is the image of a real number.
-/
import proofs.«108811_j10385230921953_2_alg».proof.Defs
import proofs.«108811_j10385230921953_2_alg».proof.Proof.Gen.Pre_finite_inputs
import proofs.«108811_j10385230921953_2_alg».proof.Proof.LibRealClosed
import Idealize.ShloMosaic.Lib.ReduceAll
import Idealize.ShloMosaic.Lib.ValueIdx

namespace Cert.Bridge.Fin

open Idealize.ShloMosaic Idealize.SL.Sem LibRealClosed
open Cert.Pre_finite_inputs (S_)

/-- The scalar shape has one index. -/
instance : Subsingleton S_.Idx := ⟨fun a b => funext fun d => d.elim0⟩

/-- The f32 pattern 0x7F800000 (all-ones exponent, zero significand, sign clear) denotes +∞. -/
theorem inf_bits : Ideal.ofBits .f32 0x7F800000#32 = (⊤ : EReal) := by
  simp [Ideal.ofBits, Ideal.ieee]

/-- An ordered "less than" that came out true: the left side is below the right. -/
theorem lt_of_cmp_olt {a b : EReal} (h : Ideal.cmp .olt a b = 1#1) : a < b := by
  have h' : BitVec.ofBool (decide (a < b)) = 1#1 := h
  by_contra hn
  rw [decide_eq_false hn] at h'
  exact absurd h' (by decide)

/-- An extended real whose absolute value max(x, -x) is below +∞ is a real number. -/
theorem isReal_of_abs_lt_top (x : EReal) (h : max x (-x) < ⊤) : IsReal x := by
  induction x using EReal.rec with
  | bot => simp at h
  | top => simp at h
  | coe r => exact ⟨r, rfl⟩

/-- One test, over any shape: if "all entries of |x| are below +∞" came out true, every entry of x is a real number. -/
theorem all_real {S : Shape} {axes : List (Fin S.rank)} (x : FVec Ideal S .f32)
    (hb : S_.BroadcastsInDim S (![] : Fin 0 → Fin S.rank)) (hr : S.ReducesTo axes S_) (hpos : 0 < S_.numel)
    (e : Host.reduce IntOp.andi (cmpf .olt (Host.absf x) (broadcastInDim S ![] hb (constant S_ .f32 0x7F800000#32)))
      (constantI S_ 1 1#1) hr hpos ValueIdx.ix0 = 1#1)
    (i : S.Idx) : IsReal (x i) := by
  have hi := Host.reduce_andi_all _ _ hr hpos ValueIdx.ix0 e i
  have hc : Ideal.cmp .olt (max (x i) (-(x i))) (Ideal.ofBits .f32 0x7F800000#32) = 1#1 := hi
  rw [inf_bits] at hc
  exact isReal_of_abs_lt_top _ (lt_of_cmp_olt hc)

/-- Under the precondition every entry of the node features, the weight matrix, the bias and the diffusion weights is a
    real number, on every device. -/
theorem real_inputs [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i)) ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i)) ∧ (∀ i, IsReal (m ((c.tc : Thread Cert.KernelIdeal.nD Cert.KernelIdeal.τ).loc Cert.KernelIdeal.main_arg4) i)) := by
  have h0 := congrFun (h c) ValueIdx.ix0
  dsimp only [Cert.Pre_finite_inputs.fn, Cert.Pre_finite_inputs.fn_part1] at h0
  obtain ⟨h012, h4⟩ := IntOp.andi_eq_one.1 h0
  obtain ⟨h01, h3⟩ := IntOp.andi_eq_one.1 h012
  obtain ⟨h0', h2⟩ := IntOp.andi_eq_one.1 h01
  exact ⟨all_real _ _ _ _ h0', all_real _ _ _ _ h2, all_real _ _ _ _ h3, all_real _ _ _ _ h4⟩

end Cert.Bridge.Fin
-- ==== Proof.lean ====
/-
  The certificate's five claims.

  The kernel program is ten segments: host operations, a linear kernel region computing H = x·w + b block by block,
  the host operations that build the dense adjacency A from the edge list together with its inverse clamped row sums
  v = 1 / max(Σ_k A[p,k], 1), and three diffusion regions, each accumulating A·C over eight column blocks in a carried
  buffer and scaling row p by v[p] at the last step, with the host adding the hop's weight times the region's result to
  the running output; the positive part at the end.  The reference computes H the same way, writes A by two set-scatters
  and an identity matrix, divides A row by row by max(Σ_k A[p,k], 1) first and multiplies afterwards.

  The frames: each kernel region runs as a pipeline over its grid, the linear one with the untouched scoped rest as its
  invariant, a diffusion one with the carried accumulator's contents stated after every point; the ten segments chain
  from the launch memory, and nothing writes an argument array.  The same text proves the frame at the word-level
  instance and at the ideal one.  The reference is host operations only.

  The values agree at the ideal instance: the two adjacency builds hit the same set of positions with the same constant
  and add one on the diagonal, every entry is 0, 1 or 2; under the precondition every float input is a real number, so H
  and every hop are real, and for a real nonzero m the sum Σ_n (A[p,n] / m)·C[n,q] is (Σ_n A[p,n]·C[n,q])·(1 / m); the
  blocked accumulation is the whole sum because a sum of 8·1024 consecutive terms is the sum over 8 blocks of 1024.
  The ideal pass rewrote nothing, so the idealization claim is trivial.
-/
import proofs.«108811_j10385230921953_2_alg».proof.Defs
import proofs.«108811_j10385230921953_2_alg».proof.Proof.Gen.Kernel
import proofs.«108811_j10385230921953_2_alg».proof.Proof.Gen.Kernel.Skeleton
import proofs.«108811_j10385230921953_2_alg».proof.Proof.Gen.Kernel.Launch
import proofs.«108811_j10385230921953_2_alg».proof.Proof.Gen.Kernel.Regions
import proofs.«108811_j10385230921953_2_alg».proof.Proof.Gen.Kernel.Points
import proofs.«108811_j10385230921953_2_alg».proof.Proof.Gen.KernelIdeal
import proofs.«108811_j10385230921953_2_alg».proof.Proof.Gen.KernelIdeal.Skeleton
import proofs.«108811_j10385230921953_2_alg».proof.Proof.Gen.KernelIdeal.Launch
import proofs.«108811_j10385230921953_2_alg».proof.Proof.Gen.KernelIdeal.Regions
import proofs.«108811_j10385230921953_2_alg».proof.Proof.Gen.KernelIdeal.Points
import proofs.«108811_j10385230921953_2_alg».proof.Proof.Gen.ReferenceIdeal
import proofs.«108811_j10385230921953_2_alg».proof.Proof.Gen.Pre_finite_inputs
import proofs.«108811_j10385230921953_2_alg».proof.Proof.Gen.ReferenceIdeal.Run
import proofs.«108811_j10385230921953_2_alg».proof.Proof.Gen.ReferenceIdeal.Read
import proofs.«108811_j10385230921953_2_alg».proof.Proof.K.Run
import proofs.«108811_j10385230921953_2_alg».proof.Proof.KI.Run
import proofs.«108811_j10385230921953_2_alg».proof.Proof.KI.Trace
import proofs.«108811_j10385230921953_2_alg».proof.Proof.Bridge
import proofs.«108811_j10385230921953_2_alg».proof.Proof.Finite
import Idealize.ShloMosaic.Adequacy
import Idealize.ShloMosaic.Init

noncomputable section

namespace Cert.Proof

open Idealize.ShloMosaic Idealize.SL.Sem

/-- The word-level kernel program runs to the end, faults nowhere and leaves its argument arrays as launched. -/
theorem frame_p : Cert.frame_Kernel (hKernel := Cert.Kernel.Gen.facts) (hPre_finite_inputs := Cert.Pre_finite_inputs.Gen.facts) :=
  fun m ρ _ => Cert.Kernel.Fr.frame m ρ

/-- So does the idealized kernel program. -/
theorem frame_pi : Cert.frame_KernelIdeal (hKernelIdeal := Cert.KernelIdeal.Gen.facts) (hPre_finite_inputs := Cert.Pre_finite_inputs.Gen.facts) :=
  fun m ρ _ => Cert.KernelIdeal.Fr.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values the two programs, run from memories agreeing on the arguments, end with one result: the positive
    part of w₀·H + w₁·C₁ + w₂·C₂ + w₃·C₃, the kernel's from its traced run, the reference's from its run read index by
    index, equal because the inputs are real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.tRes m c, ?_, ?_⟩
  · refine (θ_run Cert.KernelIdeal.defs _ _).mono (fun _ h c => ?_) (Cert.KernelIdeal.Fr.run_all (F := Ideal) m ρ)
    exact ⟨(h c _ (Cert.KernelIdeal.Fr.mem_uc Cert.KernelIdeal.main_v74 (by decide))).trans (Cert.KernelIdeal.Val.t10_v74 m ρ c),
      (h c _ (Cert.KernelIdeal.Fr.mem_uc Cert.KernelIdeal.main_arg0 (by decide))).trans (Cert.KernelIdeal.Fr.W10_main_arg0 m ρ c),
      (h c _ (Cert.KernelIdeal.Fr.mem_uc Cert.KernelIdeal.main_arg1 (by decide))).trans (Cert.KernelIdeal.Fr.W10_main_arg1 m ρ c),
      (h c _ (Cert.KernelIdeal.Fr.mem_uc Cert.KernelIdeal.main_arg2 (by decide))).trans (Cert.KernelIdeal.Fr.W10_main_arg2 m ρ c),
      (h c _ (Cert.KernelIdeal.Fr.mem_uc Cert.KernelIdeal.main_arg3 (by decide))).trans (Cert.KernelIdeal.Fr.W10_main_arg3 m ρ c),
      (h c _ (Cert.KernelIdeal.Fr.mem_uc Cert.KernelIdeal.main_arg4 (by decide))).trans (Cert.KernelIdeal.Fr.W10_main_arg4 m ρ c)⟩
  · refine (θ_run Cert.ReferenceIdeal.defs _ _).mono (fun _ h c => ⟨(h c).1.trans ?_, (h c).2⟩)
      (Cert.ReferenceIdeal.Value.run (F := Ideal) m' ρ')
    obtain ⟨hx, hw, hb, hdw⟩ := Cert.Bridge.Fin.real_inputs (hK := Cert.KernelIdeal.Gen.facts) (hP := Cert.Pre_finite_inputs.Gen.facts) m hpre c
    rw [Cert.ReferenceIdeal.Read.val_main_v74_eq, (hagree c).1, (hagree c).2.1, (hagree c).2.2.1, (hagree c).2.2.2.1, (hagree c).2.2.2.2]
    exact (Cert.Bridge.Final.kOut_eq_ref _ _ _ _ _ hx hw hb).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
